-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v108)) (v1 : (c : Dev Cert.KernelIdeal.nD) → Buf (Elt Ideal) ((c.tc : Thread Cert.KernelIdeal.nD Cert.KernelIdeal.τ).loc Cert.KernelIdeal.main_v104_1)) (v2 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_v104_1) = v1 c
          ∧ r.2.mem ((c.tc : Thread Cert.KernelIdeal.nD Cert.KernelIdeal.τ).loc Cert.KernelIdeal.main_v110) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_v129) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S200000x32 : Shape := ⟨2, ![200000, 32]⟩
abbrev S20000x32 : Shape := ⟨2, ![20000, 32]⟩
abbrev S2000000 : Shape := ⟨1, ![2000000]⟩
abbrev S2000000x3 : Shape := ⟨2, ![2000000, 3]⟩
abbrev S1000000 : Shape := ⟨1, ![1000000]⟩
abbrev S32x32 : Shape := ⟨2, ![32, 32]⟩
abbrev S32 : Shape := ⟨1, ![32]⟩
abbrev S3x32 : Shape := ⟨2, ![3, 32]⟩
abbrev S32x1 : Shape := ⟨2, ![32, 1]⟩
abbrev S1 : Shape := ⟨1, ![1]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S200000x32 : S_.BroadcastsInDim S200000x32 (![] : Fin 0 → Fin S200000x32.rank)
  reducesTo_S200000x32_S_d0_1 : S200000x32.ReducesTo [0, 1] S_
  bcast_S_S20000x32 : S_.BroadcastsInDim S20000x32 (![] : Fin 0 → Fin S20000x32.rank)
  reducesTo_S20000x32_S_d0_1 : S20000x32.ReducesTo [0, 1] S_
  bcast_S_S2000000x3 : S_.BroadcastsInDim S2000000x3 (![] : Fin 0 → Fin S2000000x3.rank)
  reducesTo_S2000000x3_S_d0_1 : S2000000x3.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S3x32 : S_.BroadcastsInDim S3x32 (![] : Fin 0 → Fin S3x32.rank)
  reducesTo_S3x32_S_d0_1 : S3x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2000000 : S_.BroadcastsInDim S2000000 (![] : Fin 0 → Fin S2000000.rank)
  reducesTo_S2000000_S_d0 : S2000000.ReducesTo [0] S_

variable [Facts]

def fn_part7 {F : FTy → Type} [FloatOps F] (main_arg4 : IVec S2000000 32) (main_arg7 : IVec S2000000 32) (main_v118 : IVec S_ 1) (main_c_46 : IVec S_ 32) : IVec S_ 1 :=
  let main_v119 : IVec S2000000 32 := broadcastInDim S2000000 ![] bcast_S_S2000000 main_c_46
  let main_v120 : IVec S2000000 1 := cmpi .sge main_arg4 main_v119
  let main_c_47 : IVec S_ 1 := constantI S_ 1 1#1
  let main_v121 : IVec S_ 1 := (fun x v => Host.reduce IntOp.andi x v reducesTo_S2000000_S_d0 h_S_) main_v120 main_c_47
  let main_v122 : IVec S_ 1 := andi main_v118 main_v121
  let main_c_48 : IVec S_ 32 := constantI S_ 32 0#32
  let main_v123 : IVec S2000000 32 := broadcastInDim S2000000 ![] bcast_S_S2000000 main_c_48
  let main_v124 : IVec S2000000 1 := cmpi .sge main_arg7 main_v123
  let main_c_49 : IVec S_ 1 := constantI S_ 1 1#1
  let main_v125 : IVec S_ 1 := (fun x v => Host.reduce IntOp.andi x v reducesTo_S2000000_S_d0 h_S_) main_v124 main_c_49
  let main_v126 : IVec S_ 1 := andi main_v122 main_v125
  main_v126

def fn_part6 {F : FTy → Type} [FloatOps F] (main_arg4 : IVec S2000000 32) (main_arg7 : IVec S2000000 32) (main_arg29 : FVec F S32x1 .f32) (main_arg30 : FVec F S1 .f32) (main_arg31 : FVec F S1 .f32) (main_v98 : IVec S_ 1) (main_v101 : IVec S32x32 1) (main_c_39 : IVec S_ 1) : IVec S_ 1 :=
  let main_v102 : IVec S_ 1 := (fun x v => Host.reduce IntOp.andi x v reducesTo_S32x32_S_d0_1 h_S_) main_v101 main_c_39
  let main_v103 : IVec S_ 1 := andi main_v98 main_v102
  let main_v104 : FVec F S32x1 .f32 := Host.absf main_arg29
  let main_cst_40 : FVec F S_ .f32 := constant S_ .f32 0x7F800000#32
  let main_v105 : FVec F S32x1 .f32 := broadcastInDim S32x1 ![] bcast_S_S32x1 main_cst_40
  let main_v106 : IVec S32x1 1 := cmpf .olt main_v104 main_v105
  let main_c_41 : IVec S_ 1 := constantI S_ 1 1#1
  let main_v107 : IVec S_ 1 := (fun x v => Host.reduce IntOp.andi x v reducesTo_S32x1_S_d0_1 h_S_) main_v106 main_c_41
  let main_v108 : IVec S_ 1 := andi main_v103 main_v107
  let main_v109 : FVec F S1 .f32 := Host.absf main_arg30
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_v114 : FVec F S1 .f32 := Host.absf main_arg31
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  let main_c_46 : IVec S_ 32 := constantI S_ 32 0#32
  fn_part7 (F := F) main_arg4 main_arg7 main_v118 main_c_46

def fn_part5 {F : FTy → Type} [FloatOps F] (main_arg4 : IVec S2000000 32) (main_arg7 : IVec S2000000 32) (main_arg26 : FVec F S32x32 .f32) (main_arg27 : FVec F S32 .f32) (main_arg28 : FVec F S32x32 .f32) (main_arg29 : FVec F S32x1 .f32) (main_arg30 : FVec F S1 .f32) (main_arg31 : FVec F S1 .f32) (main_v83 : IVec S_ 1) (main_v84 : FVec F S32x32 .f32) (main_cst_32 : FVec F S_ .f32) : IVec S_ 1 :=
  let main_v85 : FVec F S32x32 .f32 := broadcastInDim S32x32 ![] bcast_S_S32x32 main_cst_32
  let main_v86 : IVec S32x32 1 := cmpf .olt main_v84 main_v85
  let main_c_33 : IVec S_ 1 := constantI S_ 1 1#1
  let main_v87 : IVec S_ 1 := (fun x v => Host.reduce IntOp.andi x v reducesTo_S32x32_S_d0_1 h_S_) main_v86 main_c_33
  let main_v88 : IVec S_ 1 := andi main_v83 main_v87
  let main_v89 : FVec F S32x32 .f32 := Host.absf main_arg26
  let main_cst_34 : FVec F S_ .f32 := constant S_ .f32 0x7F800000#32
  let main_v90 : FVec F S32x32 .f32 := broadcastInDim S32x32 ![] bcast_S_S32x32 main_cst_34
  let main_v91 : IVec S32x32 1 := cmpf .olt main_v89 main_v90
  let main_c_35 : IVec S_ 1 := constantI S_ 1 1#1
  let main_v92 : IVec S_ 1 := (fun x v => Host.reduce IntOp.andi x v reducesTo_S32x32_S_d0_1 h_S_) main_v91 main_c_35
  let main_v93 : IVec S_ 1 := andi main_v88 main_v92
  let main_v94 : FVec F S32 .f32 := Host.absf main_arg27
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32x32 .f32 := Host.absf main_arg28
  let main_cst_38 : FVec F S_ .f32 := constant S_ .f32 0x7F800000#32
  let main_v100 : FVec F S32x32 .f32 := broadcastInDim S32x32 ![] bcast_S_S32x32 main_cst_38
  let main_v101 : IVec S32x32 1 := cmpf .olt main_v99 main_v100
  let main_c_39 : IVec S_ 1 := constantI S_ 1 1#1
  fn_part6 (F := F) main_arg4 main_arg7 main_arg29 main_arg30 main_arg31 main_v98 main_v101 main_c_39

def fn_part4 {F : FTy → Type} [FloatOps F] (main_arg4 : IVec S2000000 32) (main_arg7 : IVec S2000000 32) (main_arg22 : FVec F S32 .f32) (main_arg23 : FVec F S32x32 .f32) (main_arg24 : FVec F S32 .f32) (main_arg25 : FVec F S32x32 .f32) (main_arg26 : FVec F S32x32 .f32) (main_arg27 : FVec F S32 .f32) (main_arg28 : FVec F S32x32 .f32) (main_arg29 : FVec F S32x1 .f32) (main_arg30 : FVec F S1 .f32) (main_arg31 : FVec F S1 .f32) (main_v63 : IVec S_ 1) (main_v67 : IVec S_ 1) : IVec S_ 1 :=
  let main_v68 : IVec S_ 1 := andi main_v63 main_v67
  let main_v69 : FVec F S32 .f32 := Host.absf main_arg22
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x32 .f32 := Host.absf main_arg23
  let main_cst_28 : FVec F S_ .f32 := constant S_ .f32 0x7F800000#32
  let main_v75 : FVec F S32x32 .f32 := broadcastInDim S32x32 ![] bcast_S_S32x32 main_cst_28
  let main_v76 : IVec S32x32 1 := cmpf .olt main_v74 main_v75
  let main_c_29 : IVec S_ 1 := constantI S_ 1 1#1
  let main_v77 : IVec S_ 1 := (fun x v => Host.reduce IntOp.andi x v reducesTo_S32x32_S_d0_1 h_S_) main_v76 main_c_29
  let main_v78 : IVec S_ 1 := andi main_v73 main_v77
  let main_v79 : FVec F S32 .f32 := Host.absf main_arg24
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x32 .f32 := Host.absf main_arg25
  let main_cst_32 : FVec F S_ .f32 := constant S_ .f32 0x7F800000#32
  fn_part5 (F := F) main_arg4 main_arg7 main_arg26 main_arg27 main_arg28 main_arg29 main_arg30 main_arg31 main_v83 main_v84 main_cst_32

def fn_part3 {F : FTy → Type} [FloatOps F] (main_arg4 : IVec S2000000 32) (main_arg7 : IVec S2000000 32) (main_arg19 : FVec F S32 .f32) (main_arg20 : FVec F S32x32 .f32) (main_arg21 : FVec F S3x32 .f32) (main_arg22 : FVec F S32 .f32) (main_arg23 : FVec F S32x32 .f32) (main_arg24 : FVec F S32 .f32) (main_arg25 : FVec F S32x32 .f32) (main_arg26 : FVec F S32x32 .f32) (main_arg27 : FVec F S32 .f32) (main_arg28 : FVec F S32x32 .f32) (main_arg29 : FVec F S32x1 .f32) (main_arg30 : FVec F S1 .f32) (main_arg31 : FVec F S1 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg19
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg20
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S3x32 .f32 := Host.absf main_arg21
  let main_cst_24 : FVec F S_ .f32 := constant S_ .f32 0x7F800000#32
  let main_v65 : FVec F S3x32 .f32 := broadcastInDim S3x32 ![] bcast_S_S3x32 main_cst_24
  let main_v66 : IVec S3x32 1 := cmpf .olt main_v64 main_v65
  let main_c_25 : IVec S_ 1 := constantI S_ 1 1#1
  let main_v67 : IVec S_ 1 := (fun x v => Host.reduce IntOp.andi x v reducesTo_S3x32_S_d0_1 h_S_) main_v66 main_c_25
  fn_part4 (F := F) main_arg4 main_arg7 main_arg22 main_arg23 main_arg24 main_arg25 main_arg26 main_arg27 main_arg28 main_arg29 main_arg30 main_arg31 main_v63 main_v67

def fn_part2 {F : FTy → Type} [FloatOps F] (main_arg4 : IVec S2000000 32) (main_arg7 : IVec S2000000 32) (main_arg15 : FVec F S32x32 .f32) (main_arg16 : FVec F S3x32 .f32) (main_arg17 : FVec F S32 .f32) (main_arg18 : FVec F S32x32 .f32) (main_arg19 : FVec F S32 .f32) (main_arg20 : FVec F S32x32 .f32) (main_arg21 : FVec F S3x32 .f32) (main_arg22 : FVec F S32 .f32) (main_arg23 : FVec F S32x32 .f32) (main_arg24 : FVec F S32 .f32) (main_arg25 : FVec F S32x32 .f32) (main_arg26 : FVec F S32x32 .f32) (main_arg27 : FVec F S32 .f32) (main_arg28 : FVec F S32x32 .f32) (main_arg29 : FVec F S32x1 .f32) (main_arg30 : FVec F S1 .f32) (main_arg31 : FVec F S1 .f32) (main_v33 : IVec S_ 1) : IVec S_ 1 :=
  let main_v34 : FVec F S32x32 .f32 := Host.absf main_arg15
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S3x32 .f32 := Host.absf main_arg16
  let main_cst_14 : FVec F S_ .f32 := constant S_ .f32 0x7F800000#32
  let main_v40 : FVec F S3x32 .f32 := broadcastInDim S3x32 ![] bcast_S_S3x32 main_cst_14
  let main_v41 : IVec S3x32 1 := cmpf .olt main_v39 main_v40
  let main_c_15 : IVec S_ 1 := constantI S_ 1 1#1
  let main_v42 : IVec S_ 1 := (fun x v => Host.reduce IntOp.andi x v reducesTo_S3x32_S_d0_1 h_S_) main_v41 main_c_15
  let main_v43 : IVec S_ 1 := andi main_v38 main_v42
  let main_v44 : FVec F S32 .f32 := Host.absf main_arg17
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg18
  let main_cst_18 : FVec F S_ .f32 := constant S_ .f32 0x7F800000#32
  let main_v50 : FVec F S32x32 .f32 := broadcastInDim S32x32 ![] bcast_S_S32x32 main_cst_18
  fn_part3 (F := F) main_arg4 main_arg7 main_arg19 main_arg20 main_arg21 main_arg22 main_arg23 main_arg24 main_arg25 main_arg26 main_arg27 main_arg28 main_arg29 main_arg30 main_arg31 main_v48 main_v49 main_v50

def fn_part1 {F : FTy → Type} [FloatOps F] (main_arg4 : IVec S2000000 32) (main_arg7 : IVec S2000000 32) (main_arg8 : FVec F S2000000x3 .f32) (main_arg13 : FVec F S32x32 .f32) (main_arg14 : FVec F S32 .f32) (main_arg15 : FVec F S32x32 .f32) (main_arg16 : FVec F S3x32 .f32) (main_arg17 : FVec F S32 .f32) (main_arg18 : FVec F S32x32 .f32) (main_arg19 : FVec F S32 .f32) (main_arg20 : FVec F S32x32 .f32) (main_arg21 : FVec F S3x32 .f32) (main_arg22 : FVec F S32 .f32) (main_arg23 : FVec F S32x32 .f32) (main_arg24 : FVec F S32 .f32) (main_arg25 : FVec F S32x32 .f32) (main_arg26 : FVec F S32x32 .f32) (main_arg27 : FVec F S32 .f32) (main_arg28 : FVec F S32x32 .f32) (main_arg29 : FVec F S32x1 .f32) (main_arg30 : FVec F S1 .f32) (main_arg31 : FVec F S1 .f32) (main_v13 : IVec S_ 1) (main_v16 : IVec S2000000x3 1) : IVec S_ 1 :=
  let main_c_5 : IVec S_ 1 := constantI S_ 1 1#1
  let main_v17 : IVec S_ 1 := (fun x v => Host.reduce IntOp.andi x v reducesTo_S2000000x3_S_d0_1 h_S_) main_v16 main_c_5
  let main_v18 : IVec S_ 1 := andi main_v13 main_v17
  let main_v19 : FVec F S2000000x3 .f32 := Host.absf main_arg8
  let main_cst_6 : FVec F S_ .f32 := constant S_ .f32 0x7F800000#32
  let main_v20 : FVec F S2000000x3 .f32 := broadcastInDim S2000000x3 ![] bcast_S_S2000000x3 main_cst_6
  let main_v21 : IVec S2000000x3 1 := cmpf .olt main_v19 main_v20
  let main_c_7 : IVec S_ 1 := constantI S_ 1 1#1
  let main_v22 : IVec S_ 1 := (fun x v => Host.reduce IntOp.andi x v reducesTo_S2000000x3_S_d0_1 h_S_) main_v21 main_c_7
  let main_v23 : IVec S_ 1 := andi main_v18 main_v22
  let main_v24 : FVec F S32x32 .f32 := Host.absf main_arg13
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg14
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg4 main_arg7 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S50000x32 .f32) (main_arg1 : FVec F S200000x32 .f32) (main_arg2 : FVec F S20000x32 .f32) (main_arg3 : IVec S2000000 32) (main_arg4 : IVec S2000000 32) (main_arg5 : FVec F S2000000x3 .f32) (main_arg6 : IVec S2000000 32) (main_arg7 : IVec S2000000 32) (main_arg8 : FVec F S2000000x3 .f32) (main_arg9 : IVec S1000000 32) (main_arg10 : IVec S1000000 32) (main_arg11 : IVec S1000000 32) (main_arg12 : IVec S1000000 32) (main_arg13 : FVec F S32x32 .f32) (main_arg14 : FVec F S32 .f32) (main_arg15 : FVec F S32x32 .f32) (main_arg16 : FVec F S3x32 .f32) (main_arg17 : FVec F S32 .f32) (main_arg18 : FVec F S32x32 .f32) (main_arg19 : FVec F S32 .f32) (main_arg20 : FVec F S32x32 .f32) (main_arg21 : FVec F S3x32 .f32) (main_arg22 : FVec F S32 .f32) (main_arg23 : FVec F S32x32 .f32) (main_arg24 : FVec F S32 .f32) (main_arg25 : FVec F S32x32 .f32) (main_arg26 : FVec F S32x32 .f32) (main_arg27 : FVec F S32 .f32) (main_arg28 : FVec F S32x32 .f32) (main_arg29 : FVec F S32x1 .f32) (main_arg30 : FVec F S1 .f32) (main_arg31 : FVec F S1 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S200000x32 .f32 := Host.absf main_arg1
  let main_cst_0 : FVec F S_ .f32 := constant S_ .f32 0x7F800000#32
  let main_v5 : FVec F S200000x32 .f32 := broadcastInDim S200000x32 ![] bcast_S_S200000x32 main_cst_0
  let main_v6 : IVec S200000x32 1 := cmpf .olt main_v4 main_v5
  let main_c_1 : IVec S_ 1 := constantI S_ 1 1#1
  let main_v7 : IVec S_ 1 := (fun x v => Host.reduce IntOp.andi x v reducesTo_S200000x32_S_d0_1 h_S_) main_v6 main_c_1
  let main_v8 : IVec S_ 1 := andi main_v3 main_v7
  let main_v9 : FVec F S20000x32 .f32 := Host.absf main_arg2
  let main_cst_2 : FVec F S_ .f32 := constant S_ .f32 0x7F800000#32
  let main_v10 : FVec F S20000x32 .f32 := broadcastInDim S20000x32 ![] bcast_S_S20000x32 main_cst_2
  let main_v11 : IVec S20000x32 1 := cmpf .olt main_v9 main_v10
  let main_c_3 : IVec S_ 1 := constantI S_ 1 1#1
  let main_v12 : IVec S_ 1 := (fun x v => Host.reduce IntOp.andi x v reducesTo_S20000x32_S_d0_1 h_S_) main_v11 main_c_3
  let main_v13 : IVec S_ 1 := andi main_v8 main_v12
  let main_v14 : FVec F S2000000x3 .f32 := Host.absf main_arg5
  let main_cst_4 : FVec F S_ .f32 := constant S_ .f32 0x7F800000#32
  let main_v15 : FVec F S2000000x3 .f32 := broadcastInDim S2000000x3 ![] bcast_S_S2000000x3 main_cst_4
  let main_v16 : IVec S2000000x3 1 := cmpf .olt main_v14 main_v15
  fn_part1 (F := F) main_arg4 main_arg7 main_arg8 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S50000x32 : Shape := ⟨2, ![50000, 32]⟩
abbrev S200000x32 : Shape := ⟨2, ![200000, 32]⟩
abbrev S20000x32 : Shape := ⟨2, ![20000, 32]⟩
abbrev S2000000 : Shape := ⟨1, ![2000000]⟩
abbrev S2000000x3 : Shape := ⟨2, ![2000000, 3]⟩
abbrev S1000000 : Shape := ⟨1, ![1000000]⟩
abbrev S32x32 : Shape := ⟨2, ![32, 32]⟩
abbrev S32 : Shape := ⟨1, ![32]⟩
abbrev S3x32 : Shape := ⟨2, ![3, 32]⟩
abbrev S32x1 : Shape := ⟨2, ![32, 1]⟩
abbrev S1 : Shape := ⟨1, ![1]⟩
abbrev S_ : Shape := ⟨0, ![]⟩
abbrev S2000000x1 : Shape := ⟨2, ![2000000, 1]⟩
abbrev S2000000x32 : Shape := ⟨2, ![2000000, 32]⟩
abbrev S2000000x33 : Shape := ⟨2, ![2000000, 33]⟩
abbrev S200000x33 : Shape := ⟨2, ![200000, 33]⟩
abbrev S200000x1 : Shape := ⟨2, ![200000, 1]⟩
abbrev S50000x33 : Shape := ⟨2, ![50000, 33]⟩
abbrev S50000x1 : Shape := ⟨2, ![50000, 1]⟩
abbrev S1000000x1 : Shape := ⟨2, ![1000000, 1]⟩
abbrev S1000000x32 : Shape := ⟨2, ![1000000, 32]⟩
abbrev S1000000x33 : Shape := ⟨2, ![1000000, 33]⟩
abbrev S20000x33 : Shape := ⟨2, ![20000, 33]⟩
abbrev S20000x1 : Shape := ⟨2, ![20000, 1]⟩
abbrev S200000x3 : Shape := ⟨2, ![200000, 3]⟩
abbrev S50000x3 : Shape := ⟨2, ![50000, 3]⟩
abbrev S1x32 : Shape := ⟨2, ![1, 32]⟩
abbrev S1x1 : Shape := ⟨2, ![1, 1]⟩
abbrev S5000x32 : Shape := ⟨2, ![5000, 32]⟩
abbrev S5000x3 : Shape := ⟨2, ![5000, 3]⟩
abbrev S5000x1 : Shape := ⟨2, ![5000, 1]⟩

abbrev nBuf : Space → Nat
  | .hbm => 174
  | .vmem => 49
  | .smem => 0
  | _ => 0

abbrev hbmTy0_0 (i : Nat) : BufTy := match i % 128 with
  | 0 => ⟨S50000x32, .f32⟩
  | 1 => ⟨S200000x32, .f32⟩
  | 2 => ⟨S20000x32, .f32⟩
  | 3 => ⟨S2000000, .i32⟩
  | 4 => ⟨S2000000, .i32⟩
  | 5 => ⟨S2000000x3, .f32⟩
  | 6 => ⟨S2000000, .i32⟩
  | 7 => ⟨S2000000, .i32⟩
  | 8 => ⟨S2000000x3, .f32⟩
  | 9 => ⟨S1000000, .i32⟩
  | 10 => ⟨S1000000, .i32⟩
  | 11 => ⟨S1000000, .i32⟩
  | 12 => ⟨S1000000, .i32⟩
  | 13 => ⟨S32x32, .f32⟩
  | 14 => ⟨S32, .f32⟩
  | 15 => ⟨S32x32, .f32⟩
  | 16 => ⟨S3x32, .f32⟩
  | 17 => ⟨S32, .f32⟩
  | 18 => ⟨S32x32, .f32⟩
  | 19 => ⟨S32, .f32⟩
  | 20 => ⟨S32x32, .f32⟩
  | 21 => ⟨S3x32, .f32⟩
  | 22 => ⟨S32, .f32⟩
  | 23 => ⟨S32x32, .f32⟩
  | 24 => ⟨S32, .f32⟩
  | 25 => ⟨S32x32, .f32⟩
  | 26 => ⟨S32x32, .f32⟩
  | 27 => ⟨S32, .f32⟩
  | 28 => ⟨S32x32, .f32⟩
  | 29 => ⟨S32x1, .f32⟩
  | 30 => ⟨S1, .f32⟩
  | 31 => ⟨S1, .f32⟩
  | 32 => ⟨S_, .i32⟩
  | 33 => ⟨S2000000, .i32⟩
  | 34 => ⟨S2000000, .i1⟩
  | 35 => ⟨S_, .i32⟩
  | 36 => ⟨S2000000, .i32⟩
  | 37 => ⟨S2000000, .i32⟩
  | 38 => ⟨S2000000, .i32⟩
  | 39 => ⟨S2000000x1, .i32⟩
  | 40 => ⟨S2000000x32, .f32⟩
  | 41 => ⟨S_, .f32⟩
  | 42 => ⟨S2000000x1, .f32⟩
  | 43 => ⟨S2000000x33, .f32⟩
  | 44 => ⟨S_, .f32⟩
  | 45 => ⟨S200000x33, .f32⟩
  | 46 => ⟨S2000000x1, .i32⟩
  | 47 => ⟨S200000x33, .f32⟩
  | 48 => ⟨S200000x32, .f32⟩
  | 49 => ⟨S200000x1, .f32⟩
  | 50 => ⟨S_, .f32⟩
  | 51 => ⟨S200000x1, .f32⟩
  | 52 => ⟨S200000x1, .f32⟩
  | 53 => ⟨S200000x32, .f32⟩
  | 54 => ⟨S200000x32, .f32⟩
  | 55 => ⟨S_, .f32⟩
  | 56 => ⟨S200000x1, .f32⟩
  | 57 => ⟨S200000x1, .i1⟩
  | 58 => ⟨S200000x1, .f32⟩
  | 59 => ⟨S_, .i32⟩
  | 60 => ⟨S2000000, .i32⟩
  | 61 => ⟨S2000000, .i1⟩
  | 62 => ⟨S_, .i32⟩
  | 63 => ⟨S2000000, .i32⟩
  | 64 => ⟨S2000000, .i32⟩
  | 65 => ⟨S2000000, .i32⟩
  | 66 => ⟨S2000000x1, .i32⟩
  | 67 => ⟨S2000000x32, .f32⟩
  | 68 => ⟨S_, .f32⟩
  | 69 => ⟨S2000000x1, .f32⟩
  | 70 => ⟨S2000000x33, .f32⟩
  | 71 => ⟨S_, .f32⟩
  | 72 => ⟨S50000x33, .f32⟩
  | 73 => ⟨S2000000x1, .i32⟩
  | 74 => ⟨S50000x33, .f32⟩
  | 75 => ⟨S50000x32, .f32⟩
  | 76 => ⟨S50000x1, .f32⟩
  | 77 => ⟨S_, .f32⟩
  | 78 => ⟨S50000x1, .f32⟩
  | 79 => ⟨S50000x1, .f32⟩
  | 80 => ⟨S50000x32, .f32⟩
  | 81 => ⟨S50000x32, .f32⟩
  | 82 => ⟨S_, .f32⟩
  | 83 => ⟨S50000x1, .f32⟩
  | 84 => ⟨S50000x1, .i1⟩
  | 85 => ⟨S50000x1, .f32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000x32, .f32⟩
  | 95 => ⟨S_, .f32⟩
  | 96 => ⟨S1000000x1, .f32⟩
  | 97 => ⟨S1000000x33, .f32⟩
  | 98 => ⟨S_, .f32⟩
  | 99 => ⟨S20000x33, .f32⟩
  | 100 => ⟨S1000000x1, .i32⟩
  | 101 => ⟨S20000x33, .f32⟩
  | 102 => ⟨S20000x32, .f32⟩
  | 103 => ⟨S20000x1, .f32⟩
  | 104 => ⟨S_, .f32⟩
  | 105 => ⟨S20000x1, .f32⟩
  | 106 => ⟨S20000x1, .f32⟩
  | 107 => ⟨S20000x32, .f32⟩
  | 108 => ⟨S20000x32, .f32⟩
  | 109 => ⟨S_, .f32⟩
  | 110 => ⟨S20000x1, .f32⟩
  | 111 => ⟨S20000x1, .i1⟩
  | 112 => ⟨S20000x1, .f32⟩
  | 113 => ⟨S_, .i32⟩
  | 114 => ⟨S1000000, .i32⟩
  | 115 => ⟨S1000000, .i1⟩
  | 116 => ⟨S_, .i32⟩
  | 117 => ⟨S1000000, .i32⟩
  | 118 => ⟨S1000000, .i32⟩
  | 119 => ⟨S1000000, .i32⟩
  | 120 => ⟨S1000000x1, .i32⟩
  | 121 => ⟨S1000000x32, .f32⟩
  | 122 => ⟨S_, .f32⟩
  | 123 => ⟨S1000000x1, .f32⟩
  | 124 => ⟨S1000000x33, .f32⟩
  | 125 => ⟨S_, .f32⟩
  | 126 => ⟨S50000x33, .f32⟩
  | 127 => ⟨S1000000x1, .i32⟩
  | _ => ⟨S50000x32, .f32⟩

abbrev hbmTy0_1 (i : Nat) : BufTy := match i % 128 with
  | 0 => ⟨S50000x33, .f32⟩
  | 1 => ⟨S50000x32, .f32⟩
  | 2 => ⟨S50000x1, .f32⟩
  | 3 => ⟨S_, .f32⟩
  | 4 => ⟨S50000x1, .f32⟩
  | 5 => ⟨S50000x1, .f32⟩
  | 6 => ⟨S50000x32, .f32⟩
  | 7 => ⟨S50000x32, .f32⟩
  | 8 => ⟨S_, .f32⟩
  | 9 => ⟨S50000x1, .f32⟩
  | 10 => ⟨S50000x1, .i1⟩
  | 11 => ⟨S50000x1, .f32⟩
  | 12 => ⟨S_, .f32⟩
  | 13 => ⟨S200000x3, .f32⟩
  | 14 => ⟨S_, .i32⟩
  | 15 => ⟨S2000000, .i32⟩
  | 16 => ⟨S2000000, .i1⟩
  | 17 => ⟨S_, .i32⟩
  | 18 => ⟨S2000000, .i32⟩
  | 19 => ⟨S2000000, .i32⟩
  | 20 => ⟨S2000000, .i32⟩
  | 21 => ⟨S2000000x1, .i32⟩
  | 22 => ⟨S200000x3, .f32⟩
  | 23 => ⟨S_, .f32⟩
  | 24 => ⟨S50000x3, .f32⟩
  | 25 => ⟨S_, .i32⟩
  | 26 => ⟨S2000000, .i32⟩
  | 27 => ⟨S2000000, .i1⟩
  | 28 => ⟨S_, .i32⟩
  | 29 => ⟨S2000000, .i32⟩
  | 30 => ⟨S2000000, .i32⟩
  | 31 => ⟨S2000000, .i32⟩
  | 32 => ⟨S2000000x1, .i32⟩
  | 33 => ⟨S50000x3, .f32⟩
  | 34 => ⟨S1x32, .f32⟩
  | 35 => ⟨S1x32, .f32⟩
  | 36 => ⟨S1x1, .f32⟩
  | 37 => ⟨S1x1, .f32⟩
  | 38 => ⟨S200000x32, .f32⟩
  | 39 => ⟨S200000x1, .f32⟩
  | 40 => ⟨S1x32, .f32⟩
  | 41 => ⟨S1x32, .f32⟩
  | 42 => ⟨S1x32, .f32⟩
  | 43 => ⟨S50000x32, .f32⟩
  | 44 => ⟨S1x32, .f32⟩
  | 45 => ⟨S20000x32, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S5000x3, .f32⟩
  | .local _ .vmem, ⟨5, _⟩ => ⟨S5000x3, .f32⟩
  | .local _ .vmem, ⟨6, _⟩ => ⟨S5000x1, .f32⟩
  | .local _ .vmem, ⟨7, _⟩ => ⟨S5000x1, .f32⟩
  | .local _ .vmem, ⟨8, _⟩ => ⟨S32x32, .f32⟩
  | .local _ .vmem, ⟨9, _⟩ => ⟨S1x32, .f32⟩
  | .local _ .vmem, ⟨10, _⟩ => ⟨S32x32, .f32⟩
  | .local _ .vmem, ⟨11, _⟩ => ⟨S3x32, .f32⟩
  | .local _ .vmem, ⟨12, _⟩ => ⟨S1x32, .f32⟩
  | .local _ .vmem, ⟨13, _⟩ => ⟨S32x1, .f32⟩
  | .local _ .vmem, ⟨14, _⟩ => ⟨S1x1, .f32⟩
  | .local _ .vmem, ⟨15, _⟩ => ⟨S1x1, .f32⟩
  | .local _ .vmem, ⟨16, _⟩ => ⟨S5000x32, .f32⟩
  | .local _ .vmem, ⟨17, _⟩ => ⟨S5000x32, .f32⟩
  | .local _ .vmem, ⟨18, _⟩ => ⟨S5000x1, .f32⟩
  | .local _ .vmem, ⟨19, _⟩ => ⟨S5000x1, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x3, .f32⟩
  | .local _ .vmem, ⟨25, _⟩ => ⟨S5000x3, .f32⟩
  | .local _ .vmem, ⟨26, _⟩ => ⟨S5000x1, .f32⟩
  | .local _ .vmem, ⟨27, _⟩ => ⟨S5000x1, .f32⟩
  | .local _ .vmem, ⟨28, _⟩ => ⟨S32x32, .f32⟩
  | .local _ .vmem, ⟨29, _⟩ => ⟨S1x32, .f32⟩
  | .local _ .vmem, ⟨30, _⟩ => ⟨S32x32, .f32⟩
  | .local _ .vmem, ⟨31, _⟩ => ⟨S3x32, .f32⟩
  | .local _ .vmem, ⟨32, _⟩ => ⟨S1x32, .f32⟩
  | .local _ .vmem, ⟨33, _⟩ => ⟨S5000x32, .f32⟩
  | .local _ .vmem, ⟨34, _⟩ => ⟨S5000x32, .f32⟩
  | .local _ .vmem, ⟨35, _⟩ => ⟨S32x32, .f32⟩
  | .local _ .vmem, ⟨36, _⟩ => ⟨S1x32, .f32⟩
  | .local _ .vmem, ⟨37, _⟩ => ⟨S32x32, .f32⟩
  | .local _ .vmem, ⟨38, _⟩ => ⟨S5000x32, .f32⟩
  | .local _ .vmem, ⟨39, _⟩ => ⟨S5000x32, .f32⟩
  | .local _ .vmem, ⟨40, _⟩ => ⟨S5000x32, .f32⟩
  | .local _ .vmem, ⟨41, _⟩ => ⟨S5000x32, .f32⟩
  | .local _ .vmem, ⟨42, _⟩ => ⟨S5000x32, .f32⟩
  | .local _ .vmem, ⟨43, _⟩ => ⟨S5000x32, .f32⟩
  | .local _ .vmem, ⟨44, _⟩ => ⟨S32x32, .f32⟩
  | .local _ .vmem, ⟨45, _⟩ => ⟨S1x32, .f32⟩
  | .local _ .vmem, ⟨46, _⟩ => ⟨S32x32, .f32⟩
  | .local _ .vmem, ⟨47, _⟩ => ⟨S5000x32, .f32⟩
  | .local _ .vmem, ⟨48, _⟩ => ⟨S5000x32, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_c : Ref sig .tc := ⟨.hbm, 32, rfl⟩
abbrev main_v0 : Ref sig .tc := ⟨.hbm, 33, rfl⟩
abbrev main_v1 : Ref sig .tc := ⟨.hbm, 34, rfl⟩
abbrev main_c_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_cst : Ref sig .tc := ⟨.hbm, 41, rfl⟩
abbrev main_v7 : Ref sig .tc := ⟨.hbm, 42, rfl⟩
abbrev main_v8 : Ref sig .tc := ⟨.hbm, 43, rfl⟩
abbrev main_cst_1 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_cst_2 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_cst_3 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_c_4 : Ref sig .tc := ⟨.hbm, 59, rfl⟩
abbrev main_v21 : Ref sig .tc := ⟨.hbm, 60, rfl⟩
abbrev main_v22 : Ref sig .tc := ⟨.hbm, 61, rfl⟩
abbrev main_c_5 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_6 : Ref sig .tc := ⟨.hbm, 68, rfl⟩
abbrev main_v28 : Ref sig .tc := ⟨.hbm, 69, rfl⟩
abbrev main_v29 : Ref sig .tc := ⟨.hbm, 70, rfl⟩
abbrev main_cst_7 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_8 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_9 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_c_10 : Ref sig .tc := ⟨.hbm, 86, rfl⟩
abbrev main_v42 : Ref sig .tc := ⟨.hbm, 87, rfl⟩
abbrev main_v43 : Ref sig .tc := ⟨.hbm, 88, rfl⟩
abbrev main_c_11 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst_12 : Ref sig .tc := ⟨.hbm, 95, rfl⟩
abbrev main_v49 : Ref sig .tc := ⟨.hbm, 96, rfl⟩
abbrev main_v50 : Ref sig .tc := ⟨.hbm, 97, rfl⟩
abbrev main_cst_13 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_14 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_cst_15 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_c_16 : Ref sig .tc := ⟨.hbm, 113, rfl⟩
abbrev main_v63 : Ref sig .tc := ⟨.hbm, 114, rfl⟩
abbrev main_v64 : Ref sig .tc := ⟨.hbm, 115, rfl⟩
abbrev main_c_17 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_cst_18 : Ref sig .tc := ⟨.hbm, 122, rfl⟩
abbrev main_v70 : Ref sig .tc := ⟨.hbm, 123, rfl⟩
abbrev main_v71 : Ref sig .tc := ⟨.hbm, 124, rfl⟩
abbrev main_cst_19 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_cst_20 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_cst_21 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_cst_22 : Ref sig .tc := ⟨.hbm, 140, rfl⟩
abbrev main_v84 : Ref sig .tc := ⟨.hbm, 141, rfl⟩
abbrev main_c_23 : Ref sig .tc := ⟨.hbm, 142, rfl⟩
abbrev main_v85 : Ref sig .tc := ⟨.hbm, 143, rfl⟩
abbrev main_v86 : Ref sig .tc := ⟨.hbm, 144, rfl⟩
abbrev main_c_24 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_cst_25 : Ref sig .tc := ⟨.hbm, 151, rfl⟩
abbrev main_v92 : Ref sig .tc := ⟨.hbm, 152, rfl⟩
abbrev main_c_26 : Ref sig .tc := ⟨.hbm, 153, rfl⟩
abbrev main_v93 : Ref sig .tc := ⟨.hbm, 154, rfl⟩
abbrev main_v94 : Ref sig .tc := ⟨.hbm, 155, rfl⟩
abbrev main_c_27 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104_0 : Ref sig .tc := ⟨.hbm, 166, rfl⟩
abbrev main_v104_1 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg9_0 : Ref sig .tc := ⟨.vmem, 33, rfl⟩
abbrev cc1_stg9_1 : Ref sig .tc := ⟨.vmem, 34, rfl⟩
abbrev cc1_stg10_0 : Ref sig .tc := ⟨.vmem, 35, rfl⟩
abbrev cc1_stg11_0 : Ref sig .tc := ⟨.vmem, 36, rfl⟩
abbrev cc1_stg12_0 : Ref sig .tc := ⟨.vmem, 37, rfl⟩
abbrev cc1_stg13_0 : Ref sig .tc := ⟨.vmem, 38, rfl⟩
abbrev cc1_stg13_1 : Ref sig .tc := ⟨.vmem, 39, rfl⟩
abbrev cc2_stg0_0 : Ref sig .tc := ⟨.vmem, 40, rfl⟩
abbrev cc2_stg0_1 : Ref sig .tc := ⟨.vmem, 41, rfl⟩
abbrev cc2_stg1_0 : Ref sig .tc := ⟨.vmem, 42, rfl⟩
abbrev cc2_stg1_1 : Ref sig .tc := ⟨.vmem, 43, rfl⟩
abbrev cc2_stg2_0 : Ref sig .tc := ⟨.vmem, 44, rfl⟩
abbrev cc2_stg3_0 : Ref sig .tc := ⟨.vmem, 45, rfl⟩
abbrev cc2_stg4_0 : Ref sig .tc := ⟨.vmem, 46, rfl⟩
abbrev cc2_stg5_0 : Ref sig .tc := ⟨.vmem, 47, rfl⟩
abbrev cc2_stg5_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem9_0 : DmaSem sig := 33
abbrev cc1_sem9_1 : DmaSem sig := 34
abbrev cc1_sem10_0 : DmaSem sig := 35
abbrev cc1_sem11_0 : DmaSem sig := 36
abbrev cc1_sem12_0 : DmaSem sig := 37
abbrev cc1_sem13_0 : DmaSem sig := 38
abbrev cc1_sem13_1 : DmaSem sig := 39
abbrev cc2_sem0_0 : DmaSem sig := 40
abbrev cc2_sem0_1 : DmaSem sig := 41
abbrev cc2_sem1_0 : DmaSem sig := 42
abbrev cc2_sem1_1 : DmaSem sig := 43
abbrev cc2_sem2_0 : DmaSem sig := 44
abbrev cc2_sem3_0 : DmaSem sig := 45
abbrev cc2_sem4_0 : DmaSem sig := 46
abbrev cc2_sem5_0 : DmaSem sig := 47
abbrev cc2_sem5_1 : DmaSem sig := 48

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S5000x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S5000x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S32x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x32 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S32x32 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S5000x32 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  concatenates_S2000000x32_S2000000x1_S2000000x33_d1 : Shape.Concatenates [S2000000x32, S2000000x1] S2000000x33 1
  bcast_S_S200000x33 : S_.BroadcastsInDim S200000x33 (![] : Fin 0 → Fin S200000x33.rank)
  slices_S200000x33_S200000x32_0_0 : S200000x33.Slices ![0, 0] S200000x32
  slices_S200000x33_S200000x1_0_32 : S200000x33.Slices ![0, 32] S200000x1
  bcast_S_S200000x1 : S_.BroadcastsInDim S200000x1 (![] : Fin 0 → Fin S200000x1.rank)
  bcast_S200000x1_S200000x32_0_1 : S200000x1.BroadcastsInDim S200000x32 (![0, 1] : Fin 2 → Fin S200000x32.rank)
  bcast_S_S50000x33 : S_.BroadcastsInDim S50000x33 (![] : Fin 0 → Fin S50000x33.rank)
  slices_S50000x33_S50000x32_0_0 : S50000x33.Slices ![0, 0] S50000x32
  slices_S50000x33_S50000x1_0_32 : S50000x33.Slices ![0, 32] S50000x1
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  concatenates_S1000000x32_S1000000x1_S1000000x33_d1 : Shape.Concatenates [S1000000x32, S1000000x1] S1000000x33 1
  bcast_S_S20000x33 : S_.BroadcastsInDim S20000x33 (![] : Fin 0 → Fin S20000x33.rank)
  slices_S20000x33_S20000x32_0_0 : S20000x33.Slices ![0, 0] S20000x32
  slices_S20000x33_S20000x1_0_32 : S20000x33.Slices ![0, 32] S20000x1
  bcast_S_S20000x1 : S_.BroadcastsInDim S20000x1 (![] : Fin 0 → Fin S20000x1.rank)
  bcast_S20000x1_S20000x32_0_1 : S20000x1.BroadcastsInDim S20000x32 (![0, 1] : Fin 2 → Fin S20000x32.rank)
  bcast_S_S200000x3 : S_.BroadcastsInDim S200000x3 (![] : Fin 0 → Fin S200000x3.rank)
  bcast_S_S50000x3 : S_.BroadcastsInDim S50000x3 (![] : Fin 0 → Fin S50000x3.rank)
  shapeCasts_S32_S1x32 : S32.ShapeCasts S1x32
  shapeCasts_S1_S1x1 : S1.ShapeCasts S1x1
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  inb_S32x32_S32x32_0_0 : ∀ a, (![0, 0] : Fin 2 → Nat) a + S32x32.size a ≤ S32x32.size a
  h_S32x32 : 0 < S32x32.numel
  inb_S3x32_S3x32_0_0 : ∀ a, (![0, 0] : Fin 2 → Nat) a + S3x32.size a ≤ S3x32.size a
  h_S3x32 : 0 < S3x32.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  gather_S50000x32_S2000000x1_S2000000x32_1_0_n_n_0_1_132_wf : GatherDims.WF S50000x32 S2000000x1 S2000000x32 [1] [0] [] [0] [] 1 ![1, 32]
  scatter_S200000x33_S2000000x1_S2000000x33_1_0_0_1_wf : ScatterDims.WF S200000x33 S2000000x1 S2000000x33 [1] [0] [0] 1
  gather_S200000x32_S2000000x1_S2000000x32_1_0_n_n_0_1_132_wf : GatherDims.WF S200000x32 S2000000x1 S2000000x32 [1] [0] [] [0] [] 1 ![1, 32]
  scatter_S50000x33_S2000000x1_S2000000x33_1_0_0_1_wf : ScatterDims.WF S50000x33 S2000000x1 S2000000x33 [1] [0] [0] 1
  gather_S50000x32_S1000000x1_S1000000x32_1_0_n_n_0_1_132_wf : GatherDims.WF S50000x32 S1000000x1 S1000000x32 [1] [0] [] [0] [] 1 ![1, 32]
  scatter_S20000x33_S1000000x1_S1000000x33_1_0_0_1_wf : ScatterDims.WF S20000x33 S1000000x1 S1000000x33 [1] [0] [0] 1
  gather_S20000x32_S1000000x1_S1000000x32_1_0_n_n_0_1_132_wf : GatherDims.WF S20000x32 S1000000x1 S1000000x32 [1] [0] [] [0] [] 1 ![1, 32]
  scatter_S50000x33_S1000000x1_S1000000x33_1_0_0_1_wf : ScatterDims.WF S50000x33 S1000000x1 S1000000x33 [1] [0] [0] 1
  scatter_S200000x3_S2000000x1_S2000000x3_1_0_0_1_wf : ScatterDims.WF S200000x3 S2000000x1 S2000000x3 [1] [0] [0] 1
  scatter_S50000x3_S2000000x1_S2000000x3_1_0_0_1_wf : ScatterDims.WF S50000x3 S2000000x1 S2000000x3 [1] [0] [0] 1
  dot_S5000x32_S32x32_S5000x32_1_0_0_1_n_n_wf : DotDims.WF S5000x32 S32x32 S5000x32 [1] [0] [0] [1] [] []
  dot_S5000x3_S3x32_S5000x32_1_0_0_1_n_n_wf : DotDims.WF S5000x3 S3x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S200000x32.size a
  hwx0_0 : ∀ i : grid0.Coords, EltTy.bits .f32 = 32 ∨ (Rect.block (s := S200000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S200000x32.size a
  hwx0_1 : ∀ i : grid0.Coords, EltTy.bits .f32 = 32 ∨ (Rect.block (s := S200000x32) S5000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x3.size a ≤ S200000x3.size a
  hwx0_2 : ∀ i : grid0.Coords, EltTy.bits .f32 = 32 ∨ (Rect.block (s := S200000x3) S5000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S200000x1.size a
  hwx0_3 : ∀ i : grid0.Coords, EltTy.bits .f32 = 32 ∨ (Rect.block (s := S200000x1) S5000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x32.size a ≤ S3x32.size a
  hwx0_7 : ∀ i : grid0.Coords, EltTy.bits .f32 = 32 ∨ (Rect.block (s := S3x32) S3x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x1.size a ≤ S32x1.size a
  hwx0_9 : ∀ i : grid0.Coords, EltTy.bits .f32 = 32 ∨ (Rect.block (s := S32x1) S32x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x32.size a ≤ S200000x32.size a
  hwx0_12 : ∀ i : grid0.Coords, EltTy.bits .f32 = 32 ∨ (Rect.block (s := S200000x32) S5000x32.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5000x1.size a ≤ S200000x1.size a
  hwx0_13 : ∀ i : grid0.Coords, EltTy.bits .f32 = 32 ∨ (Rect.block (s := S200000x1) S5000x1.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S50000x32.size a
  hwx1_0 : ∀ i : grid1.Coords, EltTy.bits .f32 = 32 ∨ (Rect.block (s := S50000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S50000x32.size a
  hwx1_1 : ∀ i : grid1.Coords, EltTy.bits .f32 = 32 ∨ (Rect.block (s := S50000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x3.size a ≤ S50000x3.size a
  hwx1_2 : ∀ i : grid1.Coords, EltTy.bits .f32 = 32 ∨ (Rect.block (s := S50000x3) S5000x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x32.size a ≤ S32x32.size a
  hwx1_6 : ∀ i : grid1.Coords, EltTy.bits .f32 = 32 ∨ (Rect.block (s := S32x32) S32x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3x32.size a ≤ S3x32.size a
  hwx1_7 : ∀ i : grid1.Coords, EltTy.bits .f32 = 32 ∨ (Rect.block (s := S3x32) S3x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x32.size a ≤ S50000x32.size a
  hwx1_9 : ∀ i : grid1.Coords, EltTy.bits .f32 = 32 ∨ (Rect.block (s := S50000x32) S5000x32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S32x32.size a ≤ S32x32.size a
  hwx1_10 : ∀ i : grid1.Coords, EltTy.bits .f32 = 32 ∨ (Rect.block (s := S32x32) S32x32.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x32.size a ≤ S1x32.size a
  hwx1_11 : ∀ i : grid1.Coords, EltTy.bits .f32 = 32 ∨ (Rect.block (s := S1x32) S1x32.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S32x32.size a ≤ S32x32.size a
  hwx1_12 : ∀ i : grid1.Coords, EltTy.bits .f32 = 32 ∨ (Rect.block (s := S32x32) S32x32.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S5000x32.size a ≤ S50000x32.size a
  hwx1_13 : ∀ i : grid1.Coords, EltTy.bits .f32 = 32 ∨ (Rect.block (s := S50000x32) S5000x32.size (cc1_transform_13 i) (hinb1_13 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S20000x32.size a
  hwx2_0 : ∀ i : grid2.Coords, EltTy.bits .f32 = 32 ∨ (Rect.block (s := S20000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S20000x32.size a
  hwx2_1 : ∀ i : grid2.Coords, EltTy.bits .f32 = 32 ∨ (Rect.block (s := S20000x32) S5000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x32.size a ≤ S20000x32.size a
  hwx2_5 : ∀ i : grid2.Coords, EltTy.bits .f32 = 32 ∨ (Rect.block (s := S20000x32) S5000x32.size (cc2_transform_5 i) (hinb2_5 i)).WholeWords (EltTy.packing .f32)

variable [Facts₀]

def gather_S50000x32_S2000000x1_S2000000x32_1_0_n_n_0_1_132 : GatherDims S50000x32 S2000000x1 S2000000x32 where
  offsetDims := [1]
  collapsedSliceDims := [0]
  operandBatchingDims := []
  startIndicesBatchingDims := []
  startIndexMap := [0]
  indexVectorDim := 1
  sliceSizes := ![1, 32]
  wf := gather_S50000x32_S2000000x1_S2000000x32_1_0_n_n_0_1_132_wf
def scatter_S200000x33_S2000000x1_S2000000x33_1_0_0_1 : ScatterDims S200000x33 S2000000x1 S2000000x33 where
  updateWindowDims := [1]
  insertedWindowDims := [0]
  scatterDimsToOperandDims := [0]
  indexVectorDim := 1
  wf := scatter_S200000x33_S2000000x1_S2000000x33_1_0_0_1_wf
def gather_S200000x32_S2000000x1_S2000000x32_1_0_n_n_0_1_132 : GatherDims S200000x32 S2000000x1 S2000000x32 where
  offsetDims := [1]
  collapsedSliceDims := [0]
  operandBatchingDims := []
  startIndicesBatchingDims := []
  startIndexMap := [0]
  indexVectorDim := 1
  sliceSizes := ![1, 32]
  wf := gather_S200000x32_S2000000x1_S2000000x32_1_0_n_n_0_1_132_wf
def scatter_S50000x33_S2000000x1_S2000000x33_1_0_0_1 : ScatterDims S50000x33 S2000000x1 S2000000x33 where
  updateWindowDims := [1]
  insertedWindowDims := [0]
  scatterDimsToOperandDims := [0]
  indexVectorDim := 1
  wf := scatter_S50000x33_S2000000x1_S2000000x33_1_0_0_1_wf
def gather_S50000x32_S1000000x1_S1000000x32_1_0_n_n_0_1_132 : GatherDims S50000x32 S1000000x1 S1000000x32 where
  offsetDims := [1]
  collapsedSliceDims := [0]
  operandBatchingDims := []
  startIndicesBatchingDims := []
  startIndexMap := [0]
  indexVectorDim := 1
  sliceSizes := ![1, 32]
  wf := gather_S50000x32_S1000000x1_S1000000x32_1_0_n_n_0_1_132_wf
def scatter_S20000x33_S1000000x1_S1000000x33_1_0_0_1 : ScatterDims S20000x33 S1000000x1 S1000000x33 where
  updateWindowDims := [1]
  insertedWindowDims := [0]
  scatterDimsToOperandDims := [0]
  indexVectorDim := 1
  wf := scatter_S20000x33_S1000000x1_S1000000x33_1_0_0_1_wf
def gather_S20000x32_S1000000x1_S1000000x32_1_0_n_n_0_1_132 : GatherDims S20000x32 S1000000x1 S1000000x32 where
  offsetDims := [1]
  collapsedSliceDims := [0]
  operandBatchingDims := []
  startIndicesBatchingDims := []
  startIndexMap := [0]
  indexVectorDim := 1
  sliceSizes := ![1, 32]
  wf := gather_S20000x32_S1000000x1_S1000000x32_1_0_n_n_0_1_132_wf
def scatter_S50000x33_S1000000x1_S1000000x33_1_0_0_1 : ScatterDims S50000x33 S1000000x1 S1000000x33 where
  updateWindowDims := [1]
  insertedWindowDims := [0]
  scatterDimsToOperandDims := [0]
  indexVectorDim := 1
  wf := scatter_S50000x33_S1000000x1_S1000000x33_1_0_0_1_wf
def scatter_S200000x3_S2000000x1_S2000000x3_1_0_0_1 : ScatterDims S200000x3 S2000000x1 S2000000x3 where
  updateWindowDims := [1]
  insertedWindowDims := [0]
  scatterDimsToOperandDims := [0]
  indexVectorDim := 1
  wf := scatter_S200000x3_S2000000x1_S2000000x3_1_0_0_1_wf
def scatter_S50000x3_S2000000x1_S2000000x3_1_0_0_1 : ScatterDims S50000x3 S2000000x1 S2000000x3 where
  updateWindowDims := [1]
  insertedWindowDims := [0]
  scatterDimsToOperandDims := [0]
  indexVectorDim := 1
  wf := scatter_S50000x3_S2000000x1_S2000000x3_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x3_S3x32_S5000x32_1_0_0_1_n_n : DotDims S5000x3 S3x32 S5000x32 where
  lhsContracting := [1]
  rhsContracting := [0]
  lhsNonContracting := [0]
  rhsNonContracting := [1]
  lhsBatch := []
  rhsBatch := []
  wf := dot_S5000x3_S3x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_v17) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v91) S5000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg13) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v100) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg15) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg16) S3x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v101) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg29) S32x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v102) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v103) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v104_0) S5000x32.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v104_1) S5000x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v38) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v99) S5000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg18) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v105) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg20) S32x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg21) S3x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v106) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v80) S5000x32.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_arg26) S32x32.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v107) S1x32.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg28) S32x32.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v108) S5000x32.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev win2_0 : Pipeline.Window sig grid2 :=
  Pipeline.Window.ofSpec (Memref.whole main_v59) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg23) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v109) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg25) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v110) S5000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x32 : Shape := ⟨2, ![50000, 32]⟩
abbrev S200000x32 : Shape := ⟨2, ![200000, 32]⟩
abbrev S20000x32 : Shape := ⟨2, ![20000, 32]⟩
abbrev S2000000 : Shape := ⟨1, ![2000000]⟩
abbrev S2000000x3 : Shape := ⟨2, ![2000000, 3]⟩
abbrev S1000000 : Shape := ⟨1, ![1000000]⟩
abbrev S32x32 : Shape := ⟨2, ![32, 32]⟩
abbrev S32 : Shape := ⟨1, ![32]⟩
abbrev S3x32 : Shape := ⟨2, ![3, 32]⟩
abbrev S32x1 : Shape := ⟨2, ![32, 1]⟩
abbrev S1 : Shape := ⟨1, ![1]⟩
abbrev S_ : Shape := ⟨0, ![]⟩
abbrev S2000000x1 : Shape := ⟨2, ![2000000, 1]⟩
abbrev S2000000x32 : Shape := ⟨2, ![2000000, 32]⟩
abbrev S200000 : Shape := ⟨1, ![200000]⟩
abbrev S200000x1 : Shape := ⟨2, ![200000, 1]⟩
abbrev S1x32 : Shape := ⟨2, ![1, 32]⟩
abbrev S50000 : Shape := ⟨1, ![50000]⟩
abbrev S50000x1 : Shape := ⟨2, ![50000, 1]⟩
abbrev S1000000x1 : Shape := ⟨2, ![1000000, 1]⟩
abbrev S1000000x32 : Shape := ⟨2, ![1000000, 32]⟩
abbrev S20000 : Shape := ⟨1, ![20000]⟩
abbrev S20000x1 : Shape := ⟨2, ![20000, 1]⟩
abbrev S1x1 : Shape := ⟨2, ![1, 1]⟩

abbrev nBuf : Space → Nat
  | .hbm => 209
  | .vmem => 0
  | .smem => 0
  | _ => 0

abbrev hbmTy0_0 (i : Nat) : BufTy := match i % 128 with
  | 0 => ⟨S50000x32, .f32⟩
  | 1 => ⟨S200000x32, .f32⟩
  | 2 => ⟨S20000x32, .f32⟩
  | 3 => ⟨S2000000, .i32⟩
  | 4 => ⟨S2000000, .i32⟩
  | 5 => ⟨S2000000x3, .f32⟩
  | 6 => ⟨S2000000, .i32⟩
  | 7 => ⟨S2000000, .i32⟩
  | 8 => ⟨S2000000x3, .f32⟩
  | 9 => ⟨S1000000, .i32⟩
  | 10 => ⟨S1000000, .i32⟩
  | 11 => ⟨S1000000, .i32⟩
  | 12 => ⟨S1000000, .i32⟩
  | 13 => ⟨S32x32, .f32⟩
  | 14 => ⟨S32, .f32⟩
  | 15 => ⟨S32x32, .f32⟩
  | 16 => ⟨S3x32, .f32⟩
  | 17 => ⟨S32, .f32⟩
  | 18 => ⟨S32x32, .f32⟩
  | 19 => ⟨S32, .f32⟩
  | 20 => ⟨S32x32, .f32⟩
  | 21 => ⟨S3x32, .f32⟩
  | 22 => ⟨S32, .f32⟩
  | 23 => ⟨S32x32, .f32⟩
  | 24 => ⟨S32, .f32⟩
  | 25 => ⟨S32x32, .f32⟩
  | 26 => ⟨S32x32, .f32⟩
  | 27 => ⟨S32, .f32⟩
  | 28 => ⟨S32x32, .f32⟩
  | 29 => ⟨S32x1, .f32⟩
  | 30 => ⟨S1, .f32⟩
  | 31 => ⟨S1, .f32⟩
  | 32 => ⟨S_, .i32⟩
  | 33 => ⟨S2000000, .i32⟩
  | 34 => ⟨S2000000, .i1⟩
  | 35 => ⟨S_, .i32⟩
  | 36 => ⟨S2000000, .i32⟩
  | 37 => ⟨S2000000, .i32⟩
  | 38 => ⟨S2000000, .i32⟩
  | 39 => ⟨S2000000x1, .i32⟩
  | 40 => ⟨S2000000x32, .f32⟩
  | 41 => ⟨S_, .f32⟩
  | 42 => ⟨S200000x32, .f32⟩
  | 43 => ⟨S2000000x1, .i32⟩
  | 44 => ⟨S200000x32, .f32⟩
  | 45 => ⟨S_, .f32⟩
  | 46 => ⟨S2000000, .f32⟩
  | 47 => ⟨S_, .f32⟩
  | 48 => ⟨S200000, .f32⟩
  | 49 => ⟨S2000000x1, .i32⟩
  | 50 => ⟨S200000, .f32⟩
  | 51 => ⟨S_, .f32⟩
  | 52 => ⟨S200000, .f32⟩
  | 53 => ⟨S200000, .f32⟩
  | 54 => ⟨S200000x1, .f32⟩
  | 55 => ⟨S200000x32, .f32⟩
  | 56 => ⟨S200000x32, .f32⟩
  | 57 => ⟨S200000x32, .f32⟩
  | 58 => ⟨S1x32, .f32⟩
  | 59 => ⟨S200000x32, .f32⟩
  | 60 => ⟨S200000x32, .f32⟩
  | 61 => ⟨S200000x32, .f32⟩
  | 62 => ⟨S200000x32, .f32⟩
  | 63 => ⟨S2000000x32, .f32⟩
  | 64 => ⟨S1x32, .f32⟩
  | 65 => ⟨S2000000x32, .f32⟩
  | 66 => ⟨S2000000x32, .f32⟩
  | 67 => ⟨S_, .f32⟩
  | 68 => ⟨S200000x32, .f32⟩
  | 69 => ⟨S_, .i32⟩
  | 70 => ⟨S2000000, .i32⟩
  | 71 => ⟨S2000000, .i1⟩
  | 72 => ⟨S_, .i32⟩
  | 73 => ⟨S2000000, .i32⟩
  | 74 => ⟨S2000000, .i32⟩
  | 75 => ⟨S2000000, .i32⟩
  | 76 => ⟨S2000000x1, .i32⟩
  | 77 => ⟨S200000x32, .f32⟩
  | 78 => ⟨S200000x32, .f32⟩
  | 79 => ⟨S_, .i32⟩
  | 80 => ⟨S2000000, .i32⟩
  | 81 => ⟨S2000000, .i1⟩
  | 82 => ⟨S_, .i32⟩
  | 83 => ⟨S2000000, .i32⟩
  | 84 => ⟨S2000000, .i32⟩
  | 85 => ⟨S2000000, .i32⟩
  | 86 => ⟨S2000000x1, .i32⟩
  | 87 => ⟨S2000000x32, .f32⟩
  | 88 => ⟨S_, .f32⟩
  | 89 => ⟨S50000x32, .f32⟩
  | 90 => ⟨S2000000x1, .i32⟩
  | 91 => ⟨S50000x32, .f32⟩
  | 92 => ⟨S_, .f32⟩
  | 93 => ⟨S2000000, .f32⟩
  | 94 => ⟨S_, .f32⟩
  | 95 => ⟨S50000, .f32⟩
  | 96 => ⟨S2000000x1, .i32⟩
  | 97 => ⟨S50000, .f32⟩
  | 98 => ⟨S_, .f32⟩
  | 99 => ⟨S50000, .f32⟩
  | 100 => ⟨S50000, .f32⟩
  | 101 => ⟨S50000x1, .f32⟩
  | 102 => ⟨S50000x32, .f32⟩
  | 103 => ⟨S50000x32, .f32⟩
  | 104 => ⟨S50000x32, .f32⟩
  | 105 => ⟨S1x32, .f32⟩
  | 106 => ⟨S50000x32, .f32⟩
  | 107 => ⟨S50000x32, .f32⟩
  | 108 => ⟨S50000x32, .f32⟩
  | 109 => ⟨S50000x32, .f32⟩
  | 110 => ⟨S2000000x32, .f32⟩
  | 111 => ⟨S1x32, .f32⟩
  | 112 => ⟨S2000000x32, .f32⟩
  | 113 => ⟨S2000000x32, .f32⟩
  | 114 => ⟨S_, .f32⟩
  | 115 => ⟨S50000x32, .f32⟩
  | 116 => ⟨S_, .i32⟩
  | 117 => ⟨S2000000, .i32⟩
  | 118 => ⟨S2000000, .i1⟩
  | 119 => ⟨S_, .i32⟩
  | 120 => ⟨S2000000, .i32⟩
  | 121 => ⟨S2000000, .i32⟩
  | 122 => ⟨S2000000, .i32⟩
  | 123 => ⟨S2000000x1, .i32⟩
  | 124 => ⟨S50000x32, .f32⟩
  | 125 => ⟨S50000x32, .f32⟩
  | 126 => ⟨S_, .i32⟩
  | 127 => ⟨S1000000, .i32⟩
  | _ => ⟨S50000x32, .f32⟩

abbrev hbmTy0_1 (i : Nat) : BufTy := match i % 128 with
  | 0 => ⟨S1000000, .i1⟩
  | 1 => ⟨S_, .i32⟩
  | 2 => ⟨S1000000, .i32⟩
  | 3 => ⟨S1000000, .i32⟩
  | 4 => ⟨S1000000, .i32⟩
  | 5 => ⟨S1000000x1, .i32⟩
  | 6 => ⟨S1000000x32, .f32⟩
  | 7 => ⟨S_, .f32⟩
  | 8 => ⟨S50000x32, .f32⟩
  | 9 => ⟨S1000000x1, .i32⟩
  | 10 => ⟨S50000x32, .f32⟩
  | 11 => ⟨S_, .f32⟩
  | 12 => ⟨S1000000, .f32⟩
  | 13 => ⟨S_, .f32⟩
  | 14 => ⟨S50000, .f32⟩
  | 15 => ⟨S1000000x1, .i32⟩
  | 16 => ⟨S50000, .f32⟩
  | 17 => ⟨S_, .f32⟩
  | 18 => ⟨S50000, .f32⟩
  | 19 => ⟨S50000, .f32⟩
  | 20 => ⟨S50000x1, .f32⟩
  | 21 => ⟨S50000x32, .f32⟩
  | 22 => ⟨S50000x32, .f32⟩
  | 23 => ⟨S50000x32, .f32⟩
  | 24 => ⟨S1x32, .f32⟩
  | 25 => ⟨S50000x32, .f32⟩
  | 26 => ⟨S50000x32, .f32⟩
  | 27 => ⟨S50000x32, .f32⟩
  | 28 => ⟨S50000x32, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000x32, .f32⟩
  | 38 => ⟨S_, .f32⟩
  | 39 => ⟨S20000x32, .f32⟩
  | 40 => ⟨S1000000x1, .i32⟩
  | 41 => ⟨S20000x32, .f32⟩
  | 42 => ⟨S_, .f32⟩
  | 43 => ⟨S1000000, .f32⟩
  | 44 => ⟨S_, .f32⟩
  | 45 => ⟨S20000, .f32⟩
  | 46 => ⟨S1000000x1, .i32⟩
  | 47 => ⟨S20000, .f32⟩
  | 48 => ⟨S_, .f32⟩
  | 49 => ⟨S20000, .f32⟩
  | 50 => ⟨S20000, .f32⟩
  | 51 => ⟨S20000x1, .f32⟩
  | 52 => ⟨S20000x32, .f32⟩
  | 53 => ⟨S20000x32, .f32⟩
  | 54 => ⟨S20000x32, .f32⟩
  | 55 => ⟨S1x32, .f32⟩
  | 56 => ⟨S20000x32, .f32⟩
  | 57 => ⟨S20000x32, .f32⟩
  | 58 => ⟨S20000x32, .f32⟩
  | 59 => ⟨S20000x32, .f32⟩
  | 60 => ⟨S50000x32, .f32⟩
  | 61 => ⟨S_, .f32⟩
  | 62 => ⟨S50000x32, .f32⟩
  | 63 => ⟨S50000x32, .f32⟩
  | 64 => ⟨S_, .f32⟩
  | 65 => ⟨S200000x32, .f32⟩
  | 66 => ⟨S200000x32, .f32⟩
  | 67 => ⟨S_, .f32⟩
  | 68 => ⟨S20000x32, .f32⟩
  | 69 => ⟨S20000x32, .f32⟩
  | 70 => ⟨S200000x1, .f32⟩
  | 71 => ⟨S1x1, .f32⟩
  | 72 => ⟨S200000x1, .f32⟩
  | 73 => ⟨S200000x1, .f32⟩
  | 74 => ⟨S_, .f32⟩
  | 75 => ⟨S200000x1, .f32⟩
  | 76 => ⟨S200000x1, .i1⟩
  | 77 => ⟨S1x1, .f32⟩
  | 78 => ⟨S200000x1, .f32⟩
  | 79 => ⟨S200000x1, .f32⟩
  | 80 => ⟨S200000x1, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_c : Ref sig .tc := ⟨.hbm, 32, rfl⟩
abbrev main_v0 : Ref sig .tc := ⟨.hbm, 33, rfl⟩
abbrev main_v1 : Ref sig .tc := ⟨.hbm, 34, rfl⟩
abbrev main_c_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_cst : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_cst_1 : Ref sig .tc := ⟨.hbm, 45, rfl⟩
abbrev main_v10 : Ref sig .tc := ⟨.hbm, 46, rfl⟩
abbrev main_cst_2 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_cst_3 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_4 : Ref sig .tc := ⟨.hbm, 67, rfl⟩
abbrev main_v29 : Ref sig .tc := ⟨.hbm, 68, rfl⟩
abbrev main_c_5 : Ref sig .tc := ⟨.hbm, 69, rfl⟩
abbrev main_v30 : Ref sig .tc := ⟨.hbm, 70, rfl⟩
abbrev main_v31 : Ref sig .tc := ⟨.hbm, 71, rfl⟩
abbrev main_c_6 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_c_7 : Ref sig .tc := ⟨.hbm, 79, rfl⟩
abbrev main_v38 : Ref sig .tc := ⟨.hbm, 80, rfl⟩
abbrev main_v39 : Ref sig .tc := ⟨.hbm, 81, rfl⟩
abbrev main_c_8 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_9 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_10 : Ref sig .tc := ⟨.hbm, 92, rfl⟩
abbrev main_v48 : Ref sig .tc := ⟨.hbm, 93, rfl⟩
abbrev main_cst_11 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_12 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_13 : Ref sig .tc := ⟨.hbm, 114, rfl⟩
abbrev main_v67 : Ref sig .tc := ⟨.hbm, 115, rfl⟩
abbrev main_c_14 : Ref sig .tc := ⟨.hbm, 116, rfl⟩
abbrev main_v68 : Ref sig .tc := ⟨.hbm, 117, rfl⟩
abbrev main_v69 : Ref sig .tc := ⟨.hbm, 118, rfl⟩
abbrev main_c_15 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_c_16 : Ref sig .tc := ⟨.hbm, 126, rfl⟩
abbrev main_v76 : Ref sig .tc := ⟨.hbm, 127, rfl⟩
abbrev main_v77 : Ref sig .tc := ⟨.hbm, 128, rfl⟩
abbrev main_c_17 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_cst_18 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_cst_19 : Ref sig .tc := ⟨.hbm, 139, rfl⟩
abbrev main_v86 : Ref sig .tc := ⟨.hbm, 140, rfl⟩
abbrev main_cst_20 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_21 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_c_22 : Ref sig .tc := ⟨.hbm, 157, rfl⟩
abbrev main_v101 : Ref sig .tc := ⟨.hbm, 158, rfl⟩
abbrev main_v102 : Ref sig .tc := ⟨.hbm, 159, rfl⟩
abbrev main_c_23 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_cst_24 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_cst_25 : Ref sig .tc := ⟨.hbm, 170, rfl⟩
abbrev main_v111 : Ref sig .tc := ⟨.hbm, 171, rfl⟩
abbrev main_cst_26 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_cst_27 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_call0_cst : Ref sig .tc := ⟨.hbm, 189, rfl⟩
abbrev main_call0_v0 : Ref sig .tc := ⟨.hbm, 190, rfl⟩
abbrev main_v127 : Ref sig .tc := ⟨.hbm, 191, rfl⟩
abbrev main_call1_cst : Ref sig .tc := ⟨.hbm, 192, rfl⟩
abbrev main_call1_v0 : Ref sig .tc := ⟨.hbm, 193, rfl⟩
abbrev main_v128 : Ref sig .tc := ⟨.hbm, 194, rfl⟩
abbrev main_call2_cst : Ref sig .tc := ⟨.hbm, 195, rfl⟩
abbrev main_call2_v0 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_cst_28 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000x32 : S_.BroadcastsInDim S200000x32 (![] : Fin 0 → Fin S200000x32.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x32_0_1 : S200000x1.BroadcastsInDim S200000x32 (![0, 1] : Fin 2 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S1x32_S2000000x32_0_1 : S1x32.BroadcastsInDim S2000000x32 (![0, 1] : Fin 2 → Fin S2000000x32.rank)
  bcast_S_S50000x32 : S_.BroadcastsInDim S50000x32 (![] : Fin 0 → Fin S50000x32.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  bcast_S1x32_S50000x32_0_1 : S1x32.BroadcastsInDim S50000x32 (![0, 1] : Fin 2 → Fin S50000x32.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x32 : S_.BroadcastsInDim S20000x32 (![] : Fin 0 → Fin S20000x32.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x32_0_1 : S20000x1.BroadcastsInDim S20000x32 (![0, 1] : Fin 2 → Fin S20000x32.rank)
  bcast_S1x32_S20000x32_0_1 : S1x32.BroadcastsInDim S20000x32 (![0, 1] : Fin 2 → Fin S20000x32.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  gather_S50000x32_S2000000x1_S2000000x32_1_0_n_n_0_1_132_wf : GatherDims.WF S50000x32 S2000000x1 S2000000x32 [1] [0] [] [0] [] 1 ![1, 32]
  scatter_S200000x32_S2000000x1_S2000000x32_1_0_0_1_wf : ScatterDims.WF S200000x32 S2000000x1 S2000000x32 [1] [0] [0] 1
  scatter_S200000_S2000000x1_S2000000_n_0_0_1_wf : ScatterDims.WF S200000 S2000000x1 S2000000 [] [0] [0] 1
  dot_S200000x32_S32x32_S200000x32_1_0_0_1_n_n_wf : DotDims.WF S200000x32 S32x32 S200000x32 [1] [0] [0] [1] [] []
  dot_S2000000x3_S3x32_S2000000x32_1_0_0_1_n_n_wf : DotDims.WF S2000000x3 S3x32 S2000000x32 [1] [0] [0] [1] [] []
  gather_S200000x32_S2000000x1_S2000000x32_1_0_n_n_0_1_132_wf : GatherDims.WF S200000x32 S2000000x1 S2000000x32 [1] [0] [] [0] [] 1 ![1, 32]
  scatter_S50000x32_S2000000x1_S2000000x32_1_0_0_1_wf : ScatterDims.WF S50000x32 S2000000x1 S2000000x32 [1] [0] [0] 1
  scatter_S50000_S2000000x1_S2000000_n_0_0_1_wf : ScatterDims.WF S50000 S2000000x1 S2000000 [] [0] [0] 1
  dot_S50000x32_S32x32_S50000x32_1_0_0_1_n_n_wf : DotDims.WF S50000x32 S32x32 S50000x32 [1] [0] [0] [1] [] []
  gather_S20000x32_S1000000x1_S1000000x32_1_0_n_n_0_1_132_wf : GatherDims.WF S20000x32 S1000000x1 S1000000x32 [1] [0] [] [0] [] 1 ![1, 32]
  scatter_S50000x32_S1000000x1_S1000000x32_1_0_0_1_wf : ScatterDims.WF S50000x32 S1000000x1 S1000000x32 [1] [0] [0] 1
  scatter_S50000_S1000000x1_S1000000_n_0_0_1_wf : ScatterDims.WF S50000 S1000000x1 S1000000 [] [0] [0] 1
  gather_S50000x32_S1000000x1_S1000000x32_1_0_n_n_0_1_132_wf : GatherDims.WF S50000x32 S1000000x1 S1000000x32 [1] [0] [] [0] [] 1 ![1, 32]
  scatter_S20000x32_S1000000x1_S1000000x32_1_0_0_1_wf : ScatterDims.WF S20000x32 S1000000x1 S1000000x32 [1] [0] [0] 1
  scatter_S20000_S1000000x1_S1000000_n_0_0_1_wf : ScatterDims.WF S20000 S1000000x1 S1000000 [] [0] [0] 1
  dot_S20000x32_S32x32_S20000x32_1_0_0_1_n_n_wf : DotDims.WF S20000x32 S32x32 S20000x32 [1] [0] [0] [1] [] []
  dot_S200000x32_S32x1_S200000x1_1_0_0_1_n_n_wf : DotDims.WF S200000x32 S32x1 S200000x1 [1] [0] [0] [1] [] []

variable [Facts₀]

def gather_S50000x32_S2000000x1_S2000000x32_1_0_n_n_0_1_132 : GatherDims S50000x32 S2000000x1 S2000000x32 where
  offsetDims := [1]
  collapsedSliceDims := [0]
  operandBatchingDims := []
  startIndicesBatchingDims := []
  startIndexMap := [0]
  indexVectorDim := 1
  sliceSizes := ![1, 32]
  wf := gather_S50000x32_S2000000x1_S2000000x32_1_0_n_n_0_1_132_wf
def scatter_S200000x32_S2000000x1_S2000000x32_1_0_0_1 : ScatterDims S200000x32 S2000000x1 S2000000x32 where
  updateWindowDims := [1]
  insertedWindowDims := [0]
  scatterDimsToOperandDims := [0]
  indexVectorDim := 1
  wf := scatter_S200000x32_S2000000x1_S2000000x32_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def dot_S2000000x3_S3x32_S2000000x32_1_0_0_1_n_n : DotDims S2000000x3 S3x32 S2000000x32 where
  lhsContracting := [1]
  rhsContracting := [0]
  lhsNonContracting := [0]
  rhsNonContracting := [1]
  lhsBatch := []
  rhsBatch := []
  wf := dot_S2000000x3_S3x32_S2000000x32_1_0_0_1_n_n_wf
def gather_S200000x32_S2000000x1_S2000000x32_1_0_n_n_0_1_132 : GatherDims S200000x32 S2000000x1 S2000000x32 where
  offsetDims := [1]
  collapsedSliceDims := [0]
  operandBatchingDims := []
  startIndicesBatchingDims := []
  startIndexMap := [0]
  indexVectorDim := 1
  sliceSizes := ![1, 32]
  wf := gather_S200000x32_S2000000x1_S2000000x32_1_0_n_n_0_1_132_wf
def scatter_S50000x32_S2000000x1_S2000000x32_1_0_0_1 : ScatterDims S50000x32 S2000000x1 S2000000x32 where
  updateWindowDims := [1]
  insertedWindowDims := [0]
  scatterDimsToOperandDims := [0]
  indexVectorDim := 1
  wf := scatter_S50000x32_S2000000x1_S2000000x32_1_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def gather_S20000x32_S1000000x1_S1000000x32_1_0_n_n_0_1_132 : GatherDims S20000x32 S1000000x1 S1000000x32 where
  offsetDims := [1]
  collapsedSliceDims := [0]
  operandBatchingDims := []
  startIndicesBatchingDims := []
  startIndexMap := [0]
  indexVectorDim := 1
  sliceSizes := ![1, 32]
  wf := gather_S20000x32_S1000000x1_S1000000x32_1_0_n_n_0_1_132_wf
def scatter_S50000x32_S1000000x1_S1000000x32_1_0_0_1 : ScatterDims S50000x32 S1000000x1 S1000000x32 where
  updateWindowDims := [1]
  insertedWindowDims := [0]
  scatterDimsToOperandDims := [0]
  indexVectorDim := 1
  wf := scatter_S50000x32_S1000000x1_S1000000x32_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000x32_S1000000x1_S1000000x32_1_0_n_n_0_1_132 : GatherDims S50000x32 S1000000x1 S1000000x32 where
  offsetDims := [1]
  collapsedSliceDims := [0]
  operandBatchingDims := []
  startIndicesBatchingDims := []
  startIndexMap := [0]
  indexVectorDim := 1
  sliceSizes := ![1, 32]
  wf := gather_S50000x32_S1000000x1_S1000000x32_1_0_n_n_0_1_132_wf
def scatter_S20000x32_S1000000x1_S1000000x32_1_0_0_1 : ScatterDims S20000x32 S1000000x1 S1000000x32 where
  updateWindowDims := [1]
  insertedWindowDims := [0]
  scatterDimsToOperandDims := [0]
  indexVectorDim := 1
  wf := scatter_S20000x32_S1000000x1_S1000000x32_1_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S20000x32_S32x32_S20000x32_1_0_0_1_n_n : DotDims S20000x32 S32x32 S20000x32 where
  lhsContracting := [1]
  rhsContracting := [0]
  lhsNonContracting := [0]
  rhsNonContracting := [1]
  lhsBatch := []
  rhsBatch := []
  wf := dot_S20000x32_S32x32_S20000x32_1_0_0_1_n_n_wf
def dot_S200000x32_S32x1_S200000x1_1_0_0_1_n_n : DotDims S200000x32 S32x1 S200000x1 where
  lhsContracting := [1]
  rhsContracting := [0]
  lhsNonContracting := [0]
  rhsNonContracting := [1]
  lhsBatch := []
  rhsBatch := []
  wf := dot_S200000x32_S32x1_S200000x1_1_0_0_1_n_n_wf

class Facts : Prop extends Facts₀ where

variable [Facts]
-- ==== Proof.KernelResults.lean ====
/-
  The idealized kernel's run with its three result arrays named: every weakly fair execution of @main ends with
  the node features of the first node type, the head's output and the node features of the third node type at what
  the three pallas_calls leave in their output arrays, the argument arrays unchanged.
-/
import proofs.«150690_j50689204027575_2_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with each result buffer at its contents after the last region. -/
theorem run_results : θ_run defs (onTc (τ := τ) (main (F := F))) ⟨m, fun _ => 0, ρ⟩ (fun r => ∀ c : Dev nD,
      r.2.mem ((c.tc : Thread nD τ).loc main_v108) = W6 m ρ c (Proc.devRef .tc main_v108)
      ∧ r.2.mem ((c.tc : Thread nD τ).loc main_v104_1) = W6 m ρ c (Proc.devRef .tc main_v104_1)
      ∧ r.2.mem ((c.tc : Thread nD τ).loc main_v110) = W6 m ρ c (Proc.devRef .tc main_v110)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v108 (by decide)),
       h c _ (mem_uc main_v104_1 (by decide)),
       h c _ (mem_uc main_v110 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c),
       (h c _ (mem_uc main_arg23 (by decide))).trans (W6_main_arg23 m ρ c),
       (h c _ (mem_uc main_arg24 (by decide))).trans (W6_main_arg24 m ρ c),
       (h c _ (mem_uc main_arg25 (by decide))).trans (W6_main_arg25 m ρ c),
       (h c _ (mem_uc main_arg26 (by decide))).trans (W6_main_arg26 m ρ c),
       (h c _ (mem_uc main_arg27 (by decide))).trans (W6_main_arg27 m ρ c),
       (h c _ (mem_uc main_arg28 (by decide))).trans (W6_main_arg28 m ρ c),
       (h c _ (mem_uc main_arg29 (by decide))).trans (W6_main_arg29 m ρ c),
       (h c _ (mem_uc main_arg30 (by decide))).trans (W6_main_arg30 m ρ c),
       (h c _ (mem_uc main_arg31 (by decide))).trans (W6_main_arg31 m ρ c)⟩)

end Cert.KernelIdeal.Results

end
-- ==== Proof.Spec.lean ====
/-
  The node update of one message-passing layer, index by index over the extended reals.

  For a destination node `r` and an output feature `q`:
  * `lin mean x Wl bl Wr (r, q) = (Σₖ mean(r,k)·Wl(k,q) + bl(q)) + Σₖ x(r,k)·Wr(k,q)` — the aggregated neighbours
    through one weight matrix, a bias, and the node's own features through another;
  * `linEdge … (r, q) = (lin … (r, q) + Σₖ ea(r,k)·We(k,q)) + mask(r)·be(q)` — with the edge attribute that
    reached the node through a third matrix, and that matrix's bias where the node was reached at all.
-/
import Idealize.ShloMosaic.PureOps.Ideal
import Idealize.ShloMosaic.Lib.ValueIdx

noncomputable section

namespace Cert.Spec

open Idealize.ShloMosaic Idealize.ShloMosaic.ValueIdx

variable {n : Nat}

/-- Aggregate through `Wl`, plus bias, plus the node's own features through `Wr`. -/
def lin (mean x : (⟨2, ![n, 32]⟩ : Shape).Idx → EReal) (Wl : (⟨2, ![32, 32]⟩ : Shape).Idx → EReal)
    (bl : (⟨2, ![1, 32]⟩ : Shape).Idx → EReal) (Wr : (⟨2, ![32, 32]⟩ : Shape).Idx → EReal) (r : Fin n) (q : Fin 32) : EReal :=
  ((∑ k : Fin 32, mean (ix2 r k) * Wl (ix2 k q)) + bl (ix2 0 q)) + ∑ k : Fin 32, x (ix2 r k) * Wr (ix2 k q)

/-- The same with the node's edge attribute through `We` and the masked bias `be`. -/
def linEdge (mean x : (⟨2, ![n, 32]⟩ : Shape).Idx → EReal) (ea : (⟨2, ![n, 3]⟩ : Shape).Idx → EReal)
    (mask : (⟨2, ![n, 1]⟩ : Shape).Idx → EReal) (Wl : (⟨2, ![32, 32]⟩ : Shape).Idx → EReal)
    (bl : (⟨2, ![1, 32]⟩ : Shape).Idx → EReal) (Wr : (⟨2, ![32, 32]⟩ : Shape).Idx → EReal)
    (We : (⟨2, ![3, 32]⟩ : Shape).Idx → EReal) (be : (⟨2, ![1, 32]⟩ : Shape).Idx → EReal) (r : Fin n) (q : Fin 32) : EReal :=
  (lin mean x Wl bl Wr r q + ∑ k : Fin 3, ea (ix2 r k) * We (ix2 k q)) + mask (ix2 r 0) * be (ix2 0 q)

/-- The edge attribute that reached node `r` through `We`, plus the bias `be` where the node was reached. -/
def edgeSum (ea : (⟨2, ![n, 3]⟩ : Shape).Idx → EReal) (We : (⟨2, ![3, 32]⟩ : Shape).Idx → EReal)
    (mask : (⟨2, ![n, 1]⟩ : Shape).Idx → EReal) (be : (⟨2, ![1, 32]⟩ : Shape).Idx → EReal) (r : Fin n) (q : Fin 32) : EReal :=
  (∑ k : Fin 3, ea (ix2 r k) * We (ix2 k q)) + mask (ix2 r 0) * be (ix2 0 q)

/-- The linear part depends on its arrays only through row `r` and column `q`. -/
theorem lin_congr {mean mean' x x' : (⟨2, ![n, 32]⟩ : Shape).Idx → EReal} {Wl Wl' Wr Wr' : (⟨2, ![32, 32]⟩ : Shape).Idx → EReal}
    {bl bl' : (⟨2, ![1, 32]⟩ : Shape).Idx → EReal} (r : Fin n) (q : Fin 32)
    (hm : ∀ k, mean (ix2 r k) = mean' (ix2 r k)) (hx : ∀ k, x (ix2 r k) = x' (ix2 r k))
    (hWl : ∀ k, Wl (ix2 k q) = Wl' (ix2 k q)) (hb : bl (ix2 0 q) = bl' (ix2 0 q))
    (hWr : ∀ k, Wr (ix2 k q) = Wr' (ix2 k q)) :
    lin mean x Wl bl Wr r q = lin mean' x' Wl' bl' Wr' r q := by
  unfold lin
  simp only [hm, hx, hWl, hb, hWr]

/-- The edge term and the masked bias can be added as one summand: addition of extended reals is associative. -/
theorem linEdge_eq (mean x : (⟨2, ![n, 32]⟩ : Shape).Idx → EReal) (ea : (⟨2, ![n, 3]⟩ : Shape).Idx → EReal)
    (mask : (⟨2, ![n, 1]⟩ : Shape).Idx → EReal) (Wl : (⟨2, ![32, 32]⟩ : Shape).Idx → EReal)
    (bl : (⟨2, ![1, 32]⟩ : Shape).Idx → EReal) (Wr : (⟨2, ![32, 32]⟩ : Shape).Idx → EReal)
    (We : (⟨2, ![3, 32]⟩ : Shape).Idx → EReal) (be : (⟨2, ![1, 32]⟩ : Shape).Idx → EReal) (r : Fin n) (q : Fin 32)
    (S : EReal) (hS : edgeSum ea We mask be r q = S) :
    linEdge mean x ea mask Wl bl Wr We be r q = lin mean x Wl bl Wr r q + S := by
  unfold linEdge
  unfold edgeSum at hS
  rw [add_assoc, hS]

/-- The output head on node features `h`: `y = Σₖ h(r,k)·Wo(k) + bo`, kept where `y ≥ 0` and scaled by `a` elsewhere. -/
def head (h : (⟨2, ![n, 32]⟩ : Shape).Idx → EReal) (Wo : (⟨2, ![32, 1]⟩ : Shape).Idx → EReal)
    (bo a : (⟨2, ![1, 1]⟩ : Shape).Idx → EReal) (r : Fin n) : EReal :=
  Scalar.select
    (FloatOps.cmpf (F := Ideal) (φ := .f32) .oge ((∑ k : Fin 32, h (ix2 r k) * Wo (ix2 k 0)) + bo (ix2 0 0))
      (Ideal.ofBits .f32 0x00000000#32))
    ((∑ k : Fin 32, h (ix2 r k) * Wo (ix2 k 0)) + bo (ix2 0 0))
    (a (ix2 0 0) * ((∑ k : Fin 32, h (ix2 r k) * Wo (ix2 k 0)) + bo (ix2 0 0)))

/-- The head depends on its arrays only through row `r`. -/
theorem head_congr {h h' : (⟨2, ![n, 32]⟩ : Shape).Idx → EReal} {Wo Wo' : (⟨2, ![32, 1]⟩ : Shape).Idx → EReal}
    {bo bo' a a' : (⟨2, ![1, 1]⟩ : Shape).Idx → EReal} (r : Fin n)
    (hh : ∀ k, h (ix2 r k) = h' (ix2 r k)) (hW : ∀ k, Wo (ix2 k 0) = Wo' (ix2 k 0))
    (hb : bo (ix2 0 0) = bo' (ix2 0 0)) (ha : a (ix2 0 0) = a' (ix2 0 0)) :
    head h Wo bo a r = head h' Wo' bo' a' r := by
  unfold head
  simp only [hh, hW, hb, ha]

end Cert.Spec

end
-- ==== Proof.KernelBody.lean ====
/-
  The kernel bodies' arithmetic read at an index, over the extended reals: a matmul into a zero accumulator is the
  plain sum over the contracted axis, a change of float format is the identity, a row broadcast reads its one row.
-/
import proofs.«150690_j50689204027575_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«150690_j50689204027575_2_alg».proof.Proof.Spec

noncomputable section

namespace Cert.KernelIdeal.Body

open Idealize.ShloMosaic Idealize.ShloMosaic.ValueIdx Cert.KernelIdeal Cert.KernelIdeal.Gen

theorem mm_32_32 {φ₁ φ₂ : FTy} (lhs : FVec Ideal S5000x32 φ₁) (rhs : FVec Ideal S32x32 φ₂) (p : Fin 5000) (q : Fin 32) :
    matmul dot_S5000x32_S32x32_S5000x32_1_0_0_1_n_n none lhs rhs (constant S5000x32 .f32 0x00000000#32) (ix2 p q)
      = ∑ k : Fin 32, lhs (ix2 p k) * rhs (ix2 k q) := by
  show FloatOps.matmul dot_S5000x32_S32x32_S5000x32_1_0_0_1_n_n none lhs rhs (constant S5000x32 .f32 0x00000000#32) (ix2 p q) = _
  rw [Ideal.matmul_constant_zero_apply, ← Equiv.sum_comp (contrEquiv1 dot_S5000x32_S32x32_S5000x32_1_0_0_1_n_n 32 rfl rfl).symm]
  refine Finset.sum_congr rfl fun k _ => ?_
  have hk := contrEquiv1_symm_val dot_S5000x32_S32x32_S5000x32_1_0_0_1_n_n 32 rfl rfl k
  have el : dot_S5000x32_S32x32_S5000x32_1_0_0_1_n_n.lhsIdx (ix2 p q) ((contrEquiv1 dot_S5000x32_S32x32_S5000x32_1_0_0_1_n_n 32 rfl rfl).symm k) = ix2 p k :=
    funext fun a => Fin.ext (by
      match a with
      | ⟨0, _⟩ =>
        show (dot_S5000x32_S32x32_S5000x32_1_0_0_1_n_n.lhsIdx (ix2 p q) _ 0).val = p.val
        unfold DotDims.lhsIdx
        rw [dif_neg (show ¬(0 : Fin S5000x32.rank) ∈ dot_S5000x32_S32x32_S5000x32_1_0_0_1_n_n.lhsBatch by decide),
          dif_pos (show (0 : Fin S5000x32.rank) ∈ dot_S5000x32_S32x32_S5000x32_1_0_0_1_n_n.lhsNonContracting by decide)]
        rfl
      | ⟨1, _⟩ => exact (dot_S5000x32_S32x32_S5000x32_1_0_0_1_n_n.lhsIdx_val_of_single rfl _ _).trans hk)
  have er : dot_S5000x32_S32x32_S5000x32_1_0_0_1_n_n.rhsIdx (ix2 p q) ((contrEquiv1 dot_S5000x32_S32x32_S5000x32_1_0_0_1_n_n 32 rfl rfl).symm k) = ix2 k q :=
    funext fun a => Fin.ext (by
      match a with
      | ⟨0, _⟩ => exact (dot_S5000x32_S32x32_S5000x32_1_0_0_1_n_n.rhsIdx_val_of_single rfl _ _).trans hk
      | ⟨1, _⟩ =>
        show (dot_S5000x32_S32x32_S5000x32_1_0_0_1_n_n.rhsIdx (ix2 p q) _ 1).val = q.val
        unfold DotDims.rhsIdx
        rw [dif_neg (show ¬(1 : Fin S32x32.rank) ∈ dot_S5000x32_S32x32_S5000x32_1_0_0_1_n_n.rhsBatch by decide),
          dif_pos (show (1 : Fin S32x32.rank) ∈ dot_S5000x32_S32x32_S5000x32_1_0_0_1_n_n.rhsNonContracting by decide)]
        rfl)
  rw [el, er]

theorem mm_3_32 {φ₁ φ₂ : FTy} (lhs : FVec Ideal S5000x3 φ₁) (rhs : FVec Ideal S3x32 φ₂) (p : Fin 5000) (q : Fin 32) :
    matmul dot_S5000x3_S3x32_S5000x32_1_0_0_1_n_n none lhs rhs (constant S5000x32 .f32 0x00000000#32) (ix2 p q)
      = ∑ k : Fin 3, lhs (ix2 p k) * rhs (ix2 k q) := by
  show FloatOps.matmul dot_S5000x3_S3x32_S5000x32_1_0_0_1_n_n none lhs rhs (constant S5000x32 .f32 0x00000000#32) (ix2 p q) = _
  rw [Ideal.matmul_constant_zero_apply, ← Equiv.sum_comp (contrEquiv1 dot_S5000x3_S3x32_S5000x32_1_0_0_1_n_n 3 rfl rfl).symm]
  refine Finset.sum_congr rfl fun k _ => ?_
  have hk := contrEquiv1_symm_val dot_S5000x3_S3x32_S5000x32_1_0_0_1_n_n 3 rfl rfl k
  have el : dot_S5000x3_S3x32_S5000x32_1_0_0_1_n_n.lhsIdx (ix2 p q) ((contrEquiv1 dot_S5000x3_S3x32_S5000x32_1_0_0_1_n_n 3 rfl rfl).symm k) = ix2 p k :=
    funext fun a => Fin.ext (by
      match a with
      | ⟨0, _⟩ =>
        show (dot_S5000x3_S3x32_S5000x32_1_0_0_1_n_n.lhsIdx (ix2 p q) _ 0).val = p.val
        unfold DotDims.lhsIdx
        rw [dif_neg (show ¬(0 : Fin S5000x3.rank) ∈ dot_S5000x3_S3x32_S5000x32_1_0_0_1_n_n.lhsBatch by decide),
          dif_pos (show (0 : Fin S5000x3.rank) ∈ dot_S5000x3_S3x32_S5000x32_1_0_0_1_n_n.lhsNonContracting by decide)]
        rfl
      | ⟨1, _⟩ => exact (dot_S5000x3_S3x32_S5000x32_1_0_0_1_n_n.lhsIdx_val_of_single rfl _ _).trans hk)
  have er : dot_S5000x3_S3x32_S5000x32_1_0_0_1_n_n.rhsIdx (ix2 p q) ((contrEquiv1 dot_S5000x3_S3x32_S5000x32_1_0_0_1_n_n 3 rfl rfl).symm k) = ix2 k q :=
    funext fun a => Fin.ext (by
      match a with
      | ⟨0, _⟩ => exact (dot_S5000x3_S3x32_S5000x32_1_0_0_1_n_n.rhsIdx_val_of_single rfl _ _).trans hk
      | ⟨1, _⟩ =>
        show (dot_S5000x3_S3x32_S5000x32_1_0_0_1_n_n.rhsIdx (ix2 p q) _ 1).val = q.val
        unfold DotDims.rhsIdx
        rw [dif_neg (show ¬(1 : Fin S3x32.rank) ∈ dot_S5000x3_S3x32_S5000x32_1_0_0_1_n_n.rhsBatch by decide),
          dif_pos (show (1 : Fin S3x32.rank) ∈ dot_S5000x3_S3x32_S5000x32_1_0_0_1_n_n.rhsNonContracting by decide)]
        rfl)
  rw [el, er]

theorem mm_32_1 {φ₁ φ₂ : FTy} (lhs : FVec Ideal S5000x32 φ₁) (rhs : FVec Ideal S32x1 φ₂) (p : Fin 5000) (q : Fin 1) :
    matmul dot_S5000x32_S32x1_S5000x1_1_0_0_1_n_n none lhs rhs (constant S5000x1 .f32 0x00000000#32) (ix2 p q)
      = ∑ k : Fin 32, lhs (ix2 p k) * rhs (ix2 k q) := by
  show FloatOps.matmul dot_S5000x32_S32x1_S5000x1_1_0_0_1_n_n none lhs rhs (constant S5000x1 .f32 0x00000000#32) (ix2 p q) = _
  rw [Ideal.matmul_constant_zero_apply, ← Equiv.sum_comp (contrEquiv1 dot_S5000x32_S32x1_S5000x1_1_0_0_1_n_n 32 rfl rfl).symm]
  refine Finset.sum_congr rfl fun k _ => ?_
  have hk := contrEquiv1_symm_val dot_S5000x32_S32x1_S5000x1_1_0_0_1_n_n 32 rfl rfl k
  have el : dot_S5000x32_S32x1_S5000x1_1_0_0_1_n_n.lhsIdx (ix2 p q) ((contrEquiv1 dot_S5000x32_S32x1_S5000x1_1_0_0_1_n_n 32 rfl rfl).symm k) = ix2 p k :=
    funext fun a => Fin.ext (by
      match a with
      | ⟨0, _⟩ =>
        show (dot_S5000x32_S32x1_S5000x1_1_0_0_1_n_n.lhsIdx (ix2 p q) _ 0).val = p.val
        unfold DotDims.lhsIdx
        rw [dif_neg (show ¬(0 : Fin S5000x32.rank) ∈ dot_S5000x32_S32x1_S5000x1_1_0_0_1_n_n.lhsBatch by decide),
          dif_pos (show (0 : Fin S5000x32.rank) ∈ dot_S5000x32_S32x1_S5000x1_1_0_0_1_n_n.lhsNonContracting by decide)]
        rfl
      | ⟨1, _⟩ => exact (dot_S5000x32_S32x1_S5000x1_1_0_0_1_n_n.lhsIdx_val_of_single rfl _ _).trans hk)
  have er : dot_S5000x32_S32x1_S5000x1_1_0_0_1_n_n.rhsIdx (ix2 p q) ((contrEquiv1 dot_S5000x32_S32x1_S5000x1_1_0_0_1_n_n 32 rfl rfl).symm k) = ix2 k q :=
    funext fun a => Fin.ext (by
      match a with
      | ⟨0, _⟩ => exact (dot_S5000x32_S32x1_S5000x1_1_0_0_1_n_n.rhsIdx_val_of_single rfl _ _).trans hk
      | ⟨1, _⟩ =>
        show (dot_S5000x32_S32x1_S5000x1_1_0_0_1_n_n.rhsIdx (ix2 p q) _ 1).val = q.val
        unfold DotDims.rhsIdx
        rw [dif_neg (show ¬(1 : Fin S32x1.rank) ∈ dot_S5000x32_S32x1_S5000x1_1_0_0_1_n_n.rhsBatch by decide),
          dif_pos (show (1 : Fin S32x1.rank) ∈ dot_S5000x32_S32x1_S5000x1_1_0_0_1_n_n.rhsNonContracting by decide)]
        rfl)
  rw [el, er]

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else c.val
    rw [if_pos rfl]

/-- First region's node update at `(p, q)`: the layer's linear part with the edge term and the masked bias, then `max(·, 0)`. -/
theorem k0_pay2_apply (v0 v3 : Vec Ideal S5000x32 .f32) (v5 : Vec Ideal S5000x3 .f32) (v8 v10 : Vec Ideal S32x32 .f32)
    (v12 : Vec Ideal S3x32 .f32) (v14 : Vec Ideal S5000x1 .f32) (v18 v24 : Vec Ideal S1x32 .f32) (p : Fin 5000) (q : Fin 32) :
    k0_pay2 (F := Ideal) v0 v3 v5 v8 v10 v12 v14 v18 v24 (ix2 p q)
      = max (Spec.linEdge (n := 5000) v0 v3 v5 v14 v8 v24 v10 v12 v18 p q) (Ideal.ofBits .f32 0x00000000#32) := by
  unfold k0_pay2 Spec.linEdge Spec.lin
  simp only [maximumf_apply, addf_apply, mulf_apply, mm_32_32, mm_3_32, truncf_apply, broadcast_apply, shapeCast_self,
    broadcastTo_1b_ab_apply, broadcastTo_a1_ab_apply]
  rfl

/-- First region's head at row `p`, over any node features `h`. -/
theorem k0_pay1_apply (h : FVec Ideal S5000x32 .f32) (wo : Vec Ideal S32x1 .f32) (bo a : Vec Ideal S1x1 .f32)
    (p : Fin 5000) (z : Fin 1) :
    k0_pay1 (F := Ideal) h wo bo a (ix2 p z) = Spec.head (n := 5000) h wo bo a p := by
  obtain rfl : z = 0 := Subsingleton.elim _ _
  unfold k0_pay1 Spec.head
  simp only [select_apply, cmpf_apply, mulf_apply, addf_apply, mm_32_1, truncf_apply, broadcast_apply, shapeCast_self,
    broadcastTo_1b_ab_apply]
  rfl

/-- Second region's body at `(p, q)`: the two relations' linear parts summed, then `max(·, 0)`. -/
theorem k1_out_apply (x mgp : Vec Ideal S5000x32 .f32) (ea : Vec Ideal S5000x3 .f32) (mask : Vec Ideal S5000x1 .f32)
    (wlgp wrgp : Vec Ideal S32x32 .f32) (blgp begp : Vec Ideal S1x32 .f32) (wegp : Vec Ideal S3x32 .f32)
    (msp : Vec Ideal S5000x32 .f32) (wlsp wrsp : Vec Ideal S32x32 .f32) (blsp : Vec Ideal S1x32 .f32)
    (p : Fin 5000) (q : Fin 32) :
    k1_pay1 (F := Ideal) (k1_pay2 x) (k1_pay3 x mgp wlgp wrgp ea wegp mask begp blgp) (k1_pay4 msp) wlsp wrsp blsp (ix2 p q)
      = max (Spec.linEdge (n := 5000) mgp x ea mask wlgp blgp wrgp wegp begp p q
              + Spec.lin (n := 5000) msp x wlsp blsp wrsp p q) (Ideal.ofBits .f32 0x00000000#32) := by
  unfold k1_pay1 k1_pay2 k1_pay3 k1_pay4 Spec.linEdge Spec.lin
  simp only [maximumf_apply, addf_apply, mulf_apply, mm_32_32, mm_3_32, truncf_apply, broadcast_apply, shapeCast_self,
    broadcastTo_1b_ab_apply, broadcastTo_a1_ab_apply]
  rfl

/-- Third region's body at `(p, q)`: `max((Σₖ mean(p,k)·Wl(k,q) + bl(q)) + Σₖ x(p,k)·Wr(k,q), 0)`. -/
theorem k2_pay1_apply (v0 v3 : Vec Ideal S5000x32 .f32) (v5 v7 : Vec Ideal S32x32 .f32) (v10 : Vec Ideal S1x32 .f32)
    (p : Fin 5000) (q : Fin 32) :
    k2_pay1 (F := Ideal) v0 v3 v5 v7 v10 (ix2 p q)
      = max (((∑ k : Fin 32, v0 (ix2 p k) * v5 (ix2 k q)) + v10 (ix2 0 q))
          + ∑ k : Fin 32, v3 (ix2 p k) * v7 (ix2 k q)) (Ideal.ofBits .f32 0x00000000#32) := by
  unfold k2_pay1
  simp only [maximumf_apply, addf_apply, mm_32_32, truncf_apply, broadcast_apply, shapeCast_self,
    broadcastTo_1b_ab_apply]
  rfl

end Cert.KernelIdeal.Body
end
-- ==== Proof.KernelSw.lean ====
/-
  The third node type's features after the third pallas_call: every row `r` of the output array holds
  `max((Σₖ mean(r,k)·Wl(k,q) + bl(q)) + Σₖ x(r,k)·Wr(k,q), 0)` of the arrays the region finds — grid point `t`
  writes rows `5000·t … 5000·t + 4999`, and the four points tile the 20000 rows.
-/
import proofs.«150690_j50689204027575_2_alg».proof.Proof.Gen.KernelIdeal.Frame
import proofs.«150690_j50689204027575_2_alg».proof.Proof.KernelBody
import proofs.«150690_j50689204027575_2_alg».proof.Proof.Spec
import Idealize.ShloMosaic.Lib.Pipeline.Value

set_option maxRecDepth 16384

noncomputable section

namespace Cert.KernelIdeal.Sw

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-- The output array as one function of the arrays the region finds. -/
def G (c : Dev nD) : S20000x32.Idx → EReal := fun i =>
  max (Spec.lin (n := 20000) (V c main_v59) (V c main_arg2) (V c main_arg23) (V c main_v109) (V c main_arg25) (i 0) (i 1))
    (Ideal.ofBits .f32 0x00000000#32)

/-- Row `p` of grid point `t`'s block is row `5000·t + p` of the array. -/
def rowAt (t : Fin cfg2.N) (p : Fin 5000) : Fin 20000 :=
  ⟨5000 * t.val + p.val, by have := t.isLt; have hN : cfg2.N = 4 := N_2; have := p.isLt; omega⟩

theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x32) hz, View.ld_unit_zero (S := S32x32) hz, View.ld_unit_zero (S := S1x32) hz]
  obtain ⟨e00, e01, e10, e11, e20, e21, e30, e31, e40, e41, e50, e51⟩ := idx_facts t
  funext j
  obtain ⟨p, q, rfl⟩ : ∃ (p : Fin 5000) (q : Fin 32), j = ix2 p q := ⟨j 0, j 1, eq_ix2 j⟩
  show k2_pay1 (F := Ideal) (iblk2 V c 0 t) (iblk2 V c 1 t) (iblk2 V c 2 t) (iblk2 V c 4 t) (iblk2 V c 3 t) (ix2 p q)
    = G V c (((cfg2.win 5).blk t).view.emb (ix2 p q))
  refine (k2_pay1_apply _ _ _ _ _ p q).trans ?_
  have h5 : ((cfg2.win 5).blk t).view.emb (ix2 p q) = (ix2 (rowAt t p) q : S20000x32.Idx) := by
    funext a; apply Fin.ext
    match a with
    | ⟨0, _⟩ => show win2_5.index t (0 : Fin 2) * 5000 + 1 * p.val = 5000 * t.val + p.val; omega
    | ⟨1, _⟩ => show win2_5.index t (1 : Fin 2) * 32 + 1 * q.val = q.val; omega
  rw [h5]
  have b0 : ∀ (k : Fin 32), iblk2 V c 0 t (ix2 p k) = V c main_v59 (ix2 (rowAt t p) k) := fun k => by
    show V c main_v59 (((cfg2.win 0).blk t).view.emb (ix2 p k)) = _
    refine congrArg _ ?_
    funext a; apply Fin.ext
    match a with
    | ⟨0, _⟩ => show win2_0.index t (0 : Fin 2) * 5000 + 1 * p.val = 5000 * t.val + p.val; omega
    | ⟨1, _⟩ => show win2_0.index t (1 : Fin 2) * 32 + 1 * k.val = k.val; omega
  have b1 : ∀ (k : Fin 32), iblk2 V c 1 t (ix2 p k) = V c main_arg2 (ix2 (rowAt t p) k) := fun k => by
    show V c main_arg2 (((cfg2.win 1).blk t).view.emb (ix2 p k)) = _
    refine congrArg _ ?_
    funext a; apply Fin.ext
    match a with
    | ⟨0, _⟩ => show win2_1.index t (0 : Fin 2) * 5000 + 1 * p.val = 5000 * t.val + p.val; omega
    | ⟨1, _⟩ => show win2_1.index t (1 : Fin 2) * 32 + 1 * k.val = k.val; omega
  have b2 : ∀ (k : Fin 32), iblk2 V c 2 t (ix2 k q) = V c main_arg23 (ix2 k q) := fun k => by
    show V c main_arg23 (((cfg2.win 2).blk t).view.emb (ix2 k q)) = _
    refine congrArg _ ?_
    funext a; apply Fin.ext
    match a with
    | ⟨0, _⟩ => show win2_2.index t (0 : Fin 2) * 32 + 1 * k.val = k.val; omega
    | ⟨1, _⟩ => show win2_2.index t (1 : Fin 2) * 32 + 1 * q.val = q.val; omega
  have b3 : ∀ (z : Fin 1), iblk2 V c 3 t (ix2 z q) = V c main_v109 (ix2 z q) := fun z => by
    show V c main_v109 (((cfg2.win 3).blk t).view.emb (ix2 z q)) = _
    refine congrArg _ ?_
    funext a; apply Fin.ext
    match a with
    | ⟨0, _⟩ => show win2_3.index t (0 : Fin 2) * 1 + 1 * z.val = z.val; omega
    | ⟨1, _⟩ => show win2_3.index t (1 : Fin 2) * 32 + 1 * q.val = q.val; omega
  have b4 : ∀ (k : Fin 32), iblk2 V c 4 t (ix2 k q) = V c main_arg25 (ix2 k q) := fun k => by
    show V c main_arg25 (((cfg2.win 4).blk t).view.emb (ix2 k q)) = _
    refine congrArg _ ?_
    funext a; apply Fin.ext
    match a with
    | ⟨0, _⟩ => show win2_4.index t (0 : Fin 2) * 32 + 1 * k.val = k.val; omega
    | ⟨1, _⟩ => show win2_4.index t (1 : Fin 2) * 32 + 1 * q.val = q.val; omega
  simp only [b0, b1, b2, b3, b4]
  rfl

/-- An index of the array is in point `t`'s block iff each coordinate is in the block's range on its axis. -/
theorem mem_blk (t : Fin cfg2.N) (i : S20000x32.Idx) :
    i ∈ ((cfg2.win 5).blk t).view.set ↔ ∀ a : Fin 2, win2_5.index t a * S5000x32.size a ≤ (i a).val
      ∧ (i a).val < win2_5.index t a * S5000x32.size a + S5000x32.size a := by
  show i ∈ ((View.whole main_v110).slice (win2_5.rect t)).set ↔ _
  rw [View.set_slice_whole, Rect.mem_set_unit]
  exact Iff.rfl

/-- Every row lies in the block of the point `row / 5000`. -/
theorem cover (i : S20000x32.Idx) :
    ∃ t : Fin cfg2.N, (cfg2.win 5).flush t = true ∧ i ∈ ((cfg2.win 5).blk t).view.set := by
  have hN : cfg2.N = 4 := N_2
  have hi0 : (i 0).val < 20000 := (i 0).isLt
  have hi1 : (i 1).val < 32 := (i 1).isLt
  refine ⟨⟨(i 0).val / 5000, by omega⟩, flush2_5 _, ?_⟩
  obtain ⟨-, -, -, -, -, -, -, -, -, -, e50, e51⟩ := idx_facts ⟨(i 0).val / 5000, by omega⟩
  rw [mem_blk]
  intro a
  match a with
  | ⟨0, _⟩ =>
    show win2_5.index _ (0 : Fin 2) * 5000 ≤ (i 0).val ∧ (i 0).val < win2_5.index _ (0 : Fin 2) * 5000 + 5000
    rw [e50]; show (i 0).val / 5000 * 5000 ≤ (i 0).val ∧ (i 0).val < (i 0).val / 5000 * 5000 + 5000
    omega
  | ⟨1, _⟩ =>
    show win2_5.index _ (1 : Fin 2) * 32 ≤ (i 1).val ∧ (i 1).val < win2_5.index _ (1 : Fin 2) * 32 + 32
    rw [e51]; omega

/-- The four blocks tile the array, so after the region it holds `G` everywhere. -/
theorem final (c : Dev nD) : (dat2 V c).arrAt 5 cfg2.N = G V c :=
  (dat2 V c).arrAt_eq_of_cover 5 (G V c) (fun t _ => flushed_eq V c t) cover

end Cert.KernelIdeal.Sw

end
-- ==== Proof.KernelPfas.lean ====
/-
  The first node type's features after the second pallas_call: row `r` of the output array holds
  `max(linEdge(r, q) + lin(r, q), 0)` — the relation with edge attributes plus the plain relation, both landing on
  this node type — of the arrays the region finds; grid point `t` writes rows `5000·t … 5000·t + 4999`, and the ten
  points tile the 50000 rows.
-/
import proofs.«150690_j50689204027575_2_alg».proof.Proof.Gen.KernelIdeal.Frame
import proofs.«150690_j50689204027575_2_alg».proof.Proof.KernelBody
import proofs.«150690_j50689204027575_2_alg».proof.Proof.Spec
import Idealize.ShloMosaic.Lib.Pipeline.Value

set_option maxRecDepth 16384

noncomputable section

namespace Cert.KernelIdeal.Pfas

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-- The output array as one function of the arrays the region finds. -/
def G (c : Dev nD) : S50000x32.Idx → EReal := fun i =>
  max (Spec.linEdge (n := 50000) (V c main_v38) (V c main_arg0) (V c main_v99) (V c main_v41) (V c main_arg18)
        (V c main_v105) (V c main_arg20) (V c main_arg21) (V c main_v106) (i 0) (i 1)
      + Spec.lin (n := 50000) (V c main_v80) (V c main_arg0) (V c main_arg26) (V c main_v107) (V c main_arg28) (i 0) (i 1))
    (Ideal.ofBits .f32 0x00000000#32)

/-- Row `p` of grid point `t`'s block is row `5000·t + p` of the array. -/
def rowAt (t : Fin cfg1.N) (p : Fin 5000) : Fin 50000 :=
  ⟨5000 * t.val + p.val, by have := t.isLt; have hN : cfg1.N = 10 := N_1; have := p.isLt; omega⟩

/-- The printed index maps, decided over the grid: a row window's block index is the grid point, a weight's is zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0
    ∧ win1_13.index t (0 : Fin 2) = t.val ∧ win1_13.index t (1 : Fin 2) = 0 :=
  (by decide +kernel : ∀ t : Fin grid1.N, _)

/-- What point `t` writes back is block `t` of `G`. -/
theorem flushed_eq (c : Dev nD) (t : Fin cfg1.N) :
    (dat1 V c).flushed 13 t = ((cfg1.win 13).blk t).view.read (Elt Ideal) (G V c) := by
  show (cfg1.win 13).cut (grid1.coords t) ((dat1 V c).after 13 t) = _
  rw [after1_13]
  unfold out1_13
  rw [View.canon_unit_zero hz]
  simp only [View.ld_unit_zero (S := S5000x32) hz, View.ld_unit_zero (S := S32x32) hz, View.ld_unit_zero (S := S5000x3) hz, View.ld_unit_zero (S := S3x32) hz, View.ld_unit_zero (S := S5000x1) hz, View.ld_unit_zero (S := S1x32) hz]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext j
  obtain ⟨p, q, rfl⟩ : ∃ (p : Fin 5000) (q : Fin 32), j = ix2 p q := ⟨j 0, j 1, eq_ix2 j⟩
  show k1_pay1 (F := Ideal) (k1_pay2 (iblk1 V c 1 t)) (k1_pay3 (iblk1 V c 1 t) (iblk1 V c 0 t) (iblk1 V c 4 t) (iblk1 V c 6 t) (iblk1 V c 2 t) (iblk1 V c 7 t) (iblk1 V c 3 t) (iblk1 V c 8 t) (iblk1 V c 5 t)) (k1_pay4 (iblk1 V c 9 t)) (iblk1 V c 10 t) (iblk1 V c 12 t) (iblk1 V c 11 t) (ix2 p q)
    = G V c (((cfg1.win 13).blk t).view.emb (ix2 p q))
  refine (k1_out_apply (iblk1 V c 1 t) (iblk1 V c 0 t) (iblk1 V c 2 t) (iblk1 V c 3 t) (iblk1 V c 4 t) (iblk1 V c 6 t) (iblk1 V c 5 t) (iblk1 V c 8 t) (iblk1 V c 7 t) (iblk1 V c 9 t) (iblk1 V c 10 t) (iblk1 V c 12 t) (iblk1 V c 11 t) p q).trans ?_
  have hout : ((cfg1.win 13).blk t).view.emb (ix2 p q) = (ix2 (rowAt t p) q : S50000x32.Idx) := by
    funext a; apply Fin.ext
    match a with
    | ⟨0, _⟩ => show win1_13.index t (0 : Fin 2) * 5000 + 1 * p.val = 5000 * t.val + p.val; omega
    | ⟨1, _⟩ => show win1_13.index t (1 : Fin 2) * 32 + 1 * q.val = q.val; omega
  rw [hout]
  have b0 : ∀ (k : Fin 32), iblk1 V c 0 t (ix2 p k) = V c main_v38 (ix2 (rowAt t p) k) := fun k => by
    show V c main_v38 (((cfg1.win 0).blk t).view.emb (ix2 p k)) = _
    refine congrArg _ ?_
    funext a; apply Fin.ext
    match a with
    | ⟨0, _⟩ => show win1_0.index t (0 : Fin 2) * 5000 + 1 * p.val = 5000 * t.val + p.val; omega
    | ⟨1, _⟩ => show win1_0.index t (1 : Fin 2) * 32 + 1 * k.val = k.val; omega
  have b1 : ∀ (k : Fin 32), iblk1 V c 1 t (ix2 p k) = V c main_arg0 (ix2 (rowAt t p) k) := fun k => by
    show V c main_arg0 (((cfg1.win 1).blk t).view.emb (ix2 p k)) = _
    refine congrArg _ ?_
    funext a; apply Fin.ext
    match a with
    | ⟨0, _⟩ => show win1_1.index t (0 : Fin 2) * 5000 + 1 * p.val = 5000 * t.val + p.val; omega
    | ⟨1, _⟩ => show win1_1.index t (1 : Fin 2) * 32 + 1 * k.val = k.val; omega
  have b2 : ∀ (k : Fin 3), iblk1 V c 2 t (ix2 p k) = V c main_v99 (ix2 (rowAt t p) k) := fun k => by
    show V c main_v99 (((cfg1.win 2).blk t).view.emb (ix2 p k)) = _
    refine congrArg _ ?_
    funext a; apply Fin.ext
    match a with
    | ⟨0, _⟩ => show win1_2.index t (0 : Fin 2) * 5000 + 1 * p.val = 5000 * t.val + p.val; omega
    | ⟨1, _⟩ => show win1_2.index t (1 : Fin 2) * 3 + 1 * k.val = k.val; omega
  have b3 : ∀ (z : Fin 1), iblk1 V c 3 t (ix2 p z) = V c main_v41 (ix2 (rowAt t p) z) := fun z => by
    show V c main_v41 (((cfg1.win 3).blk t).view.emb (ix2 p z)) = _
    refine congrArg _ ?_
    funext a; apply Fin.ext
    match a with
    | ⟨0, _⟩ => show win1_3.index t (0 : Fin 2) * 5000 + 1 * p.val = 5000 * t.val + p.val; omega
    | ⟨1, _⟩ => show win1_3.index t (1 : Fin 2) * 1 + 1 * z.val = z.val; omega
  have b4 : ∀ (k : Fin 32), iblk1 V c 4 t (ix2 k q) = V c main_arg18 (ix2 k q) := fun k => by
    show V c main_arg18 (((cfg1.win 4).blk t).view.emb (ix2 k q)) = _
    refine congrArg _ ?_
    funext a; apply Fin.ext
    match a with
    | ⟨0, _⟩ => show win1_4.index t (0 : Fin 2) * 32 + 1 * k.val = k.val; omega
    | ⟨1, _⟩ => show win1_4.index t (1 : Fin 2) * 32 + 1 * q.val = q.val; omega
  have b5 : ∀ (z : Fin 1), iblk1 V c 5 t (ix2 z q) = V c main_v105 (ix2 z q) := fun z => by
    show V c main_v105 (((cfg1.win 5).blk t).view.emb (ix2 z q)) = _
    refine congrArg _ ?_
    funext a; apply Fin.ext
    match a with
    | ⟨0, _⟩ => show win1_5.index t (0 : Fin 2) * 1 + 1 * z.val = z.val; omega
    | ⟨1, _⟩ => show win1_5.index t (1 : Fin 2) * 32 + 1 * q.val = q.val; omega
  have b6 : ∀ (k : Fin 32), iblk1 V c 6 t (ix2 k q) = V c main_arg20 (ix2 k q) := fun k => by
    show V c main_arg20 (((cfg1.win 6).blk t).view.emb (ix2 k q)) = _
    refine congrArg _ ?_
    funext a; apply Fin.ext
    match a with
    | ⟨0, _⟩ => show win1_6.index t (0 : Fin 2) * 32 + 1 * k.val = k.val; omega
    | ⟨1, _⟩ => show win1_6.index t (1 : Fin 2) * 32 + 1 * q.val = q.val; omega
  have b7 : ∀ (k : Fin 3), iblk1 V c 7 t (ix2 k q) = V c main_arg21 (ix2 k q) := fun k => by
    show V c main_arg21 (((cfg1.win 7).blk t).view.emb (ix2 k q)) = _
    refine congrArg _ ?_
    funext a; apply Fin.ext
    match a with
    | ⟨0, _⟩ => show win1_7.index t (0 : Fin 2) * 3 + 1 * k.val = k.val; omega
    | ⟨1, _⟩ => show win1_7.index t (1 : Fin 2) * 32 + 1 * q.val = q.val; omega
  have b8 : ∀ (z : Fin 1), iblk1 V c 8 t (ix2 z q) = V c main_v106 (ix2 z q) := fun z => by
    show V c main_v106 (((cfg1.win 8).blk t).view.emb (ix2 z q)) = _
    refine congrArg _ ?_
    funext a; apply Fin.ext
    match a with
    | ⟨0, _⟩ => show win1_8.index t (0 : Fin 2) * 1 + 1 * z.val = z.val; omega
    | ⟨1, _⟩ => show win1_8.index t (1 : Fin 2) * 32 + 1 * q.val = q.val; omega
  have b9 : ∀ (k : Fin 32), iblk1 V c 9 t (ix2 p k) = V c main_v80 (ix2 (rowAt t p) k) := fun k => by
    show V c main_v80 (((cfg1.win 9).blk t).view.emb (ix2 p k)) = _
    refine congrArg _ ?_
    funext a; apply Fin.ext
    match a with
    | ⟨0, _⟩ => show win1_9.index t (0 : Fin 2) * 5000 + 1 * p.val = 5000 * t.val + p.val; omega
    | ⟨1, _⟩ => show win1_9.index t (1 : Fin 2) * 32 + 1 * k.val = k.val; omega
  have b10 : ∀ (k : Fin 32), iblk1 V c 10 t (ix2 k q) = V c main_arg26 (ix2 k q) := fun k => by
    show V c main_arg26 (((cfg1.win 10).blk t).view.emb (ix2 k q)) = _
    refine congrArg _ ?_
    funext a; apply Fin.ext
    match a with
    | ⟨0, _⟩ => show win1_10.index t (0 : Fin 2) * 32 + 1 * k.val = k.val; omega
    | ⟨1, _⟩ => show win1_10.index t (1 : Fin 2) * 32 + 1 * q.val = q.val; omega
  have b11 : ∀ (z : Fin 1), iblk1 V c 11 t (ix2 z q) = V c main_v107 (ix2 z q) := fun z => by
    show V c main_v107 (((cfg1.win 11).blk t).view.emb (ix2 z q)) = _
    refine congrArg _ ?_
    funext a; apply Fin.ext
    match a with
    | ⟨0, _⟩ => show win1_11.index t (0 : Fin 2) * 1 + 1 * z.val = z.val; omega
    | ⟨1, _⟩ => show win1_11.index t (1 : Fin 2) * 32 + 1 * q.val = q.val; omega
  have b12 : ∀ (k : Fin 32), iblk1 V c 12 t (ix2 k q) = V c main_arg28 (ix2 k q) := fun k => by
    show V c main_arg28 (((cfg1.win 12).blk t).view.emb (ix2 k q)) = _
    refine congrArg _ ?_
    funext a; apply Fin.ext
    match a with
    | ⟨0, _⟩ => show win1_12.index t (0 : Fin 2) * 32 + 1 * k.val = k.val; omega
    | ⟨1, _⟩ => show win1_12.index t (1 : Fin 2) * 32 + 1 * q.val = q.val; omega
  unfold Spec.linEdge Spec.lin
  simp only [b0, b1, b2, b3, b4, b5, b6, b7, b8, b9, b10, b11, b12]
  rfl

/-- An index of the array is in point `t`'s block iff each coordinate is in the block's range on its axis. -/
theorem mem_blk (t : Fin cfg1.N) (i : S50000x32.Idx) :
    i ∈ ((cfg1.win 13).blk t).view.set ↔ ∀ a : Fin 2, win1_13.index t a * S5000x32.size a ≤ (i a).val
      ∧ (i a).val < win1_13.index t a * S5000x32.size a + S5000x32.size a := by
  show i ∈ ((View.whole main_v108).slice (win1_13.rect t)).set ↔ _
  rw [View.set_slice_whole, Rect.mem_set_unit]
  exact Iff.rfl

/-- Every row lies in the block of the point `row / 5000`. -/
theorem cover (i : S50000x32.Idx) :
    ∃ t : Fin cfg1.N, (cfg1.win 13).flush t = true ∧ i ∈ ((cfg1.win 13).blk t).view.set := by
  have hN : cfg1.N = 10 := N_1
  have hi0 : (i 0).val < 50000 := (i 0).isLt
  have hi1 : (i 1).val < 32 := (i 1).isLt
  refine ⟨⟨(i 0).val / 5000, by omega⟩, flush1_13 _, ?_⟩
  obtain ⟨-, -, -, -, -, -, -, -, -, -, -, -, -, -, -, -, -, -, -, -, -, -, -, -, -, -, eo0, eo1⟩ := idx_facts ⟨(i 0).val / 5000, by omega⟩
  rw [mem_blk]
  intro a
  match a with
  | ⟨0, _⟩ =>
    show win1_13.index _ (0 : Fin 2) * 5000 ≤ (i 0).val ∧ (i 0).val < win1_13.index _ (0 : Fin 2) * 5000 + 5000
    rw [eo0]; show (i 0).val / 5000 * 5000 ≤ (i 0).val ∧ (i 0).val < (i 0).val / 5000 * 5000 + 5000
    omega
  | ⟨1, _⟩ =>
    show win1_13.index _ (1 : Fin 2) * 32 ≤ (i 1).val ∧ (i 1).val < win1_13.index _ (1 : Fin 2) * 32 + 32
    rw [eo1]; omega

/-- The blocks tile the array, so after the region it holds `G` everywhere. -/
theorem final (c : Dev nD) : (dat1 V c).arrAt 13 cfg1.N = G V c :=
  (dat1 V c).arrAt_eq_of_cover 13 (G V c) (fun t _ => flushed_eq V c t) cover

end Cert.KernelIdeal.Pfas

end
-- ==== Proof.KernelGw.lean ====
/-
  The head's output after the first pallas_call: row `r` of the output column holds the head — a product with the
  output weights, a bias, and the value kept where non-negative and scaled elsewhere — of the second node type's
  features `h(r, ·) = max(linEdge(r, ·), 0)`, all of the arrays the region finds; grid point `t` writes rows
  `5000·t … 5000·t + 4999`, and the forty points tile the 200000 rows.
-/
import proofs.«150690_j50689204027575_2_alg».proof.Proof.Gen.KernelIdeal.Frame
import proofs.«150690_j50689204027575_2_alg».proof.Proof.KernelBody
import proofs.«150690_j50689204027575_2_alg».proof.Proof.Spec
import Idealize.ShloMosaic.Lib.Pipeline.Value

set_option maxRecDepth 16384

noncomputable section

namespace Cert.KernelIdeal.Gw

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Body

variable (V : (c : Dev nD) → (b : Ref sig .tc) → Buf (Elt Ideal) ((c : Thread nD τ).loc b))

theorem hz : (![0, 0] : Fin 2 → Nat) = fun _ => 0 := funext fun a => by fin_cases a <;> rfl

/-- The second node type's features as one function of the arrays the region finds. -/
def H (c : Dev nD) : S200000x32.Idx → EReal := fun i =>
  max (Spec.linEdge (n := 200000) (V c main_v17) (V c main_arg1) (V c main_v91) (V c main_v20) (V c main_arg13)
        (V c main_v100) (V c main_arg15) (V c main_arg16) (V c main_v101) (i 0) (i 1))
    (Ideal.ofBits .f32 0x00000000#32)

/-- The output column as one function of the arrays the region finds. -/
def G (c : Dev nD) : S200000x1.Idx → EReal := fun i =>
  Spec.head (n := 200000) (H V c) (V c main_arg29) (V c main_v102) (V c main_v103) (i 0)

/-- Row `p` of grid point `t`'s block is row `5000·t + p` of the array. -/
def rowAt (t : Fin cfg0.N) (p : Fin 5000) : Fin 200000 :=
  ⟨5000 * t.val + p.val, by have := t.isLt; have hN : cfg0.N = 40 := N_0; have := p.isLt; omega⟩

/-- The printed index maps, decided over the grid: a row window's block index is the grid point, a weight's is zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_13.index t (0 : Fin 2) = t.val ∧ win0_13.index t (1 : Fin 2) = 0 :=
  (by decide +kernel : ∀ t : Fin grid0.N, _)

/-- What point `t` writes back is block `t` of `G`. -/
theorem flushed_eq (c : Dev nD) (t : Fin cfg0.N) :
    (dat0 V c).flushed 13 t = ((cfg0.win 13).blk t).view.read (Elt Ideal) (G V c) := by
  show (cfg0.win 13).cut (grid0.coords t) ((dat0 V c).after 13 t) = _
  rw [after0_13]
  unfold out0_13
  rw [View.canon_unit_zero hz]
  simp only [View.ld_unit_zero (S := S5000x32) hz, View.ld_unit_zero (S := S32x32) hz, View.ld_unit_zero (S := S5000x3) hz, View.ld_unit_zero (S := S3x32) hz, View.ld_unit_zero (S := S5000x1) hz, View.ld_unit_zero (S := S1x32) hz, View.ld_unit_zero (S := S32x1) hz, View.ld_unit_zero (S := S1x1) hz]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e13_0, e13_1⟩ := idx_facts t
  funext j
  obtain ⟨p, q, rfl⟩ : ∃ (p : Fin 5000) (q : Fin 1), j = ix2 p q := ⟨j 0, j 1, eq_ix2 j⟩
  show k0_pay1 (F := Ideal) (k0_pay2 (F := Ideal) (iblk0 V c 0 t) (iblk0 V c 1 t) (iblk0 V c 2 t) (iblk0 V c 4 t) (iblk0 V c 6 t) (iblk0 V c 7 t) (iblk0 V c 3 t) (iblk0 V c 8 t) (iblk0 V c 5 t)) (iblk0 V c 9 t) (iblk0 V c 10 t) (iblk0 V c 11 t) (ix2 p q)
    = G V c (((cfg0.win 13).blk t).view.emb (ix2 p q))
  refine (k0_pay1_apply (k0_pay2 (F := Ideal) (iblk0 V c 0 t) (iblk0 V c 1 t) (iblk0 V c 2 t) (iblk0 V c 4 t) (iblk0 V c 6 t) (iblk0 V c 7 t) (iblk0 V c 3 t) (iblk0 V c 8 t) (iblk0 V c 5 t)) (iblk0 V c 9 t) (iblk0 V c 10 t) (iblk0 V c 11 t) p q).trans ?_
  have hout : ((cfg0.win 13).blk t).view.emb (ix2 p q) = (ix2 (rowAt t p) q : S200000x1.Idx) := by
    funext a; apply Fin.ext
    match a with
    | ⟨0, _⟩ => show win0_13.index t (0 : Fin 2) * 5000 + 1 * p.val = 5000 * t.val + p.val; omega
    | ⟨1, _⟩ => show win0_13.index t (1 : Fin 2) * 1 + 1 * q.val = q.val; omega
  rw [hout]
  have b0 : ∀ (k : Fin 32), iblk0 V c 0 t (ix2 p k) = V c main_v17 (ix2 (rowAt t p) k) := fun k => by
    show V c main_v17 (((cfg0.win 0).blk t).view.emb (ix2 p k)) = _
    refine congrArg _ ?_
    funext a; apply Fin.ext
    match a with
    | ⟨0, _⟩ => show win0_0.index t (0 : Fin 2) * 5000 + 1 * p.val = 5000 * t.val + p.val; omega
    | ⟨1, _⟩ => show win0_0.index t (1 : Fin 2) * 32 + 1 * k.val = k.val; omega
  have b1 : ∀ (k : Fin 32), iblk0 V c 1 t (ix2 p k) = V c main_arg1 (ix2 (rowAt t p) k) := fun k => by
    show V c main_arg1 (((cfg0.win 1).blk t).view.emb (ix2 p k)) = _
    refine congrArg _ ?_
    funext a; apply Fin.ext
    match a with
    | ⟨0, _⟩ => show win0_1.index t (0 : Fin 2) * 5000 + 1 * p.val = 5000 * t.val + p.val; omega
    | ⟨1, _⟩ => show win0_1.index t (1 : Fin 2) * 32 + 1 * k.val = k.val; omega
  have b2 : ∀ (k : Fin 3), iblk0 V c 2 t (ix2 p k) = V c main_v91 (ix2 (rowAt t p) k) := fun k => by
    show V c main_v91 (((cfg0.win 2).blk t).view.emb (ix2 p k)) = _
    refine congrArg _ ?_
    funext a; apply Fin.ext
    match a with
    | ⟨0, _⟩ => show win0_2.index t (0 : Fin 2) * 5000 + 1 * p.val = 5000 * t.val + p.val; omega
    | ⟨1, _⟩ => show win0_2.index t (1 : Fin 2) * 3 + 1 * k.val = k.val; omega
  have b3 : ∀ (z : Fin 1), iblk0 V c 3 t (ix2 p z) = V c main_v20 (ix2 (rowAt t p) z) := fun z => by
    show V c main_v20 (((cfg0.win 3).blk t).view.emb (ix2 p z)) = _
    refine congrArg _ ?_
    funext a; apply Fin.ext
    match a with
    | ⟨0, _⟩ => show win0_3.index t (0 : Fin 2) * 5000 + 1 * p.val = 5000 * t.val + p.val; omega
    | ⟨1, _⟩ => show win0_3.index t (1 : Fin 2) * 1 + 1 * z.val = z.val; omega
  have b4 : ∀ (k : Fin 32) (s : Fin 32), iblk0 V c 4 t (ix2 k s) = V c main_arg13 (ix2 k s) := fun k s => by
    show V c main_arg13 (((cfg0.win 4).blk t).view.emb (ix2 k s)) = _
    refine congrArg _ ?_
    funext a; apply Fin.ext
    match a with
    | ⟨0, _⟩ => show win0_4.index t (0 : Fin 2) * 32 + 1 * k.val = k.val; omega
    | ⟨1, _⟩ => show win0_4.index t (1 : Fin 2) * 32 + 1 * s.val = s.val; omega
  have b5 : ∀ (z : Fin 1) (s : Fin 32), iblk0 V c 5 t (ix2 z s) = V c main_v100 (ix2 z s) := fun z s => by
    show V c main_v100 (((cfg0.win 5).blk t).view.emb (ix2 z s)) = _
    refine congrArg _ ?_
    funext a; apply Fin.ext
    match a with
    | ⟨0, _⟩ => show win0_5.index t (0 : Fin 2) * 1 + 1 * z.val = z.val; omega
    | ⟨1, _⟩ => show win0_5.index t (1 : Fin 2) * 32 + 1 * s.val = s.val; omega
  have b6 : ∀ (k : Fin 32) (s : Fin 32), iblk0 V c 6 t (ix2 k s) = V c main_arg15 (ix2 k s) := fun k s => by
    show V c main_arg15 (((cfg0.win 6).blk t).view.emb (ix2 k s)) = _
    refine congrArg _ ?_
    funext a; apply Fin.ext
    match a with
    | ⟨0, _⟩ => show win0_6.index t (0 : Fin 2) * 32 + 1 * k.val = k.val; omega
    | ⟨1, _⟩ => show win0_6.index t (1 : Fin 2) * 32 + 1 * s.val = s.val; omega
  have b7 : ∀ (k : Fin 3) (s : Fin 32), iblk0 V c 7 t (ix2 k s) = V c main_arg16 (ix2 k s) := fun k s => by
    show V c main_arg16 (((cfg0.win 7).blk t).view.emb (ix2 k s)) = _
    refine congrArg _ ?_
    funext a; apply Fin.ext
    match a with
    | ⟨0, _⟩ => show win0_7.index t (0 : Fin 2) * 3 + 1 * k.val = k.val; omega
    | ⟨1, _⟩ => show win0_7.index t (1 : Fin 2) * 32 + 1 * s.val = s.val; omega
  have b8 : ∀ (z : Fin 1) (s : Fin 32), iblk0 V c 8 t (ix2 z s) = V c main_v101 (ix2 z s) := fun z s => by
    show V c main_v101 (((cfg0.win 8).blk t).view.emb (ix2 z s)) = _
    refine congrArg _ ?_
    funext a; apply Fin.ext
    match a with
    | ⟨0, _⟩ => show win0_8.index t (0 : Fin 2) * 1 + 1 * z.val = z.val; omega
    | ⟨1, _⟩ => show win0_8.index t (1 : Fin 2) * 32 + 1 * s.val = s.val; omega
  have b9 : ∀ (k : Fin 32) (z : Fin 1), iblk0 V c 9 t (ix2 k z) = V c main_arg29 (ix2 k z) := fun k z => by
    show V c main_arg29 (((cfg0.win 9).blk t).view.emb (ix2 k z)) = _
    refine congrArg _ ?_
    funext a; apply Fin.ext
    match a with
    | ⟨0, _⟩ => show win0_9.index t (0 : Fin 2) * 32 + 1 * k.val = k.val; omega
    | ⟨1, _⟩ => show win0_9.index t (1 : Fin 2) * 1 + 1 * z.val = z.val; omega
  have b10 : ∀ (z : Fin 1) (s : Fin 1), iblk0 V c 10 t (ix2 z s) = V c main_v102 (ix2 z s) := fun z s => by
    show V c main_v102 (((cfg0.win 10).blk t).view.emb (ix2 z s)) = _
    refine congrArg _ ?_
    funext a; apply Fin.ext
    match a with
    | ⟨0, _⟩ => show win0_10.index t (0 : Fin 2) * 1 + 1 * z.val = z.val; omega
    | ⟨1, _⟩ => show win0_10.index t (1 : Fin 2) * 1 + 1 * s.val = s.val; omega
  have b11 : ∀ (z : Fin 1) (s : Fin 1), iblk0 V c 11 t (ix2 z s) = V c main_v103 (ix2 z s) := fun z s => by
    show V c main_v103 (((cfg0.win 11).blk t).view.emb (ix2 z s)) = _
    refine congrArg _ ?_
    funext a; apply Fin.ext
    match a with
    | ⟨0, _⟩ => show win0_11.index t (0 : Fin 2) * 1 + 1 * z.val = z.val; omega
    | ⟨1, _⟩ => show win0_11.index t (1 : Fin 2) * 1 + 1 * s.val = s.val; omega
  have hh : ∀ k : Fin 32, k0_pay2 (F := Ideal) (iblk0 V c 0 t) (iblk0 V c 1 t) (iblk0 V c 2 t) (iblk0 V c 4 t) (iblk0 V c 6 t) (iblk0 V c 7 t) (iblk0 V c 3 t) (iblk0 V c 8 t) (iblk0 V c 5 t) (ix2 p k) = H V c (ix2 (rowAt t p) k) := fun k => by
    refine (k0_pay2_apply _ _ _ _ _ _ _ _ _ p k).trans ?_
    unfold Spec.linEdge Spec.lin
    simp only [b0, b1, b2, b3, b4, b5, b6, b7, b8]
    rfl
  unfold Spec.head
  simp only [hh, b9, b10, b11]
  rfl

/-- An index of the array is in point `t`'s block iff each coordinate is in the block's range on its axis. -/
theorem mem_blk (t : Fin cfg0.N) (i : S200000x1.Idx) :
    i ∈ ((cfg0.win 13).blk t).view.set ↔ ∀ a : Fin 2, win0_13.index t a * S5000x1.size a ≤ (i a).val
      ∧ (i a).val < win0_13.index t a * S5000x1.size a + S5000x1.size a := by
  show i ∈ ((View.whole main_v104_1).slice (win0_13.rect t)).set ↔ _
  rw [View.set_slice_whole, Rect.mem_set_unit]
  exact Iff.rfl

/-- Every row lies in the block of the point `row / 5000`. -/
theorem cover (i : S200000x1.Idx) :
    ∃ t : Fin cfg0.N, (cfg0.win 13).flush t = true ∧ i ∈ ((cfg0.win 13).blk t).view.set := by
  have hN : cfg0.N = 40 := N_0
  have hi0 : (i 0).val < 200000 := (i 0).isLt
  have hi1 : (i 1).val < 1 := (i 1).isLt
  refine ⟨⟨(i 0).val / 5000, by omega⟩, flush0_13 _, ?_⟩
  obtain ⟨-, -, -, -, -, -, -, -, -, -, -, -, -, -, -, -, -, -, -, -, -, -, -, -, eo0, eo1⟩ := idx_facts ⟨(i 0).val / 5000, by omega⟩
  rw [mem_blk]
  intro a
  match a with
  | ⟨0, _⟩ =>
    show win0_13.index _ (0 : Fin 2) * 5000 ≤ (i 0).val ∧ (i 0).val < win0_13.index _ (0 : Fin 2) * 5000 + 5000
    rw [eo0]; show (i 0).val / 5000 * 5000 ≤ (i 0).val ∧ (i 0).val < (i 0).val / 5000 * 5000 + 5000
    omega
  | ⟨1, _⟩ =>
    show win0_13.index _ (1 : Fin 2) * 1 ≤ (i 1).val ∧ (i 1).val < win0_13.index _ (1 : Fin 2) * 1 + 1
    rw [eo1]; omega

/-- The blocks tile the array, so after the region it holds `G` everywhere. -/
theorem final (c : Dev nD) : (dat0 V c).arrAt 13 cfg0.N = G V c :=
  (dat0 V c).arrAt_eq_of_cover 13 (G V c) (fun t _ => flushed_eq V c t) cover

end Cert.KernelIdeal.Gw

end
-- ==== Proof.LibScatterRows.lean ====
/-
  Row scatters read at an index.

  A row scatter sends update row `e` of an `[E, C]` array to row `idx e` of an `[N, C]` operand (the index read
  as a signed integer, an update whose row falls outside `[0, N)` dropped), column by column. Three facts:
  * the result index of update `(e, c)` is `(idx e, c)` exactly when `0 ≤ idx e < N`;
  * an accumulating scatter over the extended reals holds, at `(r, c)`, the operand plus the sum of `upd (e, c)`
    over the edges `e` with `idx e = r` — and the same for a one-dimensional operand;
  * an overwriting scatter (the updates applied in row-major order) holds, at `(r, c)`, the update `(e₀, c)` of
    the LAST edge `e₀` with `idx e₀ = r`, and the operand where no edge has that row. The winning edge depends
    on the row only, not on the column or on the number of columns.
-/
import Idealize.ShloMosaic.PureOps.Ideal
import Idealize.ShloMosaic.Lib.ValueIdx

noncomputable section
namespace Cert.Lib.ScatterRows
open Idealize.ShloMosaic Idealize.ShloMosaic.ValueIdx

variable {N E C w : Nat}

/-- Any valid position of a one-element list holds that element. -/
theorem getElem_of_eq_singleton {α : Type} (l : List α) (a : α) (hl : l = [a]) (k : Nat) (h : k < l.length) :
    l[k]'h = a := by
  subst hl
  have : k = 0 := by simpa using h
  subst this; rfl

/-- The row edge `e` is sent to: its scatter index, read as a signed integer. -/
def rowOf (idx : IVec (⟨2, ![E, 1]⟩ : Shape) w) (e : Fin E) : Int := (idx (ix2 e 0)).toInt

/-- The window of update `j` starts at row `rowOf idx (j 0)`, column `0`, and `j` sits in it at column `j 1`. -/
theorem start0 (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1) (idx : IVec (⟨2, ![E, 1]⟩ : Shape) w) (j : (⟨2, ![E, C]⟩ : Shape).Idx) :
    d.start j idx 0 = rowOf idx (j 0) ∧ d.start j idx 1 = 0 ∧ d.window j 0 = 0 ∧ d.window j 1 = (j 1).val := by
  obtain ⟨uw, iw, sd, iv, wf⟩ := d
  dsimp only at h1 h2 h3 h4
  subst h1 h2 h3 h4
  have hk : (⟨[1], [0], [0], 1, wf⟩ : ScatterDims (⟨2, ![N, C]⟩ : Shape) (⟨2, ![E, 1]⟩ : Shape) (⟨2, ![E, C]⟩ : Shape)).sKept = [1] := rfl
  have hu : (⟨[1], [0], [0], 1, wf⟩ : ScatterDims (⟨2, ![N, C]⟩ : Shape) (⟨2, ![E, 1]⟩ : Shape) (⟨2, ![E, C]⟩ : Shape)).uScatter = [0] := rfl
  have hs : (⟨[1], [0], [0], 1, wf⟩ : ScatterDims (⟨2, ![N, C]⟩ : Shape) (⟨2, ![E, 1]⟩ : Shape) (⟨2, ![E, C]⟩ : Shape)).siKept = [0] := rfl
  refine ⟨?_, ?_, ?_, ?_⟩
  · unfold ScatterDims.start
    simp
    unfold rowOf
    congr 2
    funext b
    apply Fin.ext
    match b with
    | ⟨0, h0⟩ =>
      have hne : ¬ ((⟨0, h0⟩ : Fin (⟨2, ![E, 1]⟩ : Shape).rank).val = 1) := Nat.zero_ne_one
      unfold ScatterDims.siIdx
      rw [dif_neg hne]
      unfold ScatterDims.siCoord
      show (j _).val = (j 0).val
      rw [getElem_of_eq_singleton _ (0 : Fin 2) hu]
    | ⟨1, _⟩ =>
      simp [ScatterDims.siIdx]
  · unfold ScatterDims.start
    simp
  · unfold ScatterDims.window
    simp [hk]
  · unfold ScatterDims.window
    simp [hk]
    rw [getElem_of_eq_singleton ([1] : List (Fin 2)) 1 rfl]

/-- Update `j` lands on `i` exactly when `j`'s edge is sent to `i`'s row and the columns agree. -/
theorem resultIdx?_eq_some_iff (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1) (idx : IVec (⟨2, ![E, 1]⟩ : Shape) w) (j : (⟨2, ![E, C]⟩ : Shape).Idx)
    (i : (⟨2, ![N, C]⟩ : Shape).Idx) :
    d.resultIdx? j idx = some i ↔ rowOf idx (j 0) = ((i 0).val : Int) ∧ (j 1).val = (i 1).val := by
  obtain ⟨s0, s1, w0, w1⟩ := start0 d h1 h2 h3 h4 idx j
  unfold ScatterDims.resultIdx?
  split
  · rename_i h
    rw [Option.some.injEq]
    constructor
    · intro hi
      subst hi
      refine ⟨?_, ?_⟩
      · show rowOf idx (j 0) = (((d.start j idx 0 + d.window j 0).toNat : Nat) : Int)
        have := (h 0).1
        rw [s0, w0] at this ⊢
        omega
      · show (j 1).val = (d.start j idx 1 + d.window j 1).toNat
        rw [s1, w1]; simp
    · rintro ⟨hr, hc⟩
      funext a
      apply Fin.ext
      revert a
      refine Fin.forall_fin_two.2 ⟨?_, ?_⟩
      · show (d.start j idx 0 + d.window j 0).toNat = (i 0).val
        rw [s0, w0, hr]; simp
      · show (d.start j idx 1 + d.window j 1).toNat = (i 1).val
        rw [s1, w1, ← hc]; simp
  · rename_i h
    constructor
    · intro hh; cases hh
    · rintro ⟨hr, hc⟩
      exfalso; apply h
      refine Fin.forall_fin_two.2 ⟨?_, ?_⟩
      · rw [s0, w0, hr]
        have := (i 0).isLt
        exact ⟨by omega, by simpa using this⟩
      · rw [s1, w1, hc]
        have := (i 1).isLt
        exact ⟨by omega, by simpa using this⟩

/-- An accumulating row scatter at `(r, c)`: the operand plus the sum of column `c` over the edges sent to row `r`. -/
theorem hostScatterAdd_rows_apply (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1) (x : (⟨2, ![N, C]⟩ : Shape).Idx → EReal) (idx : IVec (⟨2, ![E, 1]⟩ : Shape) w)
    (upd : (⟨2, ![E, C]⟩ : Shape).Idx → EReal) (r : Fin N) (c : Fin C) :
    Ideal.hostScatterAdd d x idx upd (ix2 r c)
      = x (ix2 r c) + ∑ e ∈ Finset.univ.filter (fun e => rowOf idx e = (r.val : Int)), upd (ix2 e c) := by
  unfold Ideal.hostScatterAdd
  congr 1
  rw [Finset.sum_filter, sum_idx2, Finset.sum_filter]
  refine Finset.sum_congr rfl fun e _ => ?_
  simp only [resultIdx?_eq_some_iff d h1 h2 h3 h4]
  show (∑ b : Fin C, if rowOf idx e = (r.val : Int) ∧ b.val = c.val then upd (ix2 e b) else 0) = _
  by_cases hr : rowOf idx e = (r.val : Int)
  · simp only [hr, true_and, if_true]
    rw [Finset.sum_eq_single c]
    · simp
    · intro b _ hb
      rw [if_neg (fun h => hb (Fin.ext h))]
    · intro h; exact absurd (Finset.mem_univ c) h
  · simp only [hr, false_and, if_false]
    exact Finset.sum_const_zero

/-! ### One-dimensional operand: updates `[E]` into `[N]` -/

/-- One-dimensional operand: update `j` goes to position `rowOf idx (j 0)`. -/
theorem start1 (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1) (idx : IVec (⟨2, ![E, 1]⟩ : Shape) w) (j : (⟨1, ![E]⟩ : Shape).Idx) :
    d.start j idx 0 = rowOf idx (j 0) ∧ d.window j 0 = 0 := by
  obtain ⟨uw, iw, sd, iv, wf⟩ := d
  dsimp only at h1 h2 h3 h4
  subst h1 h2 h3 h4
  have hk : (⟨[], [0], [0], 1, wf⟩ : ScatterDims (⟨1, ![N]⟩ : Shape) (⟨2, ![E, 1]⟩ : Shape) (⟨1, ![E]⟩ : Shape)).sKept = [] := rfl
  have hu : (⟨[], [0], [0], 1, wf⟩ : ScatterDims (⟨1, ![N]⟩ : Shape) (⟨2, ![E, 1]⟩ : Shape) (⟨1, ![E]⟩ : Shape)).uScatter = [0] := rfl
  refine ⟨?_, ?_⟩
  · unfold ScatterDims.start
    simp
    unfold rowOf
    congr 2
    funext b
    apply Fin.ext
    match b with
    | ⟨0, h0⟩ =>
      have hne : ¬ ((⟨0, h0⟩ : Fin (⟨2, ![E, 1]⟩ : Shape).rank).val = 1) := Nat.zero_ne_one
      unfold ScatterDims.siIdx
      rw [dif_neg hne]
      unfold ScatterDims.siCoord
      show (j _).val = (j 0).val
      rw [getElem_of_eq_singleton _ (0 : Fin 1) hu]
    | ⟨1, _⟩ =>
      simp [ScatterDims.siIdx]
  · unfold ScatterDims.window
    simp [hk]

/-- One-dimensional operand: update `j` lands on `i` exactly when `j`'s edge is sent to `i`. -/
theorem resultIdx?_eq_some_iff1 (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1) (idx : IVec (⟨2, ![E, 1]⟩ : Shape) w) (j : (⟨1, ![E]⟩ : Shape).Idx)
    (i : (⟨1, ![N]⟩ : Shape).Idx) :
    d.resultIdx? j idx = some i ↔ rowOf idx (j 0) = ((i 0).val : Int) := by
  obtain ⟨s0, w0⟩ := start1 d h1 h2 h3 h4 idx j
  unfold ScatterDims.resultIdx?
  split
  · rename_i h
    rw [Option.some.injEq]
    constructor
    · intro hi
      subst hi
      show rowOf idx (j 0) = (((d.start j idx 0 + d.window j 0).toNat : Nat) : Int)
      have := (h 0).1
      rw [s0, w0] at this ⊢
      omega
    · intro hr
      funext a
      apply Fin.ext
      revert a
      refine (Fin.forall_fin_one).2 ?_
      show (d.start j idx 0 + d.window j 0).toNat = (i 0).val
      rw [s0, w0, hr]; simp
  · rename_i h
    constructor
    · intro hh; cases hh
    · intro hr
      exfalso; apply h
      refine (Fin.forall_fin_one).2 ?_
      rw [s0, w0, hr]
      have := (i 0).isLt
      exact ⟨by omega, by simpa using this⟩

/-- An accumulating scatter into a vector at `r`: the operand plus the sum of the updates of the edges sent to `r`. -/
theorem hostScatterAdd_vec_apply (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1) (x : (⟨1, ![N]⟩ : Shape).Idx → EReal) (idx : IVec (⟨2, ![E, 1]⟩ : Shape) w)
    (upd : (⟨1, ![E]⟩ : Shape).Idx → EReal) (r : Fin N) :
    Ideal.hostScatterAdd d x idx upd (ix1 r)
      = x (ix1 r) + ∑ e ∈ Finset.univ.filter (fun e => rowOf idx e = (r.val : Int)), upd (ix1 e) := by
  unfold Ideal.hostScatterAdd
  congr 1
  rw [Finset.sum_filter, Finset.sum_filter]
  simp only [resultIdx?_eq_some_iff1 d h1 h2 h3 h4]
  let eqv : (⟨1, ![E]⟩ : Shape).Idx ≃ Fin E :=
    { toFun := fun j => j 0, invFun := fun a => ix1 a, left_inv := fun j => (eq_ix1 j).symm, right_inv := fun _ => rfl }
  refine Fintype.sum_equiv eqv _ _ fun j => ?_
  have hj : upd j = upd (ix1 (j 0)) := congrArg upd (eq_ix1 j)
  show (if rowOf idx (j 0) = (r.val : Int) then upd j else 0) = if rowOf idx (j 0) = (r.val : Int) then upd (ix1 (j 0)) else 0
  rw [hj]

/-! ### Overwriting scatter: the last update in the fold's order wins -/

section Overwrite
variable {ι κ α : Type} [DecidableEq κ] (k : ι → Option κ) (v : ι → α)

/-- One step of an overwriting fold: update `n` replaces the element at its key, if it has one. -/
def owStep (r : κ → α) (n : ι) : κ → α :=
  match k n with
  | some i => fun i' => if i' = i then v n else r i'
  | none => r

/-- A step whose key is `i'` leaves its own value there. -/
theorem owStep_hit (r : κ → α) (n : ι) (i' : κ) (h : k n = some i') : owStep k v r n i' = v n := by
  unfold owStep; rw [h]; simp

/-- A step whose key is not `i'` leaves `i'` as it was. -/
theorem owStep_miss (r : κ → α) (n : ι) (i' : κ) (h : k n ≠ some i') : owStep k v r n i' = r i' := by
  unfold owStep
  cases hk : k n with
  | none => rfl
  | some i =>
    have : i' ≠ i := fun e => h (by rw [hk, e])
    simp [this]

/-- Steps none of which has key `i'` leave `i'` as it was. -/
theorem foldl_ow_miss (l : List ι) (x : κ → α) (i' : κ) (h : ∀ n ∈ l, k n ≠ some i') :
    (l.foldl (owStep k v) x) i' = x i' := by
  induction l generalizing x with
  | nil => rfl
  | cons a l ih =>
    rw [List.foldl_cons, ih _ (fun n hn => h n (List.mem_cons_of_mem _ hn)),
      owStep_miss k v x a i' (h a List.mem_cons_self)]

/-- If `n₀` has key `i'` and no later step has, the fold leaves `n₀`'s value at `i'`. -/
theorem foldl_ow_last (l₁ l₂ : List ι) (n₀ : ι) (x : κ → α) (i' : κ) (h0 : k n₀ = some i')
    (h : ∀ m ∈ l₂, k m ≠ some i') : ((l₁ ++ n₀ :: l₂).foldl (owStep k v) x) i' = v n₀ := by
  rw [List.foldl_append, List.foldl_cons, foldl_ow_miss k v l₂ _ i' h, owStep_hit k v _ n₀ i' h0]

end Overwrite

/-- An overwriting scatter is the overwriting fold over the updates in row-major order. -/
theorem scatter_set_eq_foldl {s si u : Shape} {α : Type} (d : ScatterDims s si u) (x : s.Idx → α) (idx : IVec si w)
    (upd : u.Idx → α) :
    Host.scatter d (fun _ b => b) x idx upd
      = (List.finRange u.numel).foldl
          (owStep (fun n => d.resultIdx? (u.rowMajor.symm n) idx) (fun n => upd (u.rowMajor.symm n))) x := by
  unfold Host.scatter
  congr 1
  funext r n
  unfold owStep
  beta_reduce
  cases d.resultIdx? (u.rowMajor.symm n) idx with
  | none => rfl
  | some i => rfl

/-- A row no edge is sent to keeps the operand. -/
theorem scatter_set_rows_miss (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1) {α : Type} (x : (⟨2, ![N, C]⟩ : Shape).Idx → α) (idx : IVec (⟨2, ![E, 1]⟩ : Shape) w)
    (upd : (⟨2, ![E, C]⟩ : Shape).Idx → α) (r : Fin N) (c : Fin C)
    (hnone : ∀ e, rowOf idx e ≠ (r.val : Int)) :
    Host.scatter d (fun _ b => b) x idx upd (ix2 r c) = x (ix2 r c) := by
  rw [scatter_set_eq_foldl]
  apply foldl_ow_miss
  intro n _ hk
  have hk' := (resultIdx?_eq_some_iff d h1 h2 h3 h4 idx _ _).1 hk
  exact hnone _ hk'.1

/-- A row holds, in every column, the update row of the last edge sent to it. -/
theorem scatter_set_rows_hit (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1) {α : Type} (x : (⟨2, ![N, C]⟩ : Shape).Idx → α) (idx : IVec (⟨2, ![E, 1]⟩ : Shape) w)
    (upd : (⟨2, ![E, C]⟩ : Shape).Idx → α) (r : Fin N) (c : Fin C) (e₀ : Fin E)
    (he : rowOf idx e₀ = (r.val : Int)) (hlast : ∀ e, e₀ < e → rowOf idx e ≠ (r.val : Int)) :
    Host.scatter d (fun _ b => b) x idx upd (ix2 r c) = upd (ix2 e₀ c) := by
  rw [scatter_set_eq_foldl]
  let n₀ : Fin (⟨2, ![E, C]⟩ : Shape).numel := (⟨2, ![E, C]⟩ : Shape).rowMajor (ix2 e₀ c)
  obtain ⟨l₁, l₂, hl⟩ := List.append_of_mem (List.mem_finRange n₀)
  have hpw := List.pairwise_lt_finRange (⟨2, ![E, C]⟩ : Shape).numel
  rw [hl] at hpw ⊢
  have hgt : ∀ m ∈ l₂, n₀ < m := (List.pairwise_cons.1 (List.pairwise_append.1 hpw).2.1).1
  refine (foldl_ow_last _ _ l₁ l₂ n₀ x (ix2 r c) ?_ ?_).trans ?_
  · show d.resultIdx? ((⟨2, ![E, C]⟩ : Shape).rowMajor.symm n₀) idx = some (ix2 r c)
    rw [Equiv.symm_apply_apply, resultIdx?_eq_some_iff d h1 h2 h3 h4]
    exact ⟨he, rfl⟩
  · intro m hm hk
    obtain ⟨hr, hc⟩ := (resultIdx?_eq_some_iff d h1 h2 h3 h4 idx _ _).1 hk
    have hlt : n₀.val < m.val := hgt m hm
    have hm' : m = (⟨2, ![E, C]⟩ : Shape).rowMajor ((⟨2, ![E, C]⟩ : Shape).rowMajor.symm m) :=
      (Equiv.apply_symm_apply _ _).symm
    have hle : ¬ e₀ < (((⟨2, ![E, C]⟩ : Shape).rowMajor.symm m) 0) := fun h => hlast _ h hr
    have v1 := Shape.rowMajor_val_two ((⟨2, ![E, C]⟩ : Shape).rowMajor.symm m)
    have v0 : n₀.val = _ := Shape.rowMajor_val_two (ix2 e₀ c)
    rw [hm', v1, v0] at hlt
    have hle' : ((((⟨2, ![E, C]⟩ : Shape).rowMajor.symm m) 0) : Fin E).val ≤ e₀.val := Nat.le_of_not_lt hle
    have hmul := Nat.mul_le_mul_right C hle'
    have hc' : ((((⟨2, ![E, C]⟩ : Shape).rowMajor.symm m) 1) : Fin C).val = c.val := hc
    have hlt' : e₀.val * C + c.val
        < ((((⟨2, ![E, C]⟩ : Shape).rowMajor.symm m) 0) : Fin E).val * C
          + ((((⟨2, ![E, C]⟩ : Shape).rowMajor.symm m) 1) : Fin C).val := hlt
    omega
  · show upd ((⟨2, ![E, C]⟩ : Shape).rowMajor.symm n₀) = _
    rw [Equiv.symm_apply_apply]

/-- Either no element satisfies `p`, or there is a last one that does. -/
theorem none_or_last (p : Fin E → Prop) [DecidablePred p] :
    (∀ e, ¬ p e) ∨ ∃ e₀, p e₀ ∧ ∀ e, e₀ < e → ¬ p e := by
  by_cases h : ∃ e, p e
  · right
    obtain ⟨e, he⟩ := h
    obtain ⟨e₀, he₀, hmax⟩ := Finset.exists_max_image (Finset.univ.filter p) id ⟨e, by simp [he]⟩
    refine ⟨e₀, (Finset.mem_filter.1 he₀).2, fun e' hlt hpe => ?_⟩
    have := hmax e' (by simp [hpe])
    exact absurd hlt (not_lt.2 this)
  · left; exact fun e he => h ⟨e, he⟩

end Cert.Lib.ScatterRows
-- ==== Proof.Relation.lean ====
/-
  One relation of the layer, read index by index.

  The edges `e` of a relation send messages `MSG(e, ·)` to destination rows `dst(e)`. Two ways of forming the
  per-destination mean are compared: accumulating the messages with a column of ones appended and slicing the sum
  and the count apart afterwards, or accumulating the messages and the ones separately. Both give, at `(r, k)`,
  the quotient of `0 + Σ_{dst e = r} MSG(e, k)` by `max(0 + Σ_{dst e = r} 1, 1)`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Affine
import proofs.«150690_j50689204027575_2_alg».proof.Proof.LibScatterRows

noncomputable section

namespace Cert.Relation

open Idealize.ShloMosaic Idealize.ShloMosaic.ValueIdx Cert.Lib.ScatterRows

variable {N E : Nat}

/-- The four lists of a row scatter's dimension numbers. -/
structure RowDims {C : Nat} (d : ScatterDims (⟨2, ![N, C]⟩ : Shape) (⟨2, ![E, 1]⟩ : Shape) (⟨2, ![E, C]⟩ : Shape)) : Prop where
  h1 : d.updateWindowDims = [1]
  h2 : d.insertedWindowDims = [0]
  h3 : d.scatterDimsToOperandDims = [0]
  h4 : d.indexVectorDim = 1

/-- The same for a scatter into a vector. -/
structure VecDims (d : ScatterDims (⟨1, ![N]⟩ : Shape) (⟨2, ![E, 1]⟩ : Shape) (⟨1, ![E]⟩ : Shape)) : Prop where
  h1 : d.updateWindowDims = []
  h2 : d.insertedWindowDims = [0]
  h3 : d.scatterDimsToOperandDims = [0]
  h4 : d.indexVectorDim = 1

/-- The index column of an edge list reads, at edge `e`, the list's entry `e`. -/
theorem rowOf_bcast (h : (⟨1, ![E]⟩ : Shape).BroadcastsInDim ⟨2, ![E, 1]⟩ ![0]) (dst : IVec (⟨1, ![E]⟩ : Shape) 32) (e : Fin E) :
    rowOf (broadcastInDim ⟨2, ![E, 1]⟩ ![0] h dst) e = (dst (ix1 e)).toInt := by
  unfold rowOf
  congr 1
  refine broadcastInDim_apply ![0] h dst (ix2 e 0) (ix1 e) fun a => ?_
  match a with
  | ⟨0, _⟩ =>
    show e.val = if E = 1 then 0 else e.val
    split
    · have := e.isLt; omega
    · rfl

/-- The edges sent to row `r`. -/
def into (dst : IVec (⟨1, ![E]⟩ : Shape) 32) (r : Fin N) : Finset (Fin E) :=
  Finset.univ.filter fun e => (dst (ix1 e)).toInt = (r.val : Int)

/-- The mean of the messages sent to row `r`, feature `k`, over the extended reals. -/
def mean (dst : IVec (⟨1, ![E]⟩ : Shape) 32) (MSG : (⟨2, ![E, 32]⟩ : Shape).Idx → EReal) (r : Fin N) (k : Fin 32) : EReal :=
  FloatOps.hostDivf (F := Ideal) (φ := .f32)
    (Ideal.ofBits .f32 0x00000000#32 + ∑ e ∈ into dst r, MSG (ix2 e k))
    (max (Ideal.ofBits .f32 0x00000000#32 + ∑ e ∈ into (N := N) dst r, Ideal.ofBits .f32 1065353216#32)
      (Ideal.ofBits .f32 1065353216#32))

/-- The count of the edges sent to row `r`, as the accumulated ones. -/
def count (dst : IVec (⟨1, ![E]⟩ : Shape) 32) (r : Fin N) : EReal :=
  Ideal.ofBits .f32 0x00000000#32 + ∑ e ∈ into (N := N) dst r, Ideal.ofBits .f32 1065353216#32

/-- One where some edge is sent to row `r`, zero elsewhere: the test "count > 0" as a float. -/
def reached (dst : IVec (⟨1, ![E]⟩ : Shape) 32) (r : Fin N) : EReal :=
  FloatOps.uitofp (F := Ideal) .f32
    (FloatOps.cmpf (F := Ideal) (φ := .f32) .ogt (count dst r) (Ideal.ofBits .f32 0x00000000#32))

theorem into_eq (h : (⟨1, ![E]⟩ : Shape).BroadcastsInDim ⟨2, ![E, 1]⟩ ![0]) (dst : IVec (⟨1, ![E]⟩ : Shape) 32) (r : Fin N) :
    (Finset.univ.filter fun e => rowOf (broadcastInDim ⟨2, ![E, 1]⟩ ![0] h dst) e = (r.val : Int)) = into dst r := by
  unfold into
  congr 1
  funext e
  rw [rowOf_bcast]

/-- A scalar constant broadcast anywhere reads the constant. -/
theorem bcast_const0 {t : Shape} (h : (⟨0, ![]⟩ : Shape).BroadcastsInDim t ![]) (b : BitVec 32) (j : t.Idx) :
    broadcastInDim t ![] h (constant (F := Ideal) ⟨0, ![]⟩ .f32 b) j = Ideal.ofBits .f32 b := rfl

/-! ### The fused accumulation: messages with a column of ones appended -/

section Fused

variable (d : ScatterDims (⟨2, ![N, 33]⟩ : Shape) (⟨2, ![E, 1]⟩ : Shape) (⟨2, ![E, 33]⟩ : Shape)) (hd : RowDims d)
  (hz : (⟨0, ![]⟩ : Shape).BroadcastsInDim ⟨2, ![N, 33]⟩ ![])
  (hi : (⟨1, ![E]⟩ : Shape).BroadcastsInDim ⟨2, ![E, 1]⟩ ![0])
  (ho : (⟨0, ![]⟩ : Shape).BroadcastsInDim ⟨2, ![E, 1]⟩ ![])
  (hc : Shape.Concatenates [(⟨2, ![E, 32]⟩ : Shape), (⟨2, ![E, 1]⟩ : Shape)] ⟨2, ![E, 33]⟩ 1)
  (dst : IVec (⟨1, ![E]⟩ : Shape) 32) (MSG : (⟨2, ![E, 32]⟩ : Shape).Idx → EReal)

/-- The accumulated `[messages | ones]`. -/
def fused : (⟨2, ![N, 33]⟩ : Shape).Idx → EReal :=
  Host.scatterAdd (F := Ideal) (φ := .f32) d
    (broadcastInDim ⟨2, ![N, 33]⟩ ![] hz (constant (F := Ideal) ⟨0, ![]⟩ .f32 0x00000000#32))
    (broadcastInDim ⟨2, ![E, 1]⟩ ![0] hi dst)
    (concatenate ⟨2, ![E, 33]⟩ 1
      [⟨⟨2, ![E, 32]⟩, MSG⟩,
       ⟨⟨2, ![E, 1]⟩, broadcastInDim ⟨2, ![E, 1]⟩ ![] ho (constant (F := Ideal) ⟨0, ![]⟩ .f32 1065353216#32)⟩] hc)

include hd

/-- Its first 32 columns are the accumulated messages. -/
theorem fused_msg (r : Fin N) (k : Fin 32) :
    fused d hz hi ho hc dst MSG (ix2 r ⟨k.val, by have := k.isLt; omega⟩)
      = Ideal.ofBits .f32 0x00000000#32 + ∑ e ∈ into dst r, MSG (ix2 e k) := by
  unfold fused
  show Ideal.hostScatterAdd d _ _ _ _ = _
  rw [hostScatterAdd_rows_apply d hd.h1 hd.h2 hd.h3 hd.h4, into_eq]
  congr 1
  refine Finset.sum_congr rfl fun e _ => ?_
  refine concatenate_pair_apply_left (t := ⟨2, ![E, 33]⟩) (s₁ := ⟨2, ![E, 32]⟩) (s₂ := ⟨2, ![E, 1]⟩) (1 : Fin 2) _ _ hc _ rfl (ix2 e k) fun b => ?_
  match b with
  | ⟨0, _⟩ => rfl
  | ⟨1, _⟩ => rfl

/-- Its last column is the accumulated ones. -/
theorem fused_cnt (r : Fin N) :
    fused d hz hi ho hc dst MSG (ix2 r (32 : Fin 33)) = count dst r := by
  unfold fused count
  show Ideal.hostScatterAdd d _ _ _ _ = _
  rw [hostScatterAdd_rows_apply d hd.h1 hd.h2 hd.h3 hd.h4, into_eq]
  congr 1

end Fused

/-! ### Layout reads -/

/-- A column broadcast over the features reads the column. -/
theorem bcast_col {C : Nat} (h : (⟨2, ![N, 1]⟩ : Shape).BroadcastsInDim ⟨2, ![N, C]⟩ ![0, 1])
    (X : (⟨2, ![N, 1]⟩ : Shape).Idx → EReal) (r : Fin N) (k : Fin C) :
    broadcastInDim ⟨2, ![N, C]⟩ ![0, 1] h X (ix2 r k) = X (ix2 r 0) := by
  refine broadcastInDim_apply ![0, 1] h X (ix2 r k) (ix2 r 0) fun a => ?_
  match a with
  | ⟨0, _⟩ =>
    show r.val = if N = 1 then 0 else r.val
    split
    · have := r.isLt; omega
    · rfl
  | ⟨1, _⟩ =>
    show (0 : Nat) = if (1 : Nat) = 1 then 0 else k.val
    rw [if_pos rfl]

/-- A vector made a column reads the vector. -/
theorem bcast_vec_col (h : (⟨1, ![N]⟩ : Shape).BroadcastsInDim ⟨2, ![N, 1]⟩ ![0])
    (Y : (⟨1, ![N]⟩ : Shape).Idx → EReal) (r : Fin N) :
    broadcastInDim ⟨2, ![N, 1]⟩ ![0] h Y (ix2 r 0) = Y (ix1 r) := by
  refine broadcastInDim_apply ![0] h Y (ix2 r 0) (ix1 r) fun a => ?_
  match a with
  | ⟨0, _⟩ =>
    show r.val = if N = 1 then 0 else r.val
    split
    · have := r.isLt; omega
    · rfl

/-! ### The mean, formed the fused way and the separate way -/

section Means

variable (d : ScatterDims (⟨2, ![N, 33]⟩ : Shape) (⟨2, ![E, 1]⟩ : Shape) (⟨2, ![E, 33]⟩ : Shape)) (hd : RowDims d)
  (hz : (⟨0, ![]⟩ : Shape).BroadcastsInDim ⟨2, ![N, 33]⟩ ![])
  (hi : (⟨1, ![E]⟩ : Shape).BroadcastsInDim ⟨2, ![E, 1]⟩ ![0])
  (ho : (⟨0, ![]⟩ : Shape).BroadcastsInDim ⟨2, ![E, 1]⟩ ![])
  (hc : Shape.Concatenates [(⟨2, ![E, 32]⟩ : Shape), (⟨2, ![E, 1]⟩ : Shape)] ⟨2, ![E, 33]⟩ 1)
  (hs0 : (⟨2, ![N, 33]⟩ : Shape).Slices ![0, 0] ⟨2, ![N, 32]⟩)
  (hs1 : (⟨2, ![N, 33]⟩ : Shape).Slices ![0, 32] ⟨2, ![N, 1]⟩)
  (hb : (⟨2, ![N, 1]⟩ : Shape).BroadcastsInDim ⟨2, ![N, 32]⟩ ![0, 1])
  (h1 : (⟨0, ![]⟩ : Shape).BroadcastsInDim ⟨2, ![N, 1]⟩ ![])
  (dst : IVec (⟨1, ![E]⟩ : Shape) 32) (MSG : (⟨2, ![E, 32]⟩ : Shape).Idx → EReal)

include hd

/-- The count column sliced off the fused accumulation. -/
theorem fused_cnt_slice (r : Fin N) :
    extractStridedSlice ⟨2, ![N, 1]⟩ ![0, 32] (fused d hz hi ho hc dst MSG) hs1 (ix2 r 0) = count dst r := by
  rw [slice2_axis1_apply 32 _ hs1 r (0 : Fin 1) (32 : Fin 33) rfl]
  exact fused_cnt d hd hz hi ho hc dst MSG r

/-- The fused way: sum and count sliced apart, the count clamped below by one, the quotient. -/
theorem fused_mean (r : Fin N) (k : Fin 32) :
    Host.divf (F := Ideal) (φ := .f32)
      (extractStridedSlice ⟨2, ![N, 32]⟩ ![0, 0] (fused d hz hi ho hc dst MSG) hs0)
      (broadcastInDim ⟨2, ![N, 32]⟩ ![0, 1] hb
        (maximumf (extractStridedSlice ⟨2, ![N, 1]⟩ ![0, 32] (fused d hz hi ho hc dst MSG) hs1)
          (broadcastInDim ⟨2, ![N, 1]⟩ ![] h1 (constant (F := Ideal) ⟨0, ![]⟩ .f32 1065353216#32)))) (ix2 r k)
      = mean dst MSG r k := by
  show FloatOps.hostDivf (F := Ideal) _ _ = _
  rw [bcast_col, maximumf_apply, fused_cnt_slice d hd, bcast_const0,
    slice2_axis1_apply 0 _ hs0 r k ⟨k.val, by have := k.isLt; omega⟩ (by simp), fused_msg d hd]
  rfl

/-- The "reached" mask: the sliced count compared with zero, as a float. -/
theorem fused_mask (h0 : (⟨0, ![]⟩ : Shape).BroadcastsInDim ⟨2, ![N, 1]⟩ ![]) (r : Fin N) :
    uitofp (F := Ideal) .f32
      (cmpf .ogt (extractStridedSlice ⟨2, ![N, 1]⟩ ![0, 32] (fused d hz hi ho hc dst MSG) hs1)
        (broadcastInDim ⟨2, ![N, 1]⟩ ![] h0 (constant (F := Ideal) ⟨0, ![]⟩ .f32 0x00000000#32))) (ix2 r 0)
      = reached dst r := by
  show FloatOps.uitofp (F := Ideal) .f32 (FloatOps.cmpf (F := Ideal) .ogt
    (extractStridedSlice ⟨2, ![N, 1]⟩ ![0, 32] (fused d hz hi ho hc dst MSG) hs1 (ix2 r 0)) _) = _
  rw [fused_cnt_slice d hd]
  rfl

/-- The same two facts for any two concatenated arrays equal to the messages and to the column of ones. -/
theorem fused_mean' (MSG' : (⟨2, ![E, 32]⟩ : Shape).Idx → EReal) (ONES' : (⟨2, ![E, 1]⟩ : Shape).Idx → EReal)
    (hM : MSG' = MSG)
    (hO : ONES' = broadcastInDim ⟨2, ![E, 1]⟩ ![] ho (constant (F := Ideal) ⟨0, ![]⟩ .f32 1065353216#32))
    (r : Fin N) (k : Fin 32) :
    Host.divf (F := Ideal) (φ := .f32)
      (extractStridedSlice ⟨2, ![N, 32]⟩ ![0, 0]
        (Host.scatterAdd (F := Ideal) (φ := .f32) d
          (broadcastInDim ⟨2, ![N, 33]⟩ ![] hz (constant (F := Ideal) ⟨0, ![]⟩ .f32 0x00000000#32))
          (broadcastInDim ⟨2, ![E, 1]⟩ ![0] hi dst)
          (concatenate ⟨2, ![E, 33]⟩ 1 [⟨⟨2, ![E, 32]⟩, MSG'⟩, ⟨⟨2, ![E, 1]⟩, ONES'⟩] hc)) hs0)
      (broadcastInDim ⟨2, ![N, 32]⟩ ![0, 1] hb
        (maximumf
          (extractStridedSlice ⟨2, ![N, 1]⟩ ![0, 32]
            (Host.scatterAdd (F := Ideal) (φ := .f32) d
              (broadcastInDim ⟨2, ![N, 33]⟩ ![] hz (constant (F := Ideal) ⟨0, ![]⟩ .f32 0x00000000#32))
              (broadcastInDim ⟨2, ![E, 1]⟩ ![0] hi dst)
              (concatenate ⟨2, ![E, 33]⟩ 1 [⟨⟨2, ![E, 32]⟩, MSG'⟩, ⟨⟨2, ![E, 1]⟩, ONES'⟩] hc)) hs1)
          (broadcastInDim ⟨2, ![N, 1]⟩ ![] h1 (constant (F := Ideal) ⟨0, ![]⟩ .f32 1065353216#32)))) (ix2 r k)
      = mean dst MSG r k := by
  subst hM hO
  exact fused_mean d hd hz hi ho hc hs0 hs1 hb h1 dst MSG' r k

theorem fused_mask' (MSG' : (⟨2, ![E, 32]⟩ : Shape).Idx → EReal) (ONES' : (⟨2, ![E, 1]⟩ : Shape).Idx → EReal)
    (hO : ONES' = broadcastInDim ⟨2, ![E, 1]⟩ ![] ho (constant (F := Ideal) ⟨0, ![]⟩ .f32 1065353216#32))
    (h0 : (⟨0, ![]⟩ : Shape).BroadcastsInDim ⟨2, ![N, 1]⟩ ![]) (r : Fin N) :
    uitofp (F := Ideal) .f32
      (cmpf .ogt
        (extractStridedSlice ⟨2, ![N, 1]⟩ ![0, 32]
          (Host.scatterAdd (F := Ideal) (φ := .f32) d
            (broadcastInDim ⟨2, ![N, 33]⟩ ![] hz (constant (F := Ideal) ⟨0, ![]⟩ .f32 0x00000000#32))
            (broadcastInDim ⟨2, ![E, 1]⟩ ![0] hi dst)
            (concatenate ⟨2, ![E, 33]⟩ 1 [⟨⟨2, ![E, 32]⟩, MSG'⟩, ⟨⟨2, ![E, 1]⟩, ONES'⟩] hc)) hs1)
        (broadcastInDim ⟨2, ![N, 1]⟩ ![] h0 (constant (F := Ideal) ⟨0, ![]⟩ .f32 0x00000000#32))) (ix2 r 0)
      = reached dst r := by
  subst hO
  exact fused_mask d hd hz hi ho hc hs1 dst MSG' h0 r

end Means

section Separate

variable (d32 : ScatterDims (⟨2, ![N, 32]⟩ : Shape) (⟨2, ![E, 1]⟩ : Shape) (⟨2, ![E, 32]⟩ : Shape)) (hd32 : RowDims d32)
  (d1 : ScatterDims (⟨1, ![N]⟩ : Shape) (⟨2, ![E, 1]⟩ : Shape) (⟨1, ![E]⟩ : Shape)) (hd1 : VecDims d1)
  (hz32 : (⟨0, ![]⟩ : Shape).BroadcastsInDim ⟨2, ![N, 32]⟩ ![])
  (hi : (⟨1, ![E]⟩ : Shape).BroadcastsInDim ⟨2, ![E, 1]⟩ ![0])
  (hz1 : (⟨0, ![]⟩ : Shape).BroadcastsInDim ⟨1, ![N]⟩ ![])
  (ho1 : (⟨0, ![]⟩ : Shape).BroadcastsInDim ⟨1, ![E]⟩ ![])
  (hb : (⟨2, ![N, 1]⟩ : Shape).BroadcastsInDim ⟨2, ![N, 32]⟩ ![0, 1])
  (hv : (⟨1, ![N]⟩ : Shape).BroadcastsInDim ⟨2, ![N, 1]⟩ ![0])
  (dst : IVec (⟨1, ![E]⟩ : Shape) 32) (MSG : (⟨2, ![E, 32]⟩ : Shape).Idx → EReal)

include hd32 hd1

/-- The separate way: messages and ones accumulated apart, the count clamped below by one and spread over the
    features, the quotient. -/
theorem separate_mean (r : Fin N) (k : Fin 32) :
    Host.divf (F := Ideal) (φ := .f32)
      (Host.scatterAdd (F := Ideal) (φ := .f32) d32
        (broadcastInDim ⟨2, ![N, 32]⟩ ![] hz32 (constant (F := Ideal) ⟨0, ![]⟩ .f32 0x00000000#32))
        (broadcastInDim ⟨2, ![E, 1]⟩ ![0] hi dst) MSG)
      (broadcastInDim ⟨2, ![N, 32]⟩ ![0, 1] hb
        (broadcastInDim ⟨2, ![N, 1]⟩ ![0] hv
          (maximumf
            (Host.scatterAdd (F := Ideal) (φ := .f32) d1
              (broadcastInDim ⟨1, ![N]⟩ ![] hz1 (constant (F := Ideal) ⟨0, ![]⟩ .f32 0x00000000#32))
              (broadcastInDim ⟨2, ![E, 1]⟩ ![0] hi dst)
              (broadcastInDim ⟨1, ![E]⟩ ![] ho1 (constant (F := Ideal) ⟨0, ![]⟩ .f32 1065353216#32)))
            (broadcastInDim ⟨1, ![N]⟩ ![] hz1 (constant (F := Ideal) ⟨0, ![]⟩ .f32 1065353216#32))))) (ix2 r k)
      = mean dst MSG r k := by
  show FloatOps.hostDivf (F := Ideal) _ _ = _
  rw [bcast_col, bcast_vec_col, maximumf_apply, bcast_const0]
  have e1 : Host.scatterAdd (F := Ideal) (φ := .f32) d32
        (broadcastInDim ⟨2, ![N, 32]⟩ ![] hz32 (constant (F := Ideal) ⟨0, ![]⟩ .f32 0x00000000#32))
        (broadcastInDim ⟨2, ![E, 1]⟩ ![0] hi dst) MSG (ix2 r k)
      = Ideal.ofBits .f32 0x00000000#32 + ∑ e ∈ into dst r, MSG (ix2 e k) := by
    show Ideal.hostScatterAdd d32 _ _ _ _ = _
    rw [hostScatterAdd_rows_apply d32 hd32.h1 hd32.h2 hd32.h3 hd32.h4, into_eq]
    rfl
  have e2 : Host.scatterAdd (F := Ideal) (φ := .f32) d1
        (broadcastInDim ⟨1, ![N]⟩ ![] hz1 (constant (F := Ideal) ⟨0, ![]⟩ .f32 0x00000000#32))
        (broadcastInDim ⟨2, ![E, 1]⟩ ![0] hi dst)
        (broadcastInDim ⟨1, ![E]⟩ ![] ho1 (constant (F := Ideal) ⟨0, ![]⟩ .f32 1065353216#32)) (ix1 r)
      = count dst r := by
    show Ideal.hostScatterAdd d1 _ _ _ _ = _
    rw [hostScatterAdd_vec_apply d1 hd1.h1 hd1.h2 hd1.h3 hd1.h4, into_eq]
    rfl
  rw [e1, e2]
  rfl

end Separate

/-! ### Which rows are reached, and the edge term -/

/-- The word of `1.0` is one. -/
theorem one_lit : Ideal.ofBits .f32 1065353216#32 = 1 := by
  simp [Ideal.ofBits, Ideal.ieee, -EReal.coe_mul]; norm_num

theorem count_none (dst : IVec (⟨1, ![E]⟩ : Shape) 32) (r : Fin N)
    (h : ∀ e, (dst (ix1 e)).toInt ≠ (r.val : Int)) : count dst r = 0 := by
  unfold count
  have : into dst r = ∅ := Finset.filter_eq_empty_iff.2 fun e _ => h e
  rw [this, Finset.sum_empty, Ideal.ofBits_zero_f32, add_zero]

theorem count_pos (dst : IVec (⟨1, ![E]⟩ : Shape) 32) (r : Fin N) (e₀ : Fin E)
    (h : (dst (ix1 e₀)).toInt = (r.val : Int)) : 0 < count dst r := by
  unfold count
  rw [Ideal.ofBits_zero_f32, zero_add, one_lit]
  have hm : e₀ ∈ into dst r := Finset.mem_filter.2 ⟨Finset.mem_univ _, h⟩
  calc (0 : EReal) < 1 := zero_lt_one
    _ ≤ ∑ e ∈ into dst r, (1 : EReal) :=
      Finset.single_le_sum (f := fun _ => (1 : EReal)) (fun _ _ => zero_le_one) hm

theorem reached_none (dst : IVec (⟨1, ![E]⟩ : Shape) 32) (r : Fin N)
    (h : ∀ e, (dst (ix1 e)).toInt ≠ (r.val : Int)) : reached dst r = 0 := by
  unfold reached
  rw [count_none dst r h, Ideal.ofBits_zero_f32]
  show (((BitVec.ofBool (decide ((0 : EReal) < 0))).toNat : ℝ) : EReal) = 0
  simp

theorem reached_some (dst : IVec (⟨1, ![E]⟩ : Shape) 32) (r : Fin N) (e₀ : Fin E)
    (h : (dst (ix1 e₀)).toInt = (r.val : Int)) : reached dst r = 1 := by
  unfold reached
  rw [Ideal.ofBits_zero_f32]
  show (((BitVec.ofBool (decide ((0 : EReal) < count dst r))).toNat : ℝ) : EReal) = 1
  rw [decide_eq_true (count_pos dst r e₀ h)]
  simp

/-- Index normalisation (add the extent to a negative index) is the identity on non-negative indices. -/
theorem nrm_eq (h0 : (⟨0, ![]⟩ : Shape).BroadcastsInDim ⟨1, ![E]⟩ ![]) (n : BitVec 32) (dst : IVec (⟨1, ![E]⟩ : Shape) 32)
    (hnn : ∀ e, 0 ≤ (dst e).toInt) :
    select (cmpi .slt dst (broadcastInDim ⟨1, ![E]⟩ ![] h0 (constantI ⟨0, ![]⟩ 32 0#32)))
      (addi dst (broadcastInDim ⟨1, ![E]⟩ ![] h0 (constantI ⟨0, ![]⟩ 32 n))) dst = dst := by
  funext e
  rw [select_apply]
  have hc : cmpi .slt dst (broadcastInDim ⟨1, ![E]⟩ ![] h0 (constantI ⟨0, ![]⟩ 32 0#32)) e = 0#1 := by
    apply eq_zero_of_ne_one
    intro h1
    have h2 : (dst e).toInt < (0#32 : BitVec 32).toInt := IntOp.cmpi_slt.1 h1
    have := hnn e
    simp at h2
    omega
  rw [hc, select_zero]

section Edge

variable (d3 : ScatterDims (⟨2, ![N, 3]⟩ : Shape) (⟨2, ![E, 1]⟩ : Shape) (⟨2, ![E, 3]⟩ : Shape)) (hd3 : RowDims d3)
  (d32 : ScatterDims (⟨2, ![N, 32]⟩ : Shape) (⟨2, ![E, 1]⟩ : Shape) (⟨2, ![E, 32]⟩ : Shape)) (hd32 : RowDims d32)
  (hi : (⟨1, ![E]⟩ : Shape).BroadcastsInDim ⟨2, ![E, 1]⟩ ![0])
  (hz3 : (⟨0, ![]⟩ : Shape).BroadcastsInDim ⟨2, ![N, 3]⟩ ![])
  (hz32 : (⟨0, ![]⟩ : Shape).BroadcastsInDim ⟨2, ![N, 32]⟩ ![])
  (dst : IVec (⟨1, ![E]⟩ : Shape) 32)
  (EA : (⟨2, ![E, 3]⟩ : Shape).Idx → EReal) (T : (⟨2, ![E, 32]⟩ : Shape).Idx → EReal)
  (We : (⟨2, ![3, 32]⟩ : Shape).Idx → EReal) (be : Fin 32 → EReal)

include hd3 hd32

/-- Overwriting with the transformed edge attributes `EA·We + be` is overwriting with the raw attributes, then
    transforming, with the bias only where some edge reached the row: the last edge sent to a row wins in both, and a
    row no edge reached holds zero in both. -/
theorem edge_eq (hT : ∀ e q, T (ix2 e q) = (∑ k : Fin 3, EA (ix2 e k) * We (ix2 k q)) + be q) (r : Fin N) (q : Fin 32) :
    Host.scatter d32 (fun _ b => b)
        (broadcastInDim ⟨2, ![N, 32]⟩ ![] hz32 (constant (F := Ideal) ⟨0, ![]⟩ .f32 0x00000000#32))
        (broadcastInDim ⟨2, ![E, 1]⟩ ![0] hi dst) T (ix2 r q)
      = (∑ k : Fin 3, Host.scatter d3 (fun _ b => b)
            (broadcastInDim ⟨2, ![N, 3]⟩ ![] hz3 (constant (F := Ideal) ⟨0, ![]⟩ .f32 0x00000000#32))
            (broadcastInDim ⟨2, ![E, 1]⟩ ![0] hi dst) EA (ix2 r k) * We (ix2 k q))
        + reached dst r * be q := by
  rcases none_or_last (fun e : Fin E => (dst (ix1 e)).toInt = (r.val : Int)) with hn | ⟨e₀, h0, hl⟩
  · have hn' : ∀ e, rowOf (broadcastInDim ⟨2, ![E, 1]⟩ ![0] hi dst) e ≠ (r.val : Int) := fun e => by
      rw [rowOf_bcast]; exact hn e
    have z32 : ∀ j, broadcastInDim ⟨2, ![N, 32]⟩ ![] hz32 (constant (F := Ideal) ⟨0, ![]⟩ .f32 0x00000000#32) j = 0 :=
      fun j => (bcast_const0 hz32 _ j).trans Ideal.ofBits_zero_f32
    have z3 : ∀ j, broadcastInDim ⟨2, ![N, 3]⟩ ![] hz3 (constant (F := Ideal) ⟨0, ![]⟩ .f32 0x00000000#32) j = 0 :=
      fun j => (bcast_const0 hz3 _ j).trans Ideal.ofBits_zero_f32
    rw [scatter_set_rows_miss d32 hd32.h1 hd32.h2 hd32.h3 hd32.h4 _ _ _ r q hn', reached_none dst r hn, z32]
    simp only [scatter_set_rows_miss d3 hd3.h1 hd3.h2 hd3.h3 hd3.h4 _ _ _ r _ hn', z3, zero_mul, Finset.sum_const_zero,
      add_zero]
  · have h0' : rowOf (broadcastInDim ⟨2, ![E, 1]⟩ ![0] hi dst) e₀ = (r.val : Int) := by rw [rowOf_bcast]; exact h0
    have hl' : ∀ e, e₀ < e → rowOf (broadcastInDim ⟨2, ![E, 1]⟩ ![0] hi dst) e ≠ (r.val : Int) := fun e he => by
      rw [rowOf_bcast]; exact hl e he
    rw [scatter_set_rows_hit d32 hd32.h1 hd32.h2 hd32.h3 hd32.h4 _ _ _ r q e₀ h0' hl', hT, reached_some dst r e₀ h0, one_mul]
    congr 1
    refine Finset.sum_congr rfl fun k _ => ?_
    rw [scatter_set_rows_hit d3 hd3.h1 hd3.h2 hd3.h3 hd3.h4 _ _ _ r k e₀ h0' hl']

end Edge

end Cert.Relation

end
-- ==== Proof.KernelHost2.lean ====
/-
  What the third pallas_call's input arrays hold after the first stretch of host operations, in terms of the launch memory: the mean of the relation landing on the third node type, and the arguments.
-/
import proofs.«150690_j50689204027575_2_alg».proof.Proof.Gen.KernelIdeal.Frame
import proofs.«150690_j50689204027575_2_alg».proof.Proof.Gen.ReferenceIdeal.Read
import proofs.«150690_j50689204027575_2_alg».proof.Proof.Relation
import Idealize.ShloMosaic.Lib.StableHlo.Run
import Idealize.ShloMosaic.Lib.ValueLayout

set_option maxRecDepth 16384

noncomputable section

namespace Cert.KernelIdeal.Host2

open Idealize.ShloMosaic Idealize.ShloMosaic.TcCoe Idealize.ShloMosaic.Tactic Idealize.ShloMosaic.ValueIdx
open Idealize.SL.Sem Idealize.ShloMosaic.StableHlo
open Cert.KernelIdeal Cert.KernelIdeal.Gen

variable (m : (ℓ : Loc nD τ sig) → Buf (Elt Ideal) ℓ) (ρ : Dev nD → PrngReg)

/-- The launch contents of an argument buffer. -/
abbrev A (c : Dev nD) (b : Ref sig .tc) : Buf (Elt Ideal) ((c : Thread nD τ).loc b) := W0 m ρ c (Proc.devRef .tc b)

set_option maxHeartbeats 4000000 in
/-- The mean of the relation's messages per destination row, formed the fused way. -/
theorem v59_apply (c : Dev nD) (r : Fin 20000) (k : Fin 32) :
    W1 m ρ c (Proc.devRef .tc main_v59) (ix2 r k)
      = Relation.mean (N := 20000) (E := 1000000) (A m ρ c main_arg10)
          (Cert.ReferenceIdeal.Read.val_main_v107 (F := Ideal) (A m ρ c main_arg0) (A m ρ c main_arg9)) r k := by
  dsimp only [W1, hostOps0]
  after_results_simp
  refine Relation.fused_mean' scatter_S20000x33_S1000000x1_S1000000x33_1_0_0_1 ⟨rfl, rfl, rfl, rfl⟩ _ _ bcast_S_S1000000x1 _ _ _ _ _ (A m ρ c main_arg10)
    (Cert.ReferenceIdeal.Read.val_main_v107 (F := Ideal) (A m ρ c main_arg0) (A m ρ c main_arg9)) _ _ ?_ ?_ r k
  · after_results_simp
    rfl
  · after_results_simp

set_option maxHeartbeats 4000000 in
theorem w1_arg2 (c : Dev nD) : W1 m ρ c (Proc.devRef .tc main_arg2) = A m ρ c main_arg2 := by
  dsimp only [W1, hostOps0]
  after_results_simp

set_option maxHeartbeats 4000000 in
theorem w1_arg23 (c : Dev nD) : W1 m ρ c (Proc.devRef .tc main_arg23) = A m ρ c main_arg23 := by
  dsimp only [W1, hostOps0]
  after_results_simp

set_option maxHeartbeats 4000000 in
theorem w1_arg25 (c : Dev nD) : W1 m ρ c (Proc.devRef .tc main_arg25) = A m ρ c main_arg25 := by
  dsimp only [W1, hostOps0]
  after_results_simp

set_option maxHeartbeats 4000000 in
theorem w1_arg24 (c : Dev nD) : W1 m ρ c (Proc.devRef .tc main_arg24) = A m ρ c main_arg24 := by
  dsimp only [W1, hostOps0]
  after_results_simp

end Cert.KernelIdeal.Host2

end
-- ==== Proof.KernelWalk.lean ====
/-
  The arrays the second and third pallas_calls read are what the first stretch of host operations left: the three
  reshapes between the calls write only the one-row biases, and an earlier call writes only its own outputs.
-/
import proofs.«150690_j50689204027575_2_alg».proof.Proof.Gen.KernelIdeal.Frame
import Idealize.ShloMosaic.Lib.StableHlo.Run
import Idealize.ShloMosaic.Lib.ValueLayout
import Idealize.ShloMosaic.PureOps.Ideal

set_option maxRecDepth 16384

noncomputable section

namespace Cert.KernelIdeal.Walk

open Idealize.ShloMosaic Idealize.ShloMosaic.TcCoe Idealize.ShloMosaic.Tactic Idealize.ShloMosaic.ValueIdx
open Idealize.SL.Sem Idealize.ShloMosaic.StableHlo
open Cert.KernelIdeal Cert.KernelIdeal.Gen

variable (m : (ℓ : Loc nD τ sig) → Buf (Elt Ideal) ℓ) (ρ : Dev nD → PrngReg)

theorem w3_v38 (c : Dev nD) : W3 m ρ c (Proc.devRef .tc main_v38) = W1 m ρ c (Proc.devRef .tc main_v38) :=
  (StableHlo.after_of_forall_not_mem (b := Proc.devRef .tc main_v38) _ _ (List.forall_iff_forall_mem.mp (by
      simp only [hostOps1, List.Forall, StableHlo.reshape_writes, Finset.mem_singleton]
      repeat' apply And.intro
      all_goals exact StableHlo.devRef_ne_of_ne (by decide)))).trans (W2_of_ne m ρ c main_v38 (by decide))

theorem w3_arg0 (c : Dev nD) : W3 m ρ c (Proc.devRef .tc main_arg0) = W1 m ρ c (Proc.devRef .tc main_arg0) :=
  (StableHlo.after_of_forall_not_mem (b := Proc.devRef .tc main_arg0) _ _ (List.forall_iff_forall_mem.mp (by
      simp only [hostOps1, List.Forall, StableHlo.reshape_writes, Finset.mem_singleton]
      repeat' apply And.intro
      all_goals exact StableHlo.devRef_ne_of_ne (by decide)))).trans (W2_of_ne m ρ c main_arg0 (by decide))

theorem w3_v99 (c : Dev nD) : W3 m ρ c (Proc.devRef .tc main_v99) = W1 m ρ c (Proc.devRef .tc main_v99) :=
  (StableHlo.after_of_forall_not_mem (b := Proc.devRef .tc main_v99) _ _ (List.forall_iff_forall_mem.mp (by
      simp only [hostOps1, List.Forall, StableHlo.reshape_writes, Finset.mem_singleton]
      repeat' apply And.intro
      all_goals exact StableHlo.devRef_ne_of_ne (by decide)))).trans (W2_of_ne m ρ c main_v99 (by decide))

theorem w3_v41 (c : Dev nD) : W3 m ρ c (Proc.devRef .tc main_v41) = W1 m ρ c (Proc.devRef .tc main_v41) :=
  (StableHlo.after_of_forall_not_mem (b := Proc.devRef .tc main_v41) _ _ (List.forall_iff_forall_mem.mp (by
      simp only [hostOps1, List.Forall, StableHlo.reshape_writes, Finset.mem_singleton]
      repeat' apply And.intro
      all_goals exact StableHlo.devRef_ne_of_ne (by decide)))).trans (W2_of_ne m ρ c main_v41 (by decide))

theorem w3_arg18 (c : Dev nD) : W3 m ρ c (Proc.devRef .tc main_arg18) = W1 m ρ c (Proc.devRef .tc main_arg18) :=
  (StableHlo.after_of_forall_not_mem (b := Proc.devRef .tc main_arg18) _ _ (List.forall_iff_forall_mem.mp (by
      simp only [hostOps1, List.Forall, StableHlo.reshape_writes, Finset.mem_singleton]
      repeat' apply And.intro
      all_goals exact StableHlo.devRef_ne_of_ne (by decide)))).trans (W2_of_ne m ρ c main_arg18 (by decide))

theorem w3_arg20 (c : Dev nD) : W3 m ρ c (Proc.devRef .tc main_arg20) = W1 m ρ c (Proc.devRef .tc main_arg20) :=
  (StableHlo.after_of_forall_not_mem (b := Proc.devRef .tc main_arg20) _ _ (List.forall_iff_forall_mem.mp (by
      simp only [hostOps1, List.Forall, StableHlo.reshape_writes, Finset.mem_singleton]
      repeat' apply And.intro
      all_goals exact StableHlo.devRef_ne_of_ne (by decide)))).trans (W2_of_ne m ρ c main_arg20 (by decide))

theorem w3_arg21 (c : Dev nD) : W3 m ρ c (Proc.devRef .tc main_arg21) = W1 m ρ c (Proc.devRef .tc main_arg21) :=
  (StableHlo.after_of_forall_not_mem (b := Proc.devRef .tc main_arg21) _ _ (List.forall_iff_forall_mem.mp (by
      simp only [hostOps1, List.Forall, StableHlo.reshape_writes, Finset.mem_singleton]
      repeat' apply And.intro
      all_goals exact StableHlo.devRef_ne_of_ne (by decide)))).trans (W2_of_ne m ρ c main_arg21 (by decide))

theorem w3_v80 (c : Dev nD) : W3 m ρ c (Proc.devRef .tc main_v80) = W1 m ρ c (Proc.devRef .tc main_v80) :=
  (StableHlo.after_of_forall_not_mem (b := Proc.devRef .tc main_v80) _ _ (List.forall_iff_forall_mem.mp (by
      simp only [hostOps1, List.Forall, StableHlo.reshape_writes, Finset.mem_singleton]
      repeat' apply And.intro
      all_goals exact StableHlo.devRef_ne_of_ne (by decide)))).trans (W2_of_ne m ρ c main_v80 (by decide))

theorem w3_arg26 (c : Dev nD) : W3 m ρ c (Proc.devRef .tc main_arg26) = W1 m ρ c (Proc.devRef .tc main_arg26) :=
  (StableHlo.after_of_forall_not_mem (b := Proc.devRef .tc main_arg26) _ _ (List.forall_iff_forall_mem.mp (by
      simp only [hostOps1, List.Forall, StableHlo.reshape_writes, Finset.mem_singleton]
      repeat' apply And.intro
      all_goals exact StableHlo.devRef_ne_of_ne (by decide)))).trans (W2_of_ne m ρ c main_arg26 (by decide))

theorem w3_arg28 (c : Dev nD) : W3 m ρ c (Proc.devRef .tc main_arg28) = W1 m ρ c (Proc.devRef .tc main_arg28) :=
  (StableHlo.after_of_forall_not_mem (b := Proc.devRef .tc main_arg28) _ _ (List.forall_iff_forall_mem.mp (by
      simp only [hostOps1, List.Forall, StableHlo.reshape_writes, Finset.mem_singleton]
      repeat' apply And.intro
      all_goals exact StableHlo.devRef_ne_of_ne (by decide)))).trans (W2_of_ne m ρ c main_arg28 (by decide))

theorem w3_arg19 (c : Dev nD) : W3 m ρ c (Proc.devRef .tc main_arg19) = W1 m ρ c (Proc.devRef .tc main_arg19) :=
  (StableHlo.after_of_forall_not_mem (b := Proc.devRef .tc main_arg19) _ _ (List.forall_iff_forall_mem.mp (by
      simp only [hostOps1, List.Forall, StableHlo.reshape_writes, Finset.mem_singleton]
      repeat' apply And.intro
      all_goals exact StableHlo.devRef_ne_of_ne (by decide)))).trans (W2_of_ne m ρ c main_arg19 (by decide))

theorem w3_arg22 (c : Dev nD) : W3 m ρ c (Proc.devRef .tc main_arg22) = W1 m ρ c (Proc.devRef .tc main_arg22) :=
  (StableHlo.after_of_forall_not_mem (b := Proc.devRef .tc main_arg22) _ _ (List.forall_iff_forall_mem.mp (by
      simp only [hostOps1, List.Forall, StableHlo.reshape_writes, Finset.mem_singleton]
      repeat' apply And.intro
      all_goals exact StableHlo.devRef_ne_of_ne (by decide)))).trans (W2_of_ne m ρ c main_arg22 (by decide))

theorem w3_arg27 (c : Dev nD) : W3 m ρ c (Proc.devRef .tc main_arg27) = W1 m ρ c (Proc.devRef .tc main_arg27) :=
  (StableHlo.after_of_forall_not_mem (b := Proc.devRef .tc main_arg27) _ _ (List.forall_iff_forall_mem.mp (by
      simp only [hostOps1, List.Forall, StableHlo.reshape_writes, Finset.mem_singleton]
      repeat' apply And.intro
      all_goals exact StableHlo.devRef_ne_of_ne (by decide)))).trans (W2_of_ne m ρ c main_arg27 (by decide))

theorem w3_v59 (c : Dev nD) : W3 m ρ c (Proc.devRef .tc main_v59) = W1 m ρ c (Proc.devRef .tc main_v59) :=
  (StableHlo.after_of_forall_not_mem (b := Proc.devRef .tc main_v59) _ _ (List.forall_iff_forall_mem.mp (by
      simp only [hostOps1, List.Forall, StableHlo.reshape_writes, Finset.mem_singleton]
      repeat' apply And.intro
      all_goals exact StableHlo.devRef_ne_of_ne (by decide)))).trans (W2_of_ne m ρ c main_v59 (by decide))

theorem w3_arg2 (c : Dev nD) : W3 m ρ c (Proc.devRef .tc main_arg2) = W1 m ρ c (Proc.devRef .tc main_arg2) :=
  (StableHlo.after_of_forall_not_mem (b := Proc.devRef .tc main_arg2) _ _ (List.forall_iff_forall_mem.mp (by
      simp only [hostOps1, List.Forall, StableHlo.reshape_writes, Finset.mem_singleton]
      repeat' apply And.intro
      all_goals exact StableHlo.devRef_ne_of_ne (by decide)))).trans (W2_of_ne m ρ c main_arg2 (by decide))

theorem w3_arg23 (c : Dev nD) : W3 m ρ c (Proc.devRef .tc main_arg23) = W1 m ρ c (Proc.devRef .tc main_arg23) :=
  (StableHlo.after_of_forall_not_mem (b := Proc.devRef .tc main_arg23) _ _ (List.forall_iff_forall_mem.mp (by
      simp only [hostOps1, List.Forall, StableHlo.reshape_writes, Finset.mem_singleton]
      repeat' apply And.intro
      all_goals exact StableHlo.devRef_ne_of_ne (by decide)))).trans (W2_of_ne m ρ c main_arg23 (by decide))

theorem w3_arg25 (c : Dev nD) : W3 m ρ c (Proc.devRef .tc main_arg25) = W1 m ρ c (Proc.devRef .tc main_arg25) :=
  (StableHlo.after_of_forall_not_mem (b := Proc.devRef .tc main_arg25) _ _ (List.forall_iff_forall_mem.mp (by
      simp only [hostOps1, List.Forall, StableHlo.reshape_writes, Finset.mem_singleton]
      repeat' apply And.intro
      all_goals exact StableHlo.devRef_ne_of_ne (by decide)))).trans (W2_of_ne m ρ c main_arg25 (by decide))

theorem w3_arg24 (c : Dev nD) : W3 m ρ c (Proc.devRef .tc main_arg24) = W1 m ρ c (Proc.devRef .tc main_arg24) :=
  (StableHlo.after_of_forall_not_mem (b := Proc.devRef .tc main_arg24) _ _ (List.forall_iff_forall_mem.mp (by
      simp only [hostOps1, List.Forall, StableHlo.reshape_writes, Finset.mem_singleton]
      repeat' apply And.intro
      all_goals exact StableHlo.devRef_ne_of_ne (by decide)))).trans (W2_of_ne m ρ c main_arg24 (by decide))

theorem w5_v59 (c : Dev nD) : W5 m ρ c (Proc.devRef .tc main_v59) = W1 m ρ c (Proc.devRef .tc main_v59) :=
  (StableHlo.after_of_forall_not_mem (b := Proc.devRef .tc main_v59) _ _ (List.forall_iff_forall_mem.mp (by
      simp only [hostOps2, List.Forall, StableHlo.reshape_writes, Finset.mem_singleton]
      repeat' apply And.intro
      all_goals exact StableHlo.devRef_ne_of_ne (by decide)))).trans ((W4_of_ne m ρ c main_v59 (by decide)).trans (w3_v59 m ρ c))

theorem w5_arg2 (c : Dev nD) : W5 m ρ c (Proc.devRef .tc main_arg2) = W1 m ρ c (Proc.devRef .tc main_arg2) :=
  (StableHlo.after_of_forall_not_mem (b := Proc.devRef .tc main_arg2) _ _ (List.forall_iff_forall_mem.mp (by
      simp only [hostOps2, List.Forall, StableHlo.reshape_writes, Finset.mem_singleton]
      repeat' apply And.intro
      all_goals exact StableHlo.devRef_ne_of_ne (by decide)))).trans ((W4_of_ne m ρ c main_arg2 (by decide)).trans (w3_arg2 m ρ c))

theorem w5_arg23 (c : Dev nD) : W5 m ρ c (Proc.devRef .tc main_arg23) = W1 m ρ c (Proc.devRef .tc main_arg23) :=
  (StableHlo.after_of_forall_not_mem (b := Proc.devRef .tc main_arg23) _ _ (List.forall_iff_forall_mem.mp (by
      simp only [hostOps2, List.Forall, StableHlo.reshape_writes, Finset.mem_singleton]
      repeat' apply And.intro
      all_goals exact StableHlo.devRef_ne_of_ne (by decide)))).trans ((W4_of_ne m ρ c main_arg23 (by decide)).trans (w3_arg23 m ρ c))

theorem w5_arg25 (c : Dev nD) : W5 m ρ c (Proc.devRef .tc main_arg25) = W1 m ρ c (Proc.devRef .tc main_arg25) :=
  (StableHlo.after_of_forall_not_mem (b := Proc.devRef .tc main_arg25) _ _ (List.forall_iff_forall_mem.mp (by
      simp only [hostOps2, List.Forall, StableHlo.reshape_writes, Finset.mem_singleton]
      repeat' apply And.intro
      all_goals exact StableHlo.devRef_ne_of_ne (by decide)))).trans ((W4_of_ne m ρ c main_arg25 (by decide)).trans (w3_arg25 m ρ c))

theorem w5_arg24 (c : Dev nD) : W5 m ρ c (Proc.devRef .tc main_arg24) = W1 m ρ c (Proc.devRef .tc main_arg24) :=
  (StableHlo.after_of_forall_not_mem (b := Proc.devRef .tc main_arg24) _ _ (List.forall_iff_forall_mem.mp (by
      simp only [hostOps2, List.Forall, StableHlo.reshape_writes, Finset.mem_singleton]
      repeat' apply And.intro
      all_goals exact StableHlo.devRef_ne_of_ne (by decide)))).trans ((W4_of_ne m ρ c main_arg24 (by decide)).trans (w3_arg24 m ρ c))

/-- A bias reshaped to one row reads the bias as the preceding stretch left it. -/
theorem v105_apply_pre (c : Dev nD) (z : Fin 1) (q : Fin 32) :
    W3 m ρ c (Proc.devRef .tc main_v105) (ix2 z q) = W2 m ρ c (Proc.devRef .tc main_arg19) (ix1 q) := by
  dsimp only [W3, hostOps1]
  after_results
  exact shapeCast_a_1a_apply _ shapeCasts_S32_S1x32 z q

/-- A bias reshaped to one row reads the bias. -/
theorem v105_apply (c : Dev nD) (z : Fin 1) (q : Fin 32) :
    W3 m ρ c (Proc.devRef .tc main_v105) (ix2 z q) = W1 m ρ c (Proc.devRef .tc main_arg19) (ix1 q) :=
  (v105_apply_pre m ρ c z q).trans (congrFun (W2_of_ne m ρ c main_arg19 (by decide)) _)

/-- A bias reshaped to one row reads the bias as the preceding stretch left it. -/
theorem v106_apply_pre (c : Dev nD) (z : Fin 1) (q : Fin 32) :
    W3 m ρ c (Proc.devRef .tc main_v106) (ix2 z q) = W2 m ρ c (Proc.devRef .tc main_arg22) (ix1 q) := by
  dsimp only [W3, hostOps1]
  after_results
  exact shapeCast_a_1a_apply _ shapeCasts_S32_S1x32 z q

/-- A bias reshaped to one row reads the bias. -/
theorem v106_apply (c : Dev nD) (z : Fin 1) (q : Fin 32) :
    W3 m ρ c (Proc.devRef .tc main_v106) (ix2 z q) = W1 m ρ c (Proc.devRef .tc main_arg22) (ix1 q) :=
  (v106_apply_pre m ρ c z q).trans (congrFun (W2_of_ne m ρ c main_arg22 (by decide)) _)

/-- A bias reshaped to one row reads the bias as the preceding stretch left it. -/
theorem v107_apply_pre (c : Dev nD) (z : Fin 1) (q : Fin 32) :
    W3 m ρ c (Proc.devRef .tc main_v107) (ix2 z q) = W2 m ρ c (Proc.devRef .tc main_arg27) (ix1 q) := by
  dsimp only [W3, hostOps1]
  after_results
  exact shapeCast_a_1a_apply _ shapeCasts_S32_S1x32 z q

/-- A bias reshaped to one row reads the bias. -/
theorem v107_apply (c : Dev nD) (z : Fin 1) (q : Fin 32) :
    W3 m ρ c (Proc.devRef .tc main_v107) (ix2 z q) = W1 m ρ c (Proc.devRef .tc main_arg27) (ix1 q) :=
  (v107_apply_pre m ρ c z q).trans (congrFun (W2_of_ne m ρ c main_arg27 (by decide)) _)

/-- A bias reshaped to one row reads the bias as the preceding stretch left it. -/
theorem v109_apply_pre (c : Dev nD) (z : Fin 1) (q : Fin 32) :
    W5 m ρ c (Proc.devRef .tc main_v109) (ix2 z q) = W4 m ρ c (Proc.devRef .tc main_arg24) (ix1 q) := by
  dsimp only [W5, hostOps2]
  after_results
  exact shapeCast_a_1a_apply _ shapeCasts_S32_S1x32 z q

/-- A bias reshaped to one row reads the bias. -/
theorem v109_apply (c : Dev nD) (z : Fin 1) (q : Fin 32) :
    W5 m ρ c (Proc.devRef .tc main_v109) (ix2 z q) = W1 m ρ c (Proc.devRef .tc main_arg24) (ix1 q) :=
  (v109_apply_pre m ρ c z q).trans (congrFun ((W4_of_ne m ρ c main_arg24 (by decide)).trans (w3_arg24 m ρ c)) _)

end Cert.KernelIdeal.Walk

end
-- ==== Proof.RefAt.lean ====
/-
  The reference's three results read at an index, over the extended reals: each relation's mean is the quotient of the
  accumulated messages by the clamped count, each matrix product a sum over the contracted axis, each bias its entry
  at the output feature.
-/
import proofs.«150690_j50689204027575_2_alg».proof.Proof.Gen.ReferenceIdeal.Read
import proofs.«150690_j50689204027575_2_alg».proof.Proof.Relation
import proofs.«150690_j50689204027575_2_alg».proof.Proof.Spec

set_option maxRecDepth 16384

noncomputable section

namespace Cert.ReferenceIdeal.At

open Idealize.ShloMosaic Idealize.ShloMosaic.ValueIdx
open Cert.ReferenceIdeal Cert.ReferenceIdeal.Read

/-- A relation's mean, formed by two separate accumulations. -/
theorem mean_pg (x0 : (⟨S50000x32, .f32⟩ : BufTy).Contents (Elt Ideal)) (x3 : (⟨S2000000, .i32⟩ : BufTy).Contents (Elt Ideal)) (x4 : (⟨S2000000, .i32⟩ : BufTy).Contents (Elt Ideal)) (r : Fin 200000) (k : Fin 32) :
    val_main_v18 (F := Ideal) x0 x3 x4 (ix2 r k) = Relation.mean (N := 200000) (E := 2000000) x4 (val_main_v6 (F := Ideal) x0 x3) r k :=
  Relation.separate_mean scatter_S200000x32_S2000000x1_S2000000x32_1_0_0_1 ⟨rfl, rfl, rfl, rfl⟩ scatter_S200000_S2000000x1_S2000000_n_0_0_1 ⟨rfl, rfl, rfl, rfl⟩ _ _ _ _ _ _ x4 _ r k

/-- A relation's mean, formed by two separate accumulations. -/
theorem mean_gp (x1 : (⟨S200000x32, .f32⟩ : BufTy).Contents (Elt Ideal)) (x6 : (⟨S2000000, .i32⟩ : BufTy).Contents (Elt Ideal)) (x7 : (⟨S2000000, .i32⟩ : BufTy).Contents (Elt Ideal)) (r : Fin 50000) (k : Fin 32) :
    val_main_v56 (F := Ideal) x1 x6 x7 (ix2 r k) = Relation.mean (N := 50000) (E := 2000000) x7 (val_main_v44 (F := Ideal) x1 x6) r k :=
  Relation.separate_mean scatter_S50000x32_S2000000x1_S2000000x32_1_0_0_1 ⟨rfl, rfl, rfl, rfl⟩ scatter_S50000_S2000000x1_S2000000_n_0_0_1 ⟨rfl, rfl, rfl, rfl⟩ _ _ _ _ _ _ x7 _ r k

/-- A relation's mean, formed by two separate accumulations. -/
theorem mean_sp (x2 : (⟨S20000x32, .f32⟩ : BufTy).Contents (Elt Ideal)) (x11 : (⟨S1000000, .i32⟩ : BufTy).Contents (Elt Ideal)) (x12 : (⟨S1000000, .i32⟩ : BufTy).Contents (Elt Ideal)) (r : Fin 50000) (k : Fin 32) :
    val_main_v94 (F := Ideal) x2 x11 x12 (ix2 r k) = Relation.mean (N := 50000) (E := 1000000) x12 (val_main_v82 (F := Ideal) x2 x11) r k :=
  Relation.separate_mean scatter_S50000x32_S1000000x1_S1000000x32_1_0_0_1 ⟨rfl, rfl, rfl, rfl⟩ scatter_S50000_S1000000x1_S1000000_n_0_0_1 ⟨rfl, rfl, rfl, rfl⟩ _ _ _ _ _ _ x12 _ r k

/-- A relation's mean, formed by two separate accumulations. -/
theorem mean_ps (x0 : (⟨S50000x32, .f32⟩ : BufTy).Contents (Elt Ideal)) (x9 : (⟨S1000000, .i32⟩ : BufTy).Contents (Elt Ideal)) (x10 : (⟨S1000000, .i32⟩ : BufTy).Contents (Elt Ideal)) (r : Fin 20000) (k : Fin 32) :
    val_main_v119 (F := Ideal) x0 x9 x10 (ix2 r k) = Relation.mean (N := 20000) (E := 1000000) x10 (val_main_v107 (F := Ideal) x0 x9) r k :=
  Relation.separate_mean scatter_S20000x32_S1000000x1_S1000000x32_1_0_0_1 ⟨rfl, rfl, rfl, rfl⟩ scatter_S20000_S1000000x1_S1000000_n_0_0_1 ⟨rfl, rfl, rfl, rfl⟩ _ _ _ _ _ _ x10 _ r k

/-- The third node type's features at `(r, q)`. -/
theorem sw_apply (x0 : (⟨S50000x32, .f32⟩ : BufTy).Contents (Elt Ideal)) (x2 : (⟨S20000x32, .f32⟩ : BufTy).Contents (Elt Ideal)) (x9 : (⟨S1000000, .i32⟩ : BufTy).Contents (Elt Ideal)) (x10 : (⟨S1000000, .i32⟩ : BufTy).Contents (Elt Ideal)) (x23 : (⟨S32x32, .f32⟩ : BufTy).Contents (Elt Ideal)) (x24 : (⟨S32, .f32⟩ : BufTy).Contents (Elt Ideal)) (x25 : (⟨S32x32, .f32⟩ : BufTy).Contents (Elt Ideal)) (r : Fin 20000) (q : Fin 32) :
    val_main_v129 (F := Ideal) x0 x2 x9 x10 x23 x24 x25 (ix2 r q)
      = max (Spec.lin (n := 20000) (val_main_v119 (F := Ideal) x0 x9 x10) x2 x23 (fun i => x24 (ix1 (i 1))) x25 r q)
          (Ideal.ofBits .f32 0x00000000#32) := by
  rw [val_main_v129_apply, val_main_v125_apply, val_main_v123_apply, val_main_v120_apply, val_main_v122_apply,
    val_main_v121_apply, val_main_v124_apply, val_main_call2_v0_apply, val_main_call2_cst_apply]
  have el120 : ∀ k : Fin 32, lidx_main_v120 (ix2 r q : S20000x32.Idx) k = ix2 r k := fun k => funext fun a => Fin.ext (by match a with | ⟨0, _⟩ => rfl | ⟨1, _⟩ => rfl)
  have er120 : ∀ k : Fin 32, ridx_main_v120 (ix2 r q : S20000x32.Idx) k = ix2 k q := fun k => funext fun a => Fin.ext (by match a with | ⟨0, _⟩ => rfl | ⟨1, _⟩ => rfl)
  have el124 : ∀ k : Fin 32, lidx_main_v124 (ix2 r q : S20000x32.Idx) k = ix2 r k := fun k => funext fun a => Fin.ext (by match a with | ⟨0, _⟩ => rfl | ⟨1, _⟩ => rfl)
  have er124 : ∀ k : Fin 32, ridx_main_v124 (ix2 r q : S20000x32.Idx) k = ix2 k q := fun k => funext fun a => Fin.ext (by match a with | ⟨0, _⟩ => rfl | ⟨1, _⟩ => rfl)
  have eb121 : idx_main_v121 (idx_main_v122 (ix2 r q : S20000x32.Idx)) = ix1 q := funext fun a => Fin.ext (by match a with | ⟨0, _⟩ => rfl)
  simp only [el120, er120, el124, er124, eb121]
  rfl

/-- The first node type's features at `(r, q)`: the relation with edge attributes (its overwritten edge term kept as
    it is) plus the plain relation, then `max(·, 0)`. -/
theorem pfas_apply (x0 : (⟨S50000x32, .f32⟩ : BufTy).Contents (Elt Ideal)) (x1 : (⟨S200000x32, .f32⟩ : BufTy).Contents (Elt Ideal)) (x2 : (⟨S20000x32, .f32⟩ : BufTy).Contents (Elt Ideal)) (x6 : (⟨S2000000, .i32⟩ : BufTy).Contents (Elt Ideal)) (x7 : (⟨S2000000, .i32⟩ : BufTy).Contents (Elt Ideal)) (x8 : (⟨S2000000x3, .f32⟩ : BufTy).Contents (Elt Ideal)) (x11 : (⟨S1000000, .i32⟩ : BufTy).Contents (Elt Ideal)) (x12 : (⟨S1000000, .i32⟩ : BufTy).Contents (Elt Ideal)) (x18 : (⟨S32x32, .f32⟩ : BufTy).Contents (Elt Ideal)) (x19 : (⟨S32, .f32⟩ : BufTy).Contents (Elt Ideal)) (x20 : (⟨S32x32, .f32⟩ : BufTy).Contents (Elt Ideal)) (x21 : (⟨S3x32, .f32⟩ : BufTy).Contents (Elt Ideal)) (x22 : (⟨S32, .f32⟩ : BufTy).Contents (Elt Ideal)) (x26 : (⟨S32x32, .f32⟩ : BufTy).Contents (Elt Ideal)) (x27 : (⟨S32, .f32⟩ : BufTy).Contents (Elt Ideal)) (x28 : (⟨S32x32, .f32⟩ : BufTy).Contents (Elt Ideal)) (r : Fin 50000) (q : Fin 32) :
    val_main_v127 (F := Ideal) x0 x1 x2 x6 x7 x8 x11 x12 x18 x19 x20 x21 x22 x26 x27 x28 (ix2 r q)
      = max ((Spec.lin (n := 50000) (val_main_v56 (F := Ideal) x1 x6 x7) x0 x18 (fun i => x19 (ix1 (i 1))) x20 r q
                + val_main_v74 (F := Ideal) x7 x8 x21 x22 (ix2 r q))
              + Spec.lin (n := 50000) (val_main_v94 (F := Ideal) x2 x11 x12) x0 x26 (fun i => x27 (ix1 (i 1))) x28 r q)
          (Ideal.ofBits .f32 0x00000000#32) := by
  rw [val_main_v127_apply, val_main_v126_apply, val_main_v75_apply, val_main_v62_apply, val_main_v60_apply,
    val_main_v57_apply, val_main_v59_apply, val_main_v58_apply, val_main_v61_apply, val_main_v100_apply,
    val_main_v98_apply, val_main_v95_apply, val_main_v97_apply, val_main_v96_apply, val_main_v99_apply,
    val_main_call0_v0_apply, val_main_call0_cst_apply]
  have el57 : ∀ k : Fin 32, lidx_main_v57 (ix2 r q : S50000x32.Idx) k = ix2 r k := fun k => funext fun a => Fin.ext (by match a with | ⟨0, _⟩ => rfl | ⟨1, _⟩ => rfl)
  have er57 : ∀ k : Fin 32, ridx_main_v57 (ix2 r q : S50000x32.Idx) k = ix2 k q := fun k => funext fun a => Fin.ext (by match a with | ⟨0, _⟩ => rfl | ⟨1, _⟩ => rfl)
  have el61 : ∀ k : Fin 32, lidx_main_v61 (ix2 r q : S50000x32.Idx) k = ix2 r k := fun k => funext fun a => Fin.ext (by match a with | ⟨0, _⟩ => rfl | ⟨1, _⟩ => rfl)
  have er61 : ∀ k : Fin 32, ridx_main_v61 (ix2 r q : S50000x32.Idx) k = ix2 k q := fun k => funext fun a => Fin.ext (by match a with | ⟨0, _⟩ => rfl | ⟨1, _⟩ => rfl)
  have eb58 : idx_main_v58 (idx_main_v59 (ix2 r q : S50000x32.Idx)) = ix1 q := funext fun a => Fin.ext (by match a with | ⟨0, _⟩ => rfl)
  have el95 : ∀ k : Fin 32, lidx_main_v95 (ix2 r q : S50000x32.Idx) k = ix2 r k := fun k => funext fun a => Fin.ext (by match a with | ⟨0, _⟩ => rfl | ⟨1, _⟩ => rfl)
  have er95 : ∀ k : Fin 32, ridx_main_v95 (ix2 r q : S50000x32.Idx) k = ix2 k q := fun k => funext fun a => Fin.ext (by match a with | ⟨0, _⟩ => rfl | ⟨1, _⟩ => rfl)
  have el99 : ∀ k : Fin 32, lidx_main_v99 (ix2 r q : S50000x32.Idx) k = ix2 r k := fun k => funext fun a => Fin.ext (by match a with | ⟨0, _⟩ => rfl | ⟨1, _⟩ => rfl)
  have er99 : ∀ k : Fin 32, ridx_main_v99 (ix2 r q : S50000x32.Idx) k = ix2 k q := fun k => funext fun a => Fin.ext (by match a with | ⟨0, _⟩ => rfl | ⟨1, _⟩ => rfl)
  have eb96 : idx_main_v96 (idx_main_v97 (ix2 r q : S50000x32.Idx)) = ix1 q := funext fun a => Fin.ext (by match a with | ⟨0, _⟩ => rfl)
  simp only [el57, er57, el61, er61, eb58, el95, er95, el99, er99, eb96]
  rfl

/-- The second node type's features at `(r, k)`. -/
theorem gw_apply (x0 : (⟨S50000x32, .f32⟩ : BufTy).Contents (Elt Ideal)) (x1 : (⟨S200000x32, .f32⟩ : BufTy).Contents (Elt Ideal)) (x3 : (⟨S2000000, .i32⟩ : BufTy).Contents (Elt Ideal)) (x4 : (⟨S2000000, .i32⟩ : BufTy).Contents (Elt Ideal)) (x5 : (⟨S2000000x3, .f32⟩ : BufTy).Contents (Elt Ideal)) (x13 : (⟨S32x32, .f32⟩ : BufTy).Contents (Elt Ideal)) (x14 : (⟨S32, .f32⟩ : BufTy).Contents (Elt Ideal)) (x15 : (⟨S32x32, .f32⟩ : BufTy).Contents (Elt Ideal)) (x16 : (⟨S3x32, .f32⟩ : BufTy).Contents (Elt Ideal)) (x17 : (⟨S32, .f32⟩ : BufTy).Contents (Elt Ideal)) (r : Fin 200000) (q : Fin 32) :
    val_main_v128 (F := Ideal) x0 x1 x3 x4 x5 x13 x14 x15 x16 x17 (ix2 r q)
      = max (Spec.lin (n := 200000) (val_main_v18 (F := Ideal) x0 x3 x4) x1 x13 (fun i => x14 (ix1 (i 1))) x15 r q
              + val_main_v36 (F := Ideal) x4 x5 x16 x17 (ix2 r q))
          (Ideal.ofBits .f32 0x00000000#32) := by
  rw [val_main_v128_apply, val_main_v37_apply, val_main_v24_apply, val_main_v22_apply, val_main_v19_apply,
    val_main_v21_apply, val_main_v20_apply, val_main_v23_apply, val_main_call1_v0_apply, val_main_call1_cst_apply]
  have el19 : ∀ k : Fin 32, lidx_main_v19 (ix2 r q : S200000x32.Idx) k = ix2 r k := fun k => funext fun a => Fin.ext (by match a with | ⟨0, _⟩ => rfl | ⟨1, _⟩ => rfl)
  have er19 : ∀ k : Fin 32, ridx_main_v19 (ix2 r q : S200000x32.Idx) k = ix2 k q := fun k => funext fun a => Fin.ext (by match a with | ⟨0, _⟩ => rfl | ⟨1, _⟩ => rfl)
  have el23 : ∀ k : Fin 32, lidx_main_v23 (ix2 r q : S200000x32.Idx) k = ix2 r k := fun k => funext fun a => Fin.ext (by match a with | ⟨0, _⟩ => rfl | ⟨1, _⟩ => rfl)
  have er23 : ∀ k : Fin 32, ridx_main_v23 (ix2 r q : S200000x32.Idx) k = ix2 k q := fun k => funext fun a => Fin.ext (by match a with | ⟨0, _⟩ => rfl | ⟨1, _⟩ => rfl)
  have eb20 : idx_main_v20 (idx_main_v21 (ix2 r q : S200000x32.Idx)) = ix1 q := funext fun a => Fin.ext (by match a with | ⟨0, _⟩ => rfl)
  simp only [el19, er19, el23, er23, eb20]
  rfl

/-- The head's output at row `r`. -/
theorem y_apply (x0 : (⟨S50000x32, .f32⟩ : BufTy).Contents (Elt Ideal)) (x1 : (⟨S200000x32, .f32⟩ : BufTy).Contents (Elt Ideal)) (x3 : (⟨S2000000, .i32⟩ : BufTy).Contents (Elt Ideal)) (x4 : (⟨S2000000, .i32⟩ : BufTy).Contents (Elt Ideal)) (x5 : (⟨S2000000x3, .f32⟩ : BufTy).Contents (Elt Ideal)) (x13 : (⟨S32x32, .f32⟩ : BufTy).Contents (Elt Ideal)) (x14 : (⟨S32, .f32⟩ : BufTy).Contents (Elt Ideal)) (x15 : (⟨S32x32, .f32⟩ : BufTy).Contents (Elt Ideal)) (x16 : (⟨S3x32, .f32⟩ : BufTy).Contents (Elt Ideal)) (x17 : (⟨S32, .f32⟩ : BufTy).Contents (Elt Ideal)) (x29 : (⟨S32x1, .f32⟩ : BufTy).Contents (Elt Ideal)) (x30 : (⟨S1, .f32⟩ : BufTy).Contents (Elt Ideal)) (x31 : (⟨S1, .f32⟩ : BufTy).Contents (Elt Ideal)) (r : Fin 200000) (z : Fin 1) :
    val_main_v139 (F := Ideal) x0 x1 x3 x4 x5 x13 x14 x15 x16 x17 x29 x30 x31 (ix2 r z)
      = Spec.head (n := 200000) (val_main_v128 (F := Ideal) x0 x1 x3 x4 x5 x13 x14 x15 x16 x17) x29
          (fun _ => x30 (ix1 0)) (fun _ => x31 (ix1 0)) r := by
  obtain rfl : z = 0 := Subsingleton.elim _ _
  rw [val_main_v139_apply, val_main_v135_apply, val_main_v138_apply, val_main_v137_apply, val_main_v136_apply,
    val_main_v133_apply, val_main_v130_apply, val_main_v132_apply, val_main_v131_apply, val_main_v134_apply,
    val_main_cst_28_apply]
  have el130 : ∀ k : Fin 32, lidx_main_v130 (ix2 r 0 : S200000x1.Idx) k = ix2 r k := fun k => funext fun a => Fin.ext (by match a with | ⟨0, _⟩ => rfl | ⟨1, _⟩ => rfl)
  have er130 : ∀ k : Fin 32, ridx_main_v130 (ix2 r 0 : S200000x1.Idx) k = ix2 k 0 := fun k => funext fun a => Fin.ext (by match a with | ⟨0, _⟩ => rfl | ⟨1, _⟩ => rfl)
  have eb131 : idx_main_v131 (idx_main_v132 (ix2 r 0 : S200000x1.Idx)) = ix1 0 := funext fun a => Fin.ext (by match a with | ⟨0, _⟩ => rfl)
  have eb136 : idx_main_v136 (idx_main_v137 (ix2 r 0 : S200000x1.Idx)) = ix1 0 := funext fun a => Fin.ext (by match a with | ⟨0, _⟩ => rfl)
  unfold Spec.head
  simp only [el130, er130, eb131, eb136]
  rfl

/-- The transformed edge attributes of the first relation at `(e, q)`. -/
theorem edge_pg (x5 : (⟨S2000000x3, .f32⟩ : BufTy).Contents (Elt Ideal)) (x16 : (⟨S3x32, .f32⟩ : BufTy).Contents (Elt Ideal)) (x17 : (⟨S32, .f32⟩ : BufTy).Contents (Elt Ideal)) (r : Fin 2000000) (q : Fin 32) :
    val_main_v28 (F := Ideal) x5 x16 x17 (ix2 r q) = (∑ k : Fin 3, x5 (ix2 r k) * x16 (ix2 k q)) + x17 (ix1 q) := by
  rw [val_main_v28_apply, val_main_v25_apply, val_main_v27_apply, val_main_v26_apply]
  have el25 : ∀ k : Fin 3, lidx_main_v25 (ix2 r q : S2000000x32.Idx) k = ix2 r k := fun k => funext fun a => Fin.ext (by match a with | ⟨0, _⟩ => rfl | ⟨1, _⟩ => rfl)
  have er25 : ∀ k : Fin 3, ridx_main_v25 (ix2 r q : S2000000x32.Idx) k = ix2 k q := fun k => funext fun a => Fin.ext (by match a with | ⟨0, _⟩ => rfl | ⟨1, _⟩ => rfl)
  have eb26 : idx_main_v26 (idx_main_v27 (ix2 r q : S2000000x32.Idx)) = ix1 q := funext fun a => Fin.ext (by match a with | ⟨0, _⟩ => rfl)
  simp only [el25, er25, eb26]
  rfl

/-- The transformed edge attributes of the second relation at `(e, q)`. -/
theorem edge_gp (x8 : (⟨S2000000x3, .f32⟩ : BufTy).Contents (Elt Ideal)) (x21 : (⟨S3x32, .f32⟩ : BufTy).Contents (Elt Ideal)) (x22 : (⟨S32, .f32⟩ : BufTy).Contents (Elt Ideal)) (r : Fin 2000000) (q : Fin 32) :
    val_main_v66 (F := Ideal) x8 x21 x22 (ix2 r q) = (∑ k : Fin 3, x8 (ix2 r k) * x21 (ix2 k q)) + x22 (ix1 q) := by
  rw [val_main_v66_apply, val_main_v63_apply, val_main_v65_apply, val_main_v64_apply]
  have el63 : ∀ k : Fin 3, lidx_main_v63 (ix2 r q : S2000000x32.Idx) k = ix2 r k := fun k => funext fun a => Fin.ext (by match a with | ⟨0, _⟩ => rfl | ⟨1, _⟩ => rfl)
  have er63 : ∀ k : Fin 3, ridx_main_v63 (ix2 r q : S2000000x32.Idx) k = ix2 k q := fun k => funext fun a => Fin.ext (by match a with | ⟨0, _⟩ => rfl | ⟨1, _⟩ => rfl)
  have eb64 : idx_main_v64 (idx_main_v65 (ix2 r q : S2000000x32.Idx)) = ix1 q := funext fun a => Fin.ext (by match a with | ⟨0, _⟩ => rfl)
  simp only [el63, er63, eb64]
  rfl

end Cert.ReferenceIdeal.At

end
-- ==== Proof.BridgeSw.lean ====
/-
  The third node type's features: what the third pallas_call leaves is the reference's result. Both are max(lin, 0) of the same mean (the fused and the separate accumulations agree), the same weights, and the same bias (a reshape reads the bias).
-/
import proofs.«150690_j50689204027575_2_alg».proof.Proof.KernelSw
import proofs.«150690_j50689204027575_2_alg».proof.Proof.KernelHost2
import proofs.«150690_j50689204027575_2_alg».proof.Proof.KernelWalk
import proofs.«150690_j50689204027575_2_alg».proof.Proof.RefAt
import proofs.«150690_j50689204027575_2_alg».proof.Proof.Spec

set_option maxRecDepth 16384

noncomputable section

namespace Cert.Bridge.Sw

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg)

/-- The launch contents of an argument buffer. -/
abbrev A (c : Dev nD) (b : Ref sig .tc) : Buf (Elt Ideal) ((c : Thread nD τ).loc b) := W0 m ρ c (Proc.devRef .tc b)

theorem sw_eq (c : Dev nD) (i : S20000x32.Idx) :
    Cert.KernelIdeal.Sw.G (V5 m ρ) c i
      = Cert.ReferenceIdeal.Read.val_main_v129 (F := Ideal) (A m ρ c main_arg0) (A m ρ c main_arg2) (A m ρ c main_arg9)
          (A m ρ c main_arg10) (A m ρ c main_arg23) (A m ρ c main_arg24) (A m ρ c main_arg25) i := by
  obtain ⟨r, q, rfl⟩ : ∃ (r : Fin 20000) (q : Fin 32), i = ix2 r q := ⟨i 0, i 1, eq_ix2 i⟩
  rw [Cert.ReferenceIdeal.At.sw_apply]
  unfold Cert.KernelIdeal.Sw.G
  dsimp only [V5]
  refine congrArg (fun x => max x (Ideal.ofBits .f32 0x00000000#32)) ?_
  refine Spec.lin_congr r q (fun k => ?_) (fun k => ?_) (fun k => ?_) ?_ (fun k => ?_)
  · rw [Walk.w5_v59, Host2.v59_apply, ← Cert.ReferenceIdeal.At.mean_ps]
  · rw [Walk.w5_arg2, Host2.w1_arg2]
  · rw [Walk.w5_arg23, Host2.w1_arg23]
  · rw [Walk.v109_apply, Host2.w1_arg24]
  · rw [Walk.w5_arg25, Host2.w1_arg25]

end Cert.Bridge.Sw

end
-- ==== Proof.KernelHost1.lean ====
/-
  What the second pallas_call's input arrays hold after the first stretch of host operations, in terms of the launch memory: the means of the two relations landing on the first node type, the mask and the raw edge attributes of the one with attributes, and the arguments.
-/
import proofs.«150690_j50689204027575_2_alg».proof.Proof.Gen.KernelIdeal.Frame
import proofs.«150690_j50689204027575_2_alg».proof.Proof.Gen.ReferenceIdeal.Read
import proofs.«150690_j50689204027575_2_alg».proof.Proof.Relation
import Idealize.ShloMosaic.Lib.StableHlo.Run
import Idealize.ShloMosaic.Lib.ValueLayout

set_option maxRecDepth 16384

noncomputable section

namespace Cert.KernelIdeal.Host1

open Idealize.ShloMosaic Idealize.ShloMosaic.TcCoe Idealize.ShloMosaic.Tactic Idealize.ShloMosaic.ValueIdx
open Idealize.SL.Sem Idealize.ShloMosaic.StableHlo
open Cert.KernelIdeal Cert.KernelIdeal.Gen

variable (m : (ℓ : Loc nD τ sig) → Buf (Elt Ideal) ℓ) (ρ : Dev nD → PrngReg)

/-- The launch contents of an argument buffer. -/
abbrev A (c : Dev nD) (b : Ref sig .tc) : Buf (Elt Ideal) ((c : Thread nD τ).loc b) := W0 m ρ c (Proc.devRef .tc b)

set_option maxHeartbeats 4000000 in
/-- The mean of the relation's messages per destination row, formed the fused way. -/
theorem v38_apply (c : Dev nD) (r : Fin 50000) (k : Fin 32) :
    W1 m ρ c (Proc.devRef .tc main_v38) (ix2 r k)
      = Relation.mean (N := 50000) (E := 2000000) (A m ρ c main_arg7)
          (Cert.ReferenceIdeal.Read.val_main_v44 (F := Ideal) (A m ρ c main_arg1) (A m ρ c main_arg6)) r k := by
  dsimp only [W1, hostOps0]
  after_results_simp
  refine Relation.fused_mean' scatter_S50000x33_S2000000x1_S2000000x33_1_0_0_1 ⟨rfl, rfl, rfl, rfl⟩ _ _ bcast_S_S2000000x1 _ _ _ _ _ (A m ρ c main_arg7)
    (Cert.ReferenceIdeal.Read.val_main_v44 (F := Ideal) (A m ρ c main_arg1) (A m ρ c main_arg6)) _ _ ?_ ?_ r k
  · after_results_simp
    rfl
  · after_results_simp

set_option maxHeartbeats 4000000 in
/-- One on the rows some edge reaches, zero elsewhere. -/
theorem v41_apply (c : Dev nD) (r : Fin 50000) (z : Fin 1) :
    W1 m ρ c (Proc.devRef .tc main_v41) (ix2 r z) = Relation.reached (N := 50000) (E := 2000000) (A m ρ c main_arg7) r := by
  obtain rfl : z = 0 := Subsingleton.elim _ _
  dsimp only [W1, hostOps0]
  after_results_simp
  refine Relation.fused_mask' scatter_S50000x33_S2000000x1_S2000000x33_1_0_0_1 ⟨rfl, rfl, rfl, rfl⟩ _ _ bcast_S_S2000000x1 _ _ (A m ρ c main_arg7) _ _ ?_ _ r
  after_results_simp

set_option maxHeartbeats 4000000 in
/-- The raw edge attributes, the last edge sent to a row winning. -/
theorem v99_eq (c : Dev nD) :
    W1 m ρ c (Proc.devRef .tc main_v99)
      = Host.scatter scatter_S50000x3_S2000000x1_S2000000x3_1_0_0_1 (fun _ b => b)
          (broadcastInDim S50000x3 ![] bcast_S_S50000x3 (constant (F := Ideal) S_ .f32 0x00000000#32))
          (broadcastInDim S2000000x1 ![0] bcast_S2000000_S2000000x1_0
            (select (cmpi .slt (A m ρ c main_arg7) (broadcastInDim S2000000 ![] bcast_S_S2000000 (constantI S_ 32 0#32)))
              (addi (A m ρ c main_arg7) (broadcastInDim S2000000 ![] bcast_S_S2000000 (constantI S_ 32 50000#32)))
              (A m ρ c main_arg7)))
          (A m ρ c main_arg8) := by
  dsimp only [W1, hostOps0]
  after_results_simp

set_option maxHeartbeats 4000000 in
/-- The mean of the relation's messages per destination row, formed the fused way. -/
theorem v80_apply (c : Dev nD) (r : Fin 50000) (k : Fin 32) :
    W1 m ρ c (Proc.devRef .tc main_v80) (ix2 r k)
      = Relation.mean (N := 50000) (E := 1000000) (A m ρ c main_arg12)
          (Cert.ReferenceIdeal.Read.val_main_v82 (F := Ideal) (A m ρ c main_arg2) (A m ρ c main_arg11)) r k := by
  dsimp only [W1, hostOps0]
  after_results_simp
  refine Relation.fused_mean' scatter_S50000x33_S1000000x1_S1000000x33_1_0_0_1 ⟨rfl, rfl, rfl, rfl⟩ _ _ bcast_S_S1000000x1 _ _ _ _ _ (A m ρ c main_arg12)
    (Cert.ReferenceIdeal.Read.val_main_v82 (F := Ideal) (A m ρ c main_arg2) (A m ρ c main_arg11)) _ _ ?_ ?_ r k
  · after_results_simp
    rfl
  · after_results_simp

set_option maxHeartbeats 4000000 in
theorem w1_arg0 (c : Dev nD) : W1 m ρ c (Proc.devRef .tc main_arg0) = A m ρ c main_arg0 := by
  dsimp only [W1, hostOps0]
  after_results_simp

set_option maxHeartbeats 4000000 in
theorem w1_arg18 (c : Dev nD) : W1 m ρ c (Proc.devRef .tc main_arg18) = A m ρ c main_arg18 := by
  dsimp only [W1, hostOps0]
  after_results_simp

set_option maxHeartbeats 4000000 in
theorem w1_arg20 (c : Dev nD) : W1 m ρ c (Proc.devRef .tc main_arg20) = A m ρ c main_arg20 := by
  dsimp only [W1, hostOps0]
  after_results_simp

set_option maxHeartbeats 4000000 in
theorem w1_arg21 (c : Dev nD) : W1 m ρ c (Proc.devRef .tc main_arg21) = A m ρ c main_arg21 := by
  dsimp only [W1, hostOps0]
  after_results_simp

set_option maxHeartbeats 4000000 in
theorem w1_arg26 (c : Dev nD) : W1 m ρ c (Proc.devRef .tc main_arg26) = A m ρ c main_arg26 := by
  dsimp only [W1, hostOps0]
  after_results_simp

set_option maxHeartbeats 4000000 in
theorem w1_arg28 (c : Dev nD) : W1 m ρ c (Proc.devRef .tc main_arg28) = A m ρ c main_arg28 := by
  dsimp only [W1, hostOps0]
  after_results_simp

set_option maxHeartbeats 4000000 in
theorem w1_arg19 (c : Dev nD) : W1 m ρ c (Proc.devRef .tc main_arg19) = A m ρ c main_arg19 := by
  dsimp only [W1, hostOps0]
  after_results_simp

set_option maxHeartbeats 4000000 in
theorem w1_arg22 (c : Dev nD) : W1 m ρ c (Proc.devRef .tc main_arg22) = A m ρ c main_arg22 := by
  dsimp only [W1, hostOps0]
  after_results_simp

set_option maxHeartbeats 4000000 in
theorem w1_arg27 (c : Dev nD) : W1 m ρ c (Proc.devRef .tc main_arg27) = A m ρ c main_arg27 := by
  dsimp only [W1, hostOps0]
  after_results_simp

end Cert.KernelIdeal.Host1

end
-- ==== Proof.BridgePfas.lean ====
/-
  The first node type's features: what the second pallas_call leaves is the reference's result. The means of the two relations agree (fused and separate accumulations); the kernel's raw edge attributes through the edge weights plus the masked bias are the reference's overwritten transformed attributes, the destination indices being non-negative; the three summands are then re-associated.
-/
import proofs.«150690_j50689204027575_2_alg».proof.Proof.KernelPfas
import proofs.«150690_j50689204027575_2_alg».proof.Proof.KernelHost1
import proofs.«150690_j50689204027575_2_alg».proof.Proof.KernelWalk
import proofs.«150690_j50689204027575_2_alg».proof.Proof.RefAt
import proofs.«150690_j50689204027575_2_alg».proof.Proof.Spec
import proofs.«150690_j50689204027575_2_alg».proof.Proof.Relation

set_option maxRecDepth 16384

noncomputable section

namespace Cert.Bridge.Pfas

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg)

/-- The launch contents of an argument buffer. -/
abbrev A (c : Dev nD) (b : Ref sig .tc) : Buf (Elt Ideal) ((c : Thread nD τ).loc b) := W0 m ρ c (Proc.devRef .tc b)

/-- The edge term of the relation landing on the first node type. -/
theorem edge_term (c : Dev nD) (hnn : ∀ e, 0 ≤ ((A m ρ c main_arg7 : IVec S2000000 32) e).toInt) (r : Fin 50000) (q : Fin 32) :
    Spec.edgeSum (n := 50000) (W3 m ρ c (Proc.devRef .tc main_v99)) (W3 m ρ c (Proc.devRef .tc main_arg21)) (W3 m ρ c (Proc.devRef .tc main_v41)) (W3 m ρ c (Proc.devRef .tc main_v106)) r q
      = Cert.ReferenceIdeal.Read.val_main_v74 (F := Ideal) (A m ρ c main_arg7) (A m ρ c main_arg8) (A m ρ c main_arg21) (A m ρ c main_arg22) (ix2 r q) := by
  unfold Spec.edgeSum
  rw [Walk.w3_v99, Host1.v99_eq, Walk.w3_arg21, Host1.w1_arg21, Walk.w3_v41, Host1.v41_apply, Walk.v106_apply, Host1.w1_arg22,
    Relation.nrm_eq _ 50000#32 (A m ρ c main_arg7) hnn]
  have hn : Cert.ReferenceIdeal.Read.val_main_v72 (F := Ideal) (A m ρ c main_arg7) = A m ρ c main_arg7 :=
    Relation.nrm_eq _ 50000#32 (A m ρ c main_arg7) hnn
  unfold Cert.ReferenceIdeal.Read.val_main_v74 Cert.ReferenceIdeal.Read.val_main_v73
  rw [hn]
  exact (Relation.edge_eq scatter_S50000x3_S2000000x1_S2000000x3_1_0_0_1 ⟨rfl, rfl, rfl, rfl⟩
    Cert.ReferenceIdeal.scatter_S50000x32_S2000000x1_S2000000x32_1_0_0_1 ⟨rfl, rfl, rfl, rfl⟩ _ _ _ (A m ρ c main_arg7)
    (A m ρ c main_arg8) (Cert.ReferenceIdeal.Read.val_main_v66 (F := Ideal) (A m ρ c main_arg8) (A m ρ c main_arg21) (A m ρ c main_arg22)) (A m ρ c main_arg21)
    (fun q => (A m ρ c main_arg22 : S32.Idx → EReal) (ix1 q))
    (fun e q => Cert.ReferenceIdeal.At.edge_gp (A m ρ c main_arg8) (A m ρ c main_arg21) (A m ρ c main_arg22) e q) r q).symm

theorem pfas_eq (c : Dev nD) (hnn : ∀ e, 0 ≤ ((A m ρ c main_arg7 : IVec S2000000 32) e).toInt) (i : S50000x32.Idx) :
    Cert.KernelIdeal.Pfas.G (V3 m ρ) c i
      = Cert.ReferenceIdeal.Read.val_main_v127 (F := Ideal) (A m ρ c main_arg0) (A m ρ c main_arg1) (A m ρ c main_arg2) (A m ρ c main_arg6) (A m ρ c main_arg7) (A m ρ c main_arg8) (A m ρ c main_arg11) (A m ρ c main_arg12) (A m ρ c main_arg18) (A m ρ c main_arg19) (A m ρ c main_arg20) (A m ρ c main_arg21) (A m ρ c main_arg22) (A m ρ c main_arg26) (A m ρ c main_arg27) (A m ρ c main_arg28) i := by
  obtain ⟨r, q, rfl⟩ : ∃ (r : Fin 50000) (q : Fin 32), i = ix2 r q := ⟨i 0, i 1, eq_ix2 i⟩
  rw [Cert.ReferenceIdeal.At.pfas_apply]
  unfold Cert.KernelIdeal.Pfas.G
  dsimp only [V3]
  refine congrArg (fun x => max x (Ideal.ofBits .f32 0x00000000#32)) ?_
  have hm : ∀ k : Fin 32, (W3 m ρ c (Proc.devRef .tc main_v38)) (ix2 r k)
      = Cert.ReferenceIdeal.Read.val_main_v56 (F := Ideal) (A m ρ c main_arg1) (A m ρ c main_arg6) (A m ρ c main_arg7) (ix2 r k) := fun k => by
    rw [Walk.w3_v38, Host1.v38_apply, ← Cert.ReferenceIdeal.At.mean_gp]
  have hx : ∀ k : Fin 32, (W3 m ρ c (Proc.devRef .tc main_arg0)) (ix2 r k) = A m ρ c main_arg0 (ix2 r k) := fun k => by
    rw [Walk.w3_arg0, Host1.w1_arg0]
  have hWl : ∀ k : Fin 32, (W3 m ρ c (Proc.devRef .tc main_arg18)) (ix2 k q) = A m ρ c main_arg18 (ix2 k q) := fun k => by
    rw [Walk.w3_arg18, Host1.w1_arg18]
  have hb : (W3 m ρ c (Proc.devRef .tc main_v105)) (ix2 0 q) = A m ρ c main_arg19 (ix1 q) := by rw [Walk.v105_apply, Host1.w1_arg19]
  have hWr : ∀ k : Fin 32, (W3 m ρ c (Proc.devRef .tc main_arg20)) (ix2 k q) = A m ρ c main_arg20 (ix2 k q) := fun k => by
    rw [Walk.w3_arg20, Host1.w1_arg20]
  have hm2 : ∀ k : Fin 32, (W3 m ρ c (Proc.devRef .tc main_v80)) (ix2 r k)
      = Cert.ReferenceIdeal.Read.val_main_v94 (F := Ideal) (A m ρ c main_arg2) (A m ρ c main_arg11) (A m ρ c main_arg12) (ix2 r k) := fun k => by
    rw [Walk.w3_v80, Host1.v80_apply, ← Cert.ReferenceIdeal.At.mean_sp]
  have hWl2 : ∀ k : Fin 32, (W3 m ρ c (Proc.devRef .tc main_arg26)) (ix2 k q) = A m ρ c main_arg26 (ix2 k q) := fun k => by
    rw [Walk.w3_arg26, Host1.w1_arg26]
  have hb2 : (W3 m ρ c (Proc.devRef .tc main_v107)) (ix2 0 q) = A m ρ c main_arg27 (ix1 q) := by rw [Walk.v107_apply, Host1.w1_arg27]
  have hWr2 : ∀ k : Fin 32, (W3 m ρ c (Proc.devRef .tc main_arg28)) (ix2 k q) = A m ρ c main_arg28 (ix2 k q) := fun k => by
    rw [Walk.w3_arg28, Host1.w1_arg28]
  refine congrArg₂ (fun x y => x + y) ?_ (Spec.lin_congr r q hm2 hx hWl2 hb2 hWr2)
  refine (Spec.linEdge_eq _ _ _ _ _ _ _ _ _ r q _ (edge_term m ρ c hnn r q)).trans ?_
  exact congrArg (fun x => x + Cert.ReferenceIdeal.Read.val_main_v74 (F := Ideal) (A m ρ c main_arg7) (A m ρ c main_arg8) (A m ρ c main_arg21) (A m ρ c main_arg22) (ix2 r q)) (Spec.lin_congr r q hm hx hWl hb hWr)

end Cert.Bridge.Pfas

end
-- ==== Proof.KernelHost0.lean ====
/-
  What the first pallas_call finds in the arrays it reads, in terms of the launch memory: the mean of the first relation's messages, the mask of the rows it reaches, its raw edge attributes scattered by destination, and the arguments.
-/
import proofs.«150690_j50689204027575_2_alg».proof.Proof.Gen.KernelIdeal.Frame
import proofs.«150690_j50689204027575_2_alg».proof.Proof.Gen.ReferenceIdeal.Read
import proofs.«150690_j50689204027575_2_alg».proof.Proof.Relation
import Idealize.ShloMosaic.Lib.StableHlo.Run
import Idealize.ShloMosaic.Lib.ValueLayout

set_option maxRecDepth 16384

noncomputable section

namespace Cert.KernelIdeal.Host0

open Idealize.ShloMosaic Idealize.ShloMosaic.TcCoe Idealize.ShloMosaic.Tactic Idealize.ShloMosaic.ValueIdx
open Idealize.SL.Sem Idealize.ShloMosaic.StableHlo
open Cert.KernelIdeal Cert.KernelIdeal.Gen

variable (m : (ℓ : Loc nD τ sig) → Buf (Elt Ideal) ℓ) (ρ : Dev nD → PrngReg)

/-- The launch contents of an argument buffer. -/
abbrev A (c : Dev nD) (b : Ref sig .tc) : Buf (Elt Ideal) ((c : Thread nD τ).loc b) := W0 m ρ c (Proc.devRef .tc b)

set_option maxHeartbeats 4000000 in
/-- The mean of the relation's messages per destination row, formed the fused way. -/
theorem v17_apply (c : Dev nD) (r : Fin 200000) (k : Fin 32) :
    W1 m ρ c (Proc.devRef .tc main_v17) (ix2 r k)
      = Relation.mean (N := 200000) (E := 2000000) (A m ρ c main_arg4)
          (Cert.ReferenceIdeal.Read.val_main_v6 (F := Ideal) (A m ρ c main_arg0) (A m ρ c main_arg3)) r k := by
  dsimp only [W1, hostOps0]
  after_results
  exact Relation.fused_mean scatter_S200000x33_S2000000x1_S2000000x33_1_0_0_1 ⟨rfl, rfl, rfl, rfl⟩ _ _ _ _ _ _ _ _ _ _ r k

set_option maxHeartbeats 4000000 in
/-- One on the rows some edge reaches, zero elsewhere. -/
theorem v20_apply (c : Dev nD) (r : Fin 200000) (z : Fin 1) :
    W1 m ρ c (Proc.devRef .tc main_v20) (ix2 r z) = Relation.reached (N := 200000) (E := 2000000) (A m ρ c main_arg4) r := by
  obtain rfl : z = 0 := Subsingleton.elim _ _
  dsimp only [W1, hostOps0]
  after_results
  exact Relation.fused_mask scatter_S200000x33_S2000000x1_S2000000x33_1_0_0_1 ⟨rfl, rfl, rfl, rfl⟩ _ _ _ _ _ _ _ _ r

set_option maxHeartbeats 4000000 in
/-- The raw edge attributes, the last edge sent to a row winning. -/
theorem v91_eq (c : Dev nD) :
    W1 m ρ c (Proc.devRef .tc main_v91)
      = Host.scatter scatter_S200000x3_S2000000x1_S2000000x3_1_0_0_1 (fun _ b => b)
          (broadcastInDim S200000x3 ![] bcast_S_S200000x3 (constant (F := Ideal) S_ .f32 0x00000000#32))
          (broadcastInDim S2000000x1 ![0] bcast_S2000000_S2000000x1_0
            (select (cmpi .slt (A m ρ c main_arg4) (broadcastInDim S2000000 ![] bcast_S_S2000000 (constantI S_ 32 0#32)))
              (addi (A m ρ c main_arg4) (broadcastInDim S2000000 ![] bcast_S_S2000000 (constantI S_ 32 200000#32)))
              (A m ρ c main_arg4)))
          (A m ρ c main_arg5) := by
  dsimp only [W1, hostOps0]
  after_results_simp

set_option maxHeartbeats 4000000 in
theorem w1_arg1 (c : Dev nD) : W1 m ρ c (Proc.devRef .tc main_arg1) = A m ρ c main_arg1 := by
  dsimp only [W1, hostOps0]
  after_results_simp

set_option maxHeartbeats 4000000 in
theorem w1_arg13 (c : Dev nD) : W1 m ρ c (Proc.devRef .tc main_arg13) = A m ρ c main_arg13 := by
  dsimp only [W1, hostOps0]
  after_results_simp

set_option maxHeartbeats 4000000 in
theorem w1_arg15 (c : Dev nD) : W1 m ρ c (Proc.devRef .tc main_arg15) = A m ρ c main_arg15 := by
  dsimp only [W1, hostOps0]
  after_results_simp

set_option maxHeartbeats 4000000 in
theorem w1_arg16 (c : Dev nD) : W1 m ρ c (Proc.devRef .tc main_arg16) = A m ρ c main_arg16 := by
  dsimp only [W1, hostOps0]
  after_results_simp

set_option maxHeartbeats 4000000 in
theorem w1_arg29 (c : Dev nD) : W1 m ρ c (Proc.devRef .tc main_arg29) = A m ρ c main_arg29 := by
  dsimp only [W1, hostOps0]
  after_results_simp

set_option maxHeartbeats 4000000 in
theorem w1_arg14 (c : Dev nD) : W1 m ρ c (Proc.devRef .tc main_arg14) = A m ρ c main_arg14 := by
  dsimp only [W1, hostOps0]
  after_results_simp

set_option maxHeartbeats 4000000 in
theorem w1_arg17 (c : Dev nD) : W1 m ρ c (Proc.devRef .tc main_arg17) = A m ρ c main_arg17 := by
  dsimp only [W1, hostOps0]
  after_results_simp

set_option maxHeartbeats 4000000 in
theorem w1_arg30 (c : Dev nD) : W1 m ρ c (Proc.devRef .tc main_arg30) = A m ρ c main_arg30 := by
  dsimp only [W1, hostOps0]
  after_results_simp

set_option maxHeartbeats 4000000 in
theorem w1_arg31 (c : Dev nD) : W1 m ρ c (Proc.devRef .tc main_arg31) = A m ρ c main_arg31 := by
  dsimp only [W1, hostOps0]
  after_results_simp

set_option maxHeartbeats 4000000 in
/-- The bias as a one-row array. -/
theorem v100_apply (c : Dev nD) (z : Fin 1) (q : Fin 32) :
    W1 m ρ c (Proc.devRef .tc main_v100) (ix2 z q) = A m ρ c main_arg14 (ix1 q) := by
  dsimp only [W1, hostOps0]
  after_results_simp
  exact shapeCast_a_1a_apply _ shapeCasts_S32_S1x32 z q

set_option maxHeartbeats 4000000 in
/-- The bias as a one-row array. -/
theorem v101_apply (c : Dev nD) (z : Fin 1) (q : Fin 32) :
    W1 m ρ c (Proc.devRef .tc main_v101) (ix2 z q) = A m ρ c main_arg17 (ix1 q) := by
  dsimp only [W1, hostOps0]
  after_results_simp
  exact shapeCast_a_1a_apply _ shapeCasts_S32_S1x32 z q

set_option maxHeartbeats 4000000 in
/-- The bias as a one-row array. -/
theorem v102_apply (c : Dev nD) (z : Fin 1) (q : Fin 1) :
    W1 m ρ c (Proc.devRef .tc main_v102) (ix2 z q) = A m ρ c main_arg30 (ix1 q) := by
  dsimp only [W1, hostOps0]
  after_results_simp
  exact shapeCast_a_1a_apply _ shapeCasts_S1_S1x1 z q

set_option maxHeartbeats 4000000 in
/-- The bias as a one-row array. -/
theorem v103_apply (c : Dev nD) (z : Fin 1) (q : Fin 1) :
    W1 m ρ c (Proc.devRef .tc main_v103) (ix2 z q) = A m ρ c main_arg31 (ix1 q) := by
  dsimp only [W1, hostOps0]
  after_results_simp
  exact shapeCast_a_1a_apply _ shapeCasts_S1_S1x1 z q

end Cert.KernelIdeal.Host0

end
-- ==== Proof.BridgeGw.lean ====
/-
  The head's output: what the first pallas_call leaves in its second output is the reference's result. The second node type's features agree as for the first node type (equal means, the edge term by the last-edge-wins argument under non-negative destination indices, re-association); the head is then the same function of the same features, output weights, bias and slope.
-/
import proofs.«150690_j50689204027575_2_alg».proof.Proof.KernelGw
import proofs.«150690_j50689204027575_2_alg».proof.Proof.KernelHost0
import proofs.«150690_j50689204027575_2_alg».proof.Proof.RefAt
import proofs.«150690_j50689204027575_2_alg».proof.Proof.Spec
import proofs.«150690_j50689204027575_2_alg».proof.Proof.Relation

set_option maxRecDepth 16384

noncomputable section

namespace Cert.Bridge.Gw

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg)

/-- The launch contents of an argument buffer. -/
abbrev A (c : Dev nD) (b : Ref sig .tc) : Buf (Elt Ideal) ((c : Thread nD τ).loc b) := W0 m ρ c (Proc.devRef .tc b)

/-- The edge term of the relation landing on the second node type. -/
theorem edge_term (c : Dev nD) (hnn : ∀ e, 0 ≤ ((A m ρ c main_arg4 : IVec S2000000 32) e).toInt) (r : Fin 200000) (q : Fin 32) :
    Spec.edgeSum (n := 200000) (W1 m ρ c (Proc.devRef .tc main_v91)) (W1 m ρ c (Proc.devRef .tc main_arg16)) (W1 m ρ c (Proc.devRef .tc main_v20)) (W1 m ρ c (Proc.devRef .tc main_v101)) r q
      = Cert.ReferenceIdeal.Read.val_main_v36 (F := Ideal) (A m ρ c main_arg4) (A m ρ c main_arg5) (A m ρ c main_arg16) (A m ρ c main_arg17) (ix2 r q) := by
  unfold Spec.edgeSum
  rw [Host0.v91_eq, Host0.w1_arg16, Host0.v20_apply, Host0.v101_apply,
    Relation.nrm_eq _ 200000#32 (A m ρ c main_arg4) hnn]
  have hn : Cert.ReferenceIdeal.Read.val_main_v34 (F := Ideal) (A m ρ c main_arg4) = A m ρ c main_arg4 :=
    Relation.nrm_eq _ 200000#32 (A m ρ c main_arg4) hnn
  unfold Cert.ReferenceIdeal.Read.val_main_v36 Cert.ReferenceIdeal.Read.val_main_v35
  rw [hn]
  exact (Relation.edge_eq scatter_S200000x3_S2000000x1_S2000000x3_1_0_0_1 ⟨rfl, rfl, rfl, rfl⟩
    Cert.ReferenceIdeal.scatter_S200000x32_S2000000x1_S2000000x32_1_0_0_1 ⟨rfl, rfl, rfl, rfl⟩ _ _ _ (A m ρ c main_arg4)
    (A m ρ c main_arg5) (Cert.ReferenceIdeal.Read.val_main_v28 (F := Ideal) (A m ρ c main_arg5) (A m ρ c main_arg16) (A m ρ c main_arg17)) (A m ρ c main_arg16)
    (fun q => (A m ρ c main_arg17 : S32.Idx → EReal) (ix1 q))
    (fun e q => Cert.ReferenceIdeal.At.edge_pg (A m ρ c main_arg5) (A m ρ c main_arg16) (A m ρ c main_arg17) e q) r q).symm

/-- The second node type's features agree. -/
theorem h_eq (c : Dev nD) (hnn : ∀ e, 0 ≤ ((A m ρ c main_arg4 : IVec S2000000 32) e).toInt) (r : Fin 200000) (q : Fin 32) :
    Cert.KernelIdeal.Gw.H (V1 m ρ) c (ix2 r q)
      = Cert.ReferenceIdeal.Read.val_main_v128 (F := Ideal) (A m ρ c main_arg0) (A m ρ c main_arg1) (A m ρ c main_arg3) (A m ρ c main_arg4) (A m ρ c main_arg5) (A m ρ c main_arg13) (A m ρ c main_arg14) (A m ρ c main_arg15) (A m ρ c main_arg16) (A m ρ c main_arg17) (ix2 r q) := by
  rw [Cert.ReferenceIdeal.At.gw_apply]
  unfold Cert.KernelIdeal.Gw.H
  dsimp only [V1]
  refine congrArg (fun x => max x (Ideal.ofBits .f32 0x00000000#32)) ?_
  refine (Spec.linEdge_eq _ _ _ _ _ _ _ _ _ r q _ (edge_term m ρ c hnn r q)).trans ?_
  have hm : ∀ k : Fin 32, (W1 m ρ c (Proc.devRef .tc main_v17)) (ix2 r k)
      = Cert.ReferenceIdeal.Read.val_main_v18 (F := Ideal) (A m ρ c main_arg0) (A m ρ c main_arg3) (A m ρ c main_arg4) (ix2 r k) := fun k => by
    rw [Host0.v17_apply, ← Cert.ReferenceIdeal.At.mean_pg]
  have hx : ∀ k : Fin 32, (W1 m ρ c (Proc.devRef .tc main_arg1)) (ix2 r k) = A m ρ c main_arg1 (ix2 r k) := fun k => by rw [Host0.w1_arg1]
  have hWl : ∀ k : Fin 32, (W1 m ρ c (Proc.devRef .tc main_arg13)) (ix2 k q) = A m ρ c main_arg13 (ix2 k q) := fun k => by rw [Host0.w1_arg13]
  have hb : (W1 m ρ c (Proc.devRef .tc main_v100)) (ix2 0 q) = A m ρ c main_arg14 (ix1 q) := by rw [Host0.v100_apply]
  have hWr : ∀ k : Fin 32, (W1 m ρ c (Proc.devRef .tc main_arg15)) (ix2 k q) = A m ρ c main_arg15 (ix2 k q) := fun k => by rw [Host0.w1_arg15]
  exact congrArg (fun x => x + Cert.ReferenceIdeal.Read.val_main_v36 (F := Ideal) (A m ρ c main_arg4) (A m ρ c main_arg5) (A m ρ c main_arg16) (A m ρ c main_arg17) (ix2 r q)) (Spec.lin_congr r q hm hx hWl hb hWr)

theorem y_eq (c : Dev nD) (hnn : ∀ e, 0 ≤ ((A m ρ c main_arg4 : IVec S2000000 32) e).toInt) (i : S200000x1.Idx) :
    Cert.KernelIdeal.Gw.G (V1 m ρ) c i
      = Cert.ReferenceIdeal.Read.val_main_v139 (F := Ideal) (A m ρ c main_arg0) (A m ρ c main_arg1) (A m ρ c main_arg3) (A m ρ c main_arg4) (A m ρ c main_arg5) (A m ρ c main_arg13) (A m ρ c main_arg14) (A m ρ c main_arg15) (A m ρ c main_arg16) (A m ρ c main_arg17) (A m ρ c main_arg29) (A m ρ c main_arg30) (A m ρ c main_arg31) i := by
  obtain ⟨r, z, rfl⟩ : ∃ (r : Fin 200000) (z : Fin 1), i = ix2 r z := ⟨i 0, i 1, eq_ix2 i⟩
  rw [Cert.ReferenceIdeal.At.y_apply]
  unfold Cert.KernelIdeal.Gw.G
  dsimp only [V1]
  refine Spec.head_congr r (fun k => h_eq m ρ c hnn r k) (fun k => ?_) ?_ ?_
  · rw [Host0.w1_arg29]
  · rw [Host0.v102_apply]
  · rw [Host0.v103_apply]

end Cert.Bridge.Gw

end
-- ==== Proof.PreDomain.lean ====
/-
  What the precondition says about the two destination-index arrays that carry edge attributes: every entry is
  non-negative as a signed integer. (The precondition is a conjunction; these are its last two conjuncts, each a
  signed comparison with zero reduced by `and` over all edges.)
-/
import proofs.«150690_j50689204027575_2_alg».proof.Defs
import Idealize.ShloMosaic.Lib.ReduceAll
import Idealize.ShloMosaic.Lib.Affine
import Idealize.ShloMosaic.Lib.ValueIdx

noncomputable section

namespace Cert.PreDomain

open Idealize.ShloMosaic Idealize.ShloMosaic.ValueIdx Cert.Pre_finite_inputs

instance : Subsingleton S_.Idx := ⟨fun a b => funext fun d => d.elim0⟩

variable [hP : Cert.Pre_finite_inputs.Facts]

/-- The last stretch of the precondition holds only if both index arrays are non-negative everywhere. -/
theorem part7_nonneg {F : FTy → Type} [FloatOps F] (a4 a7 : IVec S2000000 32) (v118 : IVec S_ 1)
    (h : fn_part7 (F := F) a4 a7 v118 (constantI S_ 32 0#32) = fun _ => 1#1) (e : S2000000.Idx) :
    0 ≤ (a4 e).toInt ∧ 0 ≤ (a7 e).toInt := by
  have h0 := congrFun h ix0
  dsimp only [fn_part7] at h0
  obtain ⟨h1, h2⟩ := IntOp.andi_eq_one.1 h0
  obtain ⟨-, h3⟩ := IntOp.andi_eq_one.1 h1
  have e4 := Host.reduce_andi_all _ _ _ _ ix0 h3 e
  have e7 := Host.reduce_andi_all _ _ _ _ ix0 h2 e
  have g4 := IntOp.cmpi_sge.1 e4
  have g7 := IntOp.cmpi_sge.1 e7
  exact ⟨g4, g7⟩

/-- Under the kernel's precondition both destination-index arrays are non-negative on every device. -/
theorem nonneg_of_pre (m : (ℓ : Loc Cert.KernelIdeal.nD Cert.KernelIdeal.τ Cert.KernelIdeal.sig) → Buf (Elt Ideal) ℓ)
    (hpre : Cert.Pre_KernelIdeal m) (c : Dev Cert.KernelIdeal.nD) (e : S2000000.Idx) :
    0 ≤ ((m ((c.tc : Thread Cert.KernelIdeal.nD Cert.KernelIdeal.τ).loc Cert.KernelIdeal.main_arg4) : IVec S2000000 32) e).toInt
    ∧ 0 ≤ ((m ((c.tc : Thread Cert.KernelIdeal.nD Cert.KernelIdeal.τ).loc Cert.KernelIdeal.main_arg7) : IVec S2000000 32) e).toInt :=
  part7_nonneg (F := Ideal) _ _ _ (hpre c) e

end Cert.PreDomain

end
-- ==== Proof.Algebraic.lean ====
/-
  The two idealized programs end with equal results. The kernel's three result buffers are what its three
  pallas_calls leave in their output arrays, each one function of the arrays its region finds; those functions are the
  reference's results of the same arguments (the three bridges), the destination indices being non-negative under the
  precondition; the reference's run ends at those results.
-/
import proofs.«150690_j50689204027575_2_alg».proof.Defs
import proofs.«150690_j50689204027575_2_alg».proof.Proof.Gen.ReferenceIdeal.Run
import proofs.«150690_j50689204027575_2_alg».proof.Proof.Gen.ReferenceIdeal.Read
import proofs.«150690_j50689204027575_2_alg».proof.Proof.KernelResults
import proofs.«150690_j50689204027575_2_alg».proof.Proof.KernelSw
import proofs.«150690_j50689204027575_2_alg».proof.Proof.KernelPfas
import proofs.«150690_j50689204027575_2_alg».proof.Proof.KernelGw
import proofs.«150690_j50689204027575_2_alg».proof.Proof.BridgeSw
import proofs.«150690_j50689204027575_2_alg».proof.Proof.BridgePfas
import proofs.«150690_j50689204027575_2_alg».proof.Proof.BridgeGw
import proofs.«150690_j50689204027575_2_alg».proof.Proof.PreDomain
import proofs.«150690_j50689204027575_2_alg».proof.Proof.Gen.KernelIdeal
import proofs.«150690_j50689204027575_2_alg».proof.Proof.Gen.Pre_finite_inputs

set_option maxRecDepth 16384

noncomputable section

namespace Cert.Proof.Alg

open Idealize.ShloMosaic Idealize.ShloMosaic.TcCoe Idealize.ShloMosaic.ValueIdx
open Idealize.SL.Sem Idealize.ShloMosaic.StableHlo
open Cert.KernelIdeal Cert.KernelIdeal.Gen

variable (m : (ℓ : Loc nD τ sig) → Buf (Elt Ideal) ℓ) (ρ : Dev nD → PrngReg)

/-- The third result is what the third pallas_call leaves in its output array. -/
theorem w6_v110 (c : Dev nD) : W6 m ρ c (Proc.devRef .tc main_v110) = Cert.KernelIdeal.Sw.G (V5 m ρ) c :=
  (W6_arr m ρ c 5).trans (Cert.KernelIdeal.Sw.final (V5 m ρ) c)

/-- The first result is what the second pallas_call leaves: the third call and the reshape before it do not write it. -/
theorem w6_v108 (c : Dev nD) : W6 m ρ c (Proc.devRef .tc main_v108) = Cert.KernelIdeal.Pfas.G (V3 m ρ) c :=
  (W6_of_ne m ρ c main_v108 (by decide)).trans
    ((StableHlo.after_of_forall_not_mem (b := Proc.devRef .tc main_v108) _ _ (List.forall_iff_forall_mem.mp (by
      simp only [hostOps2, List.Forall, StableHlo.reshape_writes, Finset.mem_singleton]
      repeat' apply And.intro
      all_goals exact StableHlo.devRef_ne_of_ne (by decide)))).trans
      ((W4_arr m ρ c 13).trans (Cert.KernelIdeal.Pfas.final (V3 m ρ) c)))

/-- The second result is what the first pallas_call leaves: nothing after it writes it. -/
theorem w6_v104_1 (c : Dev nD) : W6 m ρ c (Proc.devRef .tc main_v104_1) = Cert.KernelIdeal.Gw.G (V1 m ρ) c :=
  (W6_of_ne m ρ c main_v104_1 (by decide)).trans
    ((StableHlo.after_of_forall_not_mem (b := Proc.devRef .tc main_v104_1) _ _ (List.forall_iff_forall_mem.mp (by
      simp only [hostOps2, List.Forall, StableHlo.reshape_writes, Finset.mem_singleton]
      repeat' apply And.intro
      all_goals exact StableHlo.devRef_ne_of_ne (by decide)))).trans
      ((W4_of_ne m ρ c main_v104_1 (by decide)).trans
        ((StableHlo.after_of_forall_not_mem (b := Proc.devRef .tc main_v104_1) _ _ (List.forall_iff_forall_mem.mp (by
      simp only [hostOps1, List.Forall, StableHlo.reshape_writes, Finset.mem_singleton]
      repeat' apply And.intro
      all_goals exact StableHlo.devRef_ne_of_ne (by decide)))).trans
          ((W2_arr m ρ c 13).trans (Cert.KernelIdeal.Gw.final (V1 m ρ) c)))))

end Cert.Proof.Alg

namespace Cert.Proof

open Idealize.ShloMosaic Idealize.ShloMosaic.TcCoe Idealize.SL.Sem
open Cert.KernelIdeal Cert.KernelIdeal.Gen

/-- The idealized kernel and the idealized reference, run from memories agreeing on the arguments, end with equal
    results. -/
theorem algebraic : Cert.algebraic_KernelIdeal_ReferenceIdeal := by
  intro m ρ m' ρ' hpre hagree
  refine ⟨fun c => W6 m ρ c (Proc.devRef .tc main_v108), fun c => W6 m ρ c (Proc.devRef .tc main_v104_1),
    fun c => W6 m ρ c (Proc.devRef .tc main_v110), Cert.KernelIdeal.Results.run_results (F := Ideal) m ρ, ?_⟩
  refine (θ_run Cert.ReferenceIdeal.defs _ _).mono (fun r h c => ?_) (Cert.ReferenceIdeal.Value.run (F := Ideal) m' ρ')
  obtain ⟨h127, h139, h129, hargs⟩ := h c
  obtain ⟨a0, a1, a2, a3, a4, a5, a6, a7, a8, a9, a10, a11, a12, a13, a14, a15, a16, a17, a18, a19, a20, a21, a22, a23, a24, a25, a26, a27, a28, a29, a30, a31⟩ := hagree c
  have hnn := Cert.PreDomain.nonneg_of_pre m hpre c
  refine ⟨h127.trans ?_, h139.trans ?_, h129.trans ?_, hargs⟩
  · beta_reduce
    rw [Cert.ReferenceIdeal.Read.val_main_v127_eq, a0, a1, a2, a6, a7, a8, a11, a12, a18, a19, a20, a21, a22, a26, a27, a28, Alg.w6_v108]
    exact (funext fun i => Cert.Bridge.Pfas.pfas_eq m ρ c (fun e => (hnn e).2) i).symm
  · beta_reduce
    rw [Cert.ReferenceIdeal.Read.val_main_v139_eq, a0, a1, a3, a4, a5, a13, a14, a15, a16, a17, a29, a30, a31, Alg.w6_v104_1]
    exact (funext fun i => Cert.Bridge.Gw.y_eq m ρ c (fun e => (hnn e).1) i).symm
  · beta_reduce
    rw [Cert.ReferenceIdeal.Read.val_main_v129_eq, a0, a2, a9, a10, a23, a24, a25, Alg.w6_v110]
    exact (funext fun i => Cert.Bridge.Sw.sw_eq m ρ c i).symm

end Cert.Proof

end
-- ==== Proof.lean ====
/-
  One layer of message passing over three node types and four relations, with a linear head on one node type:
  the kernel against its reference, over the extended reals.

  For every relation the messages of the source nodes are averaged per destination node (the sum of the messages
  sent to a node over the number of them, at least one); the node update is the mean through one weight matrix, a
  bias, and the node's own features through another; two relations also carry edge attributes, of which the node
  keeps the LAST edge's, through a third matrix with its bias. The kernel forms the mean from one accumulation of
  `[messages | 1]` where the reference accumulates messages and ones apart — the same sums —, and it keeps the raw
  attribute of the last edge and applies the matrix afterwards, adding the bias only where some edge reached the
  node — the same value, because the last edge sent to a node is the same whatever is overwritten, and a node no
  edge reached holds zero either way. That needs the destination indices of the two attributed relations to be
  non-negative (a negative one is wrapped by the overwriting scatter and dropped by the accumulating one): the
  precondition says so. The three pallas_calls then compute the updates block by block, 5000 rows at a time, and
  the blocks tile each output.

  The three frames are the generated ones (the reference's from its generated run); the ideal pass changed nothing,
  so there is nothing to preserve; `algebraic` is `Cert.Proof.algebraic` (Proof/Algebraic.lean).
-/
import proofs.«150690_j50689204027575_2_alg».proof.Defs
import proofs.«150690_j50689204027575_2_alg».proof.Proof.Gen.Kernel
import proofs.«150690_j50689204027575_2_alg».proof.Proof.Gen.Kernel.Skeleton
import proofs.«150690_j50689204027575_2_alg».proof.Proof.Gen.Kernel.Launch
import proofs.«150690_j50689204027575_2_alg».proof.Proof.Gen.Kernel.Points
import proofs.«150690_j50689204027575_2_alg».proof.Proof.Gen.Kernel.Frame
import proofs.«150690_j50689204027575_2_alg».proof.Proof.Gen.KernelIdeal
import proofs.«150690_j50689204027575_2_alg».proof.Proof.Gen.KernelIdeal.Skeleton
import proofs.«150690_j50689204027575_2_alg».proof.Proof.Gen.KernelIdeal.Launch
import proofs.«150690_j50689204027575_2_alg».proof.Proof.Gen.KernelIdeal.Points
import proofs.«150690_j50689204027575_2_alg».proof.Proof.Gen.KernelIdeal.Frame
import proofs.«150690_j50689204027575_2_alg».proof.Proof.Gen.ReferenceIdeal
import proofs.«150690_j50689204027575_2_alg».proof.Proof.Gen.Pre_finite_inputs
import proofs.«150690_j50689204027575_2_alg».proof.Proof.Gen.ReferenceIdeal.Run
import proofs.«150690_j50689204027575_2_alg».proof.Proof.Gen.ReferenceIdeal.Read
import proofs.«150690_j50689204027575_2_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2)
    (Cert.ReferenceIdeal.Value.run (F := Ideal) m ρ),
  trivial,
  Cert.Proof.algebraic⟩

end Cert.Proof

end
